-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg15 : FVec F S64 .f32) (main_arg16 : FVec F S64x2 .f32) (main_arg17 : FVec F S2 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x2 .f32 := Host.absf main_arg16
  let main_cst_28 : FVec F S_ .f32 := constant S_ .f32 0x7F800000#32
  let main_v75 : FVec F S64x2 .f32 := broadcastInDim S64x2 ![] bcast_S_S64x2 main_cst_28
  let main_v76 : IVec S64x2 1 := cmpf .olt main_v74 main_v75
  let main_c_29 : IVec S_ 1 := constantI S_ 1 1#1
  let main_v77 : IVec S_ 1 := (fun x v => Host.reduce IntOp.andi x v reducesTo_S64x2_S_d0_1 h_S_) main_v76 main_c_29
  let main_v78 : IVec S_ 1 := andi main_v73 main_v77
  let main_v79 : FVec F S2 .f32 := Host.absf main_arg17
  let main_cst_30 : FVec F S_ .f32 := constant S_ .f32 0x7F800000#32
  let main_v80 : FVec F S2 .f32 := broadcastInDim S2 ![] bcast_S_S2 main_cst_30
  let main_v81 : IVec S2 1 := cmpf .olt main_v79 main_v80
  let main_c_31 : IVec S_ 1 := constantI S_ 1 1#1
  let main_v82 : IVec S_ 1 := (fun x v => Host.reduce IntOp.andi x v reducesTo_S2_S_d0 h_S_) main_v81 main_c_31
  let main_v83 : IVec S_ 1 := andi main_v78 main_v82
  main_v83

def fn_part3 {F : FTy → Type} [FloatOps F] (main_arg12 : FVec F S64 .f32) (main_arg13 : FVec F S64x64 .f32) (main_arg14 : FVec F S64 .f32) (main_arg15 : FVec F S64 .f32) (main_arg16 : FVec F S64x2 .f32) (main_arg17 : FVec F S2 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg13
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg15 main_arg16 main_arg17 main_v63 main_v67

def fn_part2 {F : FTy → Type} [FloatOps F] (main_arg8 : FVec F S64x64 .f32) (main_arg9 : FVec F S64 .f32) (main_arg10 : FVec F S64 .f32) (main_arg11 : FVec F S64x64 .f32) (main_arg12 : FVec F S64 .f32) (main_arg13 : FVec F S64x64 .f32) (main_arg14 : FVec F S64 .f32) (main_arg15 : FVec F S64 .f32) (main_arg16 : FVec F S64x2 .f32) (main_arg17 : FVec F S2 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg11
  let main_cst_18 : FVec F S_ .f32 := constant S_ .f32 0x7F800000#32
  let main_v50 : FVec F S64x64 .f32 := broadcastInDim S64x64 ![] bcast_S_S64x64 main_cst_18
  fn_part3 (F := F) main_arg12 main_arg13 main_arg14 main_arg15 main_arg16 main_arg17 main_v48 main_v49 main_v50

def fn_part1 {F : FTy → Type} [FloatOps F] (main_arg5 : FVec F S64 .f32) (main_arg6 : FVec F S64x64 .f32) (main_arg7 : FVec F S64 .f32) (main_arg8 : FVec F S64x64 .f32) (main_arg9 : FVec F S64 .f32) (main_arg10 : FVec F S64 .f32) (main_arg11 : FVec F S64x64 .f32) (main_arg12 : FVec F S64 .f32) (main_arg13 : FVec F S64x64 .f32) (main_arg14 : FVec F S64 .f32) (main_arg15 : FVec F S64 .f32) (main_arg16 : FVec F S64x2 .f32) (main_arg17 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S100000x128 .f32) (main_arg1 : IVec S2x3200000 32) (main_arg2 : FVec F S128x64 .f32) (main_arg3 : FVec F S64 .f32) (main_arg4 : FVec F S64 .f32) (main_arg5 : FVec F S64 .f32) (main_arg6 : FVec F S64x64 .f32) (main_arg7 : FVec F S64 .f32) (main_arg8 : FVec F S64x64 .f32) (main_arg9 : FVec F S64 .f32) (main_arg10 : FVec F S64 .f32) (main_arg11 : FVec F S64x64 .f32) (main_arg12 : FVec F S64 .f32) (main_arg13 : FVec F S64x64 .f32) (main_arg14 : FVec F S64 .f32) (main_arg15 : FVec F S64 .f32) (main_arg16 : FVec F S64x2 .f32) (main_arg17 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S1x3200000 : Shape := ⟨2, ![1, 3200000]⟩
abbrev S3200000 : Shape := ⟨1, ![3200000]⟩
abbrev S1x64 : Shape := ⟨2, ![1, 64]⟩
abbrev S100000x64 : Shape := ⟨2, ![100000, 64]⟩
abbrev S10000x128 : Shape := ⟨2, ![10000, 128]⟩
abbrev S10000x64 : Shape := ⟨2, ![10000, 64]⟩
abbrev S_ : Shape := ⟨0, ![]⟩
abbrev S100000 : Shape := ⟨1, ![100000]⟩
abbrev S3200000x1 : Shape := ⟨2, ![3200000, 1]⟩
abbrev S3200000x64 : Shape := ⟨2, ![3200000, 64]⟩
abbrev S100000x1 : Shape := ⟨2, ![100000, 1]⟩
abbrev S1x2 : Shape := ⟨2, ![1, 2]⟩
abbrev S100000x2 : Shape := ⟨2, ![100000, 2]⟩
abbrev S10000x2 : Shape := ⟨2, ![10000, 2]⟩

abbrev nBuf : Space → Nat
  | .hbm => 175
  | .vmem => 60
  | .smem => 0
  | _ => 0

abbrev hbmTy0_0 (i : Nat) : BufTy := match i % 128 with
  | 0 => ⟨S100000x128, .f32⟩
  | 1 => ⟨S2x3200000, .i32⟩
  | 2 => ⟨S128x64, .f32⟩
  | 3 => ⟨S64, .f32⟩
  | 4 => ⟨S64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64, .f32⟩
  | 11 => ⟨S64x64, .f32⟩
  | 12 => ⟨S64, .f32⟩
  | 13 => ⟨S64x64, .f32⟩
  | 14 => ⟨S64, .f32⟩
  | 15 => ⟨S64, .f32⟩
  | 16 => ⟨S64x2, .f32⟩
  | 17 => ⟨S2, .f32⟩
  | 18 => ⟨S1x3200000, .i32⟩
  | 19 => ⟨S3200000, .i32⟩
  | 20 => ⟨S1x3200000, .i32⟩
  | 21 => ⟨S3200000, .i32⟩
  | 22 => ⟨S1x64, .f32⟩
  | 23 => ⟨S100000x64, .f32⟩
  | 24 => ⟨S_, .f32⟩
  | 25 => ⟨S100000x64, .f32⟩
  | 26 => ⟨S_, .f32⟩
  | 27 => ⟨S64, .f32⟩
  | 28 => ⟨S_, .f32⟩
  | 29 => ⟨S64, .f32⟩
  | 30 => ⟨S64, .f32⟩
  | 31 => ⟨S_, .i32⟩
  | 32 => ⟨S_, .f32⟩
  | 33 => ⟨S64, .f32⟩
  | 34 => ⟨S1x64, .f32⟩
  | 35 => ⟨S_, .f32⟩
  | 36 => ⟨S1x64, .f32⟩
  | 37 => ⟨S1x64, .f32⟩
  | 38 => ⟨S100000x64, .f32⟩
  | 39 => ⟨S100000x64, .f32⟩
  | 40 => ⟨S100000x64, .f32⟩
  | 41 => ⟨S_, .f32⟩
  | 42 => ⟨S_, .f32⟩
  | 43 => ⟨S_, .f32⟩
  | 44 => ⟨S_, .f32⟩
  | 45 => ⟨S64, .f32⟩
  | 46 => ⟨S64, .f32⟩
  | 47 => ⟨S64, .f32⟩
  | 48 => ⟨S_, .f32⟩
  | 49 => ⟨S_, .i1⟩
  | 50 => ⟨S_, .f32⟩
  | 51 => ⟨S_, .f32⟩
  | 52 => ⟨S64, .f32⟩
  | 53 => ⟨S64, .f32⟩
  | 54 => ⟨S1x64, .f32⟩
  | 55 => ⟨S1x64, .f32⟩
  | 56 => ⟨S1x64, .f32⟩
  | 57 => ⟨S1x64, .f32⟩
  | 58 => ⟨S100000x64, .f32⟩
  | 59 => ⟨S_, .f32⟩
  | 60 => ⟨S3200000, .f32⟩
  | 61 => ⟨S_, .f32⟩
  | 62 => ⟨S100000, .f32⟩
  | 63 => ⟨S3200000x1, .i32⟩
  | 64 => ⟨S100000, .f32⟩
  | 65 => ⟨S_, .f32⟩
  | 66 => ⟨S100000, .f32⟩
  | 67 => ⟨S100000, .f32⟩
  | 68 => ⟨S_, .f32⟩
  | 69 => ⟨S100000, .f32⟩
  | 70 => ⟨S100000, .f32⟩
  | 71 => ⟨S_, .i32⟩
  | 72 => ⟨S3200000, .i32⟩
  | 73 => ⟨S3200000, .i1⟩
  | 74 => ⟨S_, .i32⟩
  | 75 => ⟨S3200000, .i32⟩
  | 76 => ⟨S3200000, .i32⟩
  | 77 => ⟨S3200000, .i32⟩
  | 78 => ⟨S3200000x1, .i32⟩
  | 79 => ⟨S3200000x64, .f32⟩
  | 80 => ⟨S_, .f32⟩
  | 81 => ⟨S100000x64, .f32⟩
  | 82 => ⟨S3200000x1, .i32⟩
  | 83 => ⟨S100000x64, .f32⟩
  | 84 => ⟨S100000x1, .f32⟩
  | 85 => ⟨S100000x64, .f32⟩
  | 86 => ⟨S100000x64, .f32⟩
  | 87 => ⟨S1x64, .f32⟩
  | 88 => ⟨S100000x64, .f32⟩
  | 89 => ⟨S_, .f32⟩
  | 90 => ⟨S64, .f32⟩
  | 91 => ⟨S_, .f32⟩
  | 92 => ⟨S64, .f32⟩
  | 93 => ⟨S64, .f32⟩
  | 94 => ⟨S_, .i32⟩
  | 95 => ⟨S_, .f32⟩
  | 96 => ⟨S64, .f32⟩
  | 97 => ⟨S1x64, .f32⟩
  | 98 => ⟨S_, .f32⟩
  | 99 => ⟨S1x64, .f32⟩
  | 100 => ⟨S1x64, .f32⟩
  | 101 => ⟨S100000x64, .f32⟩
  | 102 => ⟨S100000x64, .f32⟩
  | 103 => ⟨S100000x64, .f32⟩
  | 104 => ⟨S_, .f32⟩
  | 105 => ⟨S_, .f32⟩
  | 106 => ⟨S_, .f32⟩
  | 107 => ⟨S_, .f32⟩
  | 108 => ⟨S64, .f32⟩
  | 109 => ⟨S64, .f32⟩
  | 110 => ⟨S64, .f32⟩
  | 111 => ⟨S_, .f32⟩
  | 112 => ⟨S_, .i1⟩
  | 113 => ⟨S_, .f32⟩
  | 114 => ⟨S_, .f32⟩
  | 115 => ⟨S64, .f32⟩
  | 116 => ⟨S64, .f32⟩
  | 117 => ⟨S1x64, .f32⟩
  | 118 => ⟨S1x64, .f32⟩
  | 119 => ⟨S1x64, .f32⟩
  | 120 => ⟨S1x64, .f32⟩
  | 121 => ⟨S100000x64, .f32⟩
  | 122 => ⟨S_, .i32⟩
  | 123 => ⟨S3200000, .i32⟩
  | 124 => ⟨S3200000, .i1⟩
  | 125 => ⟨S_, .i32⟩
  | 126 => ⟨S3200000, .i32⟩
  | 127 => ⟨S3200000, .i32⟩
  | _ => ⟨S100000x128, .f32⟩

abbrev hbmTy0_1 (i : Nat) : BufTy := match i % 128 with
  | 0 => ⟨S3200000, .i32⟩
  | 1 => ⟨S3200000x1, .i32⟩
  | 2 => ⟨S3200000x64, .f32⟩
  | 3 => ⟨S_, .f32⟩
  | 4 => ⟨S100000x64, .f32⟩
  | 5 => ⟨S3200000x1, .i32⟩
  | 6 => ⟨S100000x64, .f32⟩
  | 7 => ⟨S100000x1, .f32⟩
  | 8 => ⟨S100000x64, .f32⟩
  | 9 => ⟨S100000x64, .f32⟩
  | 10 => ⟨S1x64, .f32⟩
  | 11 => ⟨S100000x64, .f32⟩
  | 12 => ⟨S_, .f32⟩
  | 13 => ⟨S64, .f32⟩
  | 14 => ⟨S_, .f32⟩
  | 15 => ⟨S64, .f32⟩
  | 16 => ⟨S64, .f32⟩
  | 17 => ⟨S_, .i32⟩
  | 18 => ⟨S_, .f32⟩
  | 19 => ⟨S64, .f32⟩
  | 20 => ⟨S1x64, .f32⟩
  | 21 => ⟨S_, .f32⟩
  | 22 => ⟨S1x64, .f32⟩
  | 23 => ⟨S1x64, .f32⟩
  | 24 => ⟨S100000x64, .f32⟩
  | 25 => ⟨S100000x64, .f32⟩
  | 26 => ⟨S100000x64, .f32⟩
  | 27 => ⟨S_, .f32⟩
  | 28 => ⟨S_, .f32⟩
  | 29 => ⟨S_, .f32⟩
  | 30 => ⟨S_, .f32⟩
  | 31 => ⟨S64, .f32⟩
  | 32 => ⟨S64, .f32⟩
  | 33 => ⟨S64, .f32⟩
  | 34 => ⟨S_, .f32⟩
  | 35 => ⟨S_, .i1⟩
  | 36 => ⟨S_, .f32⟩
  | 37 => ⟨S_, .f32⟩
  | 38 => ⟨S64, .f32⟩
  | 39 => ⟨S64, .f32⟩
  | 40 => ⟨S1x64, .f32⟩
  | 41 => ⟨S1x64, .f32⟩
  | 42 => ⟨S1x64, .f32⟩
  | 43 => ⟨S1x64, .f32⟩
  | 44 => ⟨S100000x64, .f32⟩
  | 45 => ⟨S1x2, .f32⟩
  | 46 => ⟨S100000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S64x64, .f32⟩
  | .local _ .vmem, ⟨19, _⟩ => ⟨S10000x64, .f32⟩
  | .local _ .vmem, ⟨20, _⟩ => ⟨S10000x64, .f32⟩
  | .local _ .vmem, ⟨21, _⟩ => ⟨S64x64, .f32⟩
  | .local _ .vmem, ⟨22, _⟩ => ⟨S1x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S1x64, .f32⟩
  | .local _ .vmem, ⟨28, _⟩ => ⟨S1x64, .f32⟩
  | .local _ .vmem, ⟨29, _⟩ => ⟨S1x64, .f32⟩
  | .local _ .vmem, ⟨30, _⟩ => ⟨S1x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S64x64, .f32⟩
  | .local _ .vmem, ⟨38, _⟩ => ⟨S10000x64, .f32⟩
  | .local _ .vmem, ⟨39, _⟩ => ⟨S10000x64, .f32⟩
  | .local _ .vmem, ⟨40, _⟩ => ⟨S64x64, .f32⟩
  | .local _ .vmem, ⟨41, _⟩ => ⟨S1x64, .f32⟩
  | .local _ .vmem, ⟨42, _⟩ => ⟨S10000x64, .f32⟩
  | .local _ .vmem, ⟨43, _⟩ => ⟨S10000x64, .f32⟩
  | .local _ .vmem, ⟨44, _⟩ => ⟨S10000x64, .f32⟩
  | .local _ .vmem, ⟨45, _⟩ => ⟨S10000x64, .f32⟩
  | .local _ .vmem, ⟨46, _⟩ => ⟨S1x64, .f32⟩
  | .local _ .vmem, ⟨47, _⟩ => ⟨S1x64, .f32⟩
  | .local _ .vmem, ⟨48, _⟩ => ⟨S1x64, .f32⟩
  | .local _ .vmem, ⟨49, _⟩ => ⟨S1x64, .f32⟩
  | .local _ .vmem, ⟨50, _⟩ => ⟨S10000x64, .f32⟩
  | .local _ .vmem, ⟨51, _⟩ => ⟨S10000x64, .f32⟩
  | .local _ .vmem, ⟨52, _⟩ => ⟨S10000x64, .f32⟩
  | .local _ .vmem, ⟨53, _⟩ => ⟨S10000x64, .f32⟩
  | .local _ .vmem, ⟨54, _⟩ => ⟨S10000x64, .f32⟩
  | .local _ .vmem, ⟨55, _⟩ => ⟨S10000x64, .f32⟩
  | .local _ .vmem, ⟨56, _⟩ => ⟨S64x2, .f32⟩
  | .local _ .vmem, ⟨57, _⟩ => ⟨S1x2, .f32⟩
  | .local _ .vmem, ⟨58, _⟩ => ⟨S10000x2, .f32⟩
  | .local _ .vmem, ⟨59, _⟩ => ⟨S10000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_cst : Ref sig .tc := ⟨.hbm, 24, rfl⟩
abbrev main_v6 : Ref sig .tc := ⟨.hbm, 25, rfl⟩
abbrev main_cst_0 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_c : Ref sig .tc := ⟨.hbm, 31, rfl⟩
abbrev main_call0_cst : Ref sig .tc := ⟨.hbm, 32, rfl⟩
abbrev main_call0_v0 : Ref sig .tc := ⟨.hbm, 33, rfl⟩
abbrev main_call0_v1 : Ref sig .tc := ⟨.hbm, 34, rfl⟩
abbrev main_call0_cst_0 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_v6 : Ref sig .tc := ⟨.hbm, 40, rfl⟩
abbrev main_call0_v7 : Ref sig .tc := ⟨.hbm, 41, rfl⟩
abbrev main_call0_cst_1 : Ref sig .tc := ⟨.hbm, 42, rfl⟩
abbrev main_call0_v8 : Ref sig .tc := ⟨.hbm, 43, rfl⟩
abbrev main_call0_cst_2 : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_cst_3 : Ref sig .tc := ⟨.hbm, 48, rfl⟩
abbrev main_call0_v12 : Ref sig .tc := ⟨.hbm, 49, rfl⟩
abbrev main_call0_cst_4 : Ref sig .tc := ⟨.hbm, 50, rfl⟩
abbrev main_call0_call0_v0 : Ref sig .tc := ⟨.hbm, 51, rfl⟩
abbrev main_call0_call0_v1 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_cst_2 : Ref sig .tc := ⟨.hbm, 59, rfl⟩
abbrev main_v16 : Ref sig .tc := ⟨.hbm, 60, rfl⟩
abbrev main_cst_3 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_cst_4 : Ref sig .tc := ⟨.hbm, 65, rfl⟩
abbrev main_v20 : Ref sig .tc := ⟨.hbm, 66, rfl⟩
abbrev main_v21 : Ref sig .tc := ⟨.hbm, 67, rfl⟩
abbrev main_cst_5 : Ref sig .tc := ⟨.hbm, 68, rfl⟩
abbrev main_v22 : Ref sig .tc := ⟨.hbm, 69, rfl⟩
abbrev main_v23 : Ref sig .tc := ⟨.hbm, 70, rfl⟩
abbrev main_c_6 : Ref sig .tc := ⟨.hbm, 71, rfl⟩
abbrev main_v24 : Ref sig .tc := ⟨.hbm, 72, rfl⟩
abbrev main_v25 : Ref sig .tc := ⟨.hbm, 73, rfl⟩
abbrev main_c_7 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_cst_8 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_cst_9 : Ref sig .tc := ⟨.hbm, 89, rfl⟩
abbrev main_v39 : Ref sig .tc := ⟨.hbm, 90, rfl⟩
abbrev main_cst_10 : Ref sig .tc := ⟨.hbm, 91, rfl⟩
abbrev main_v40 : Ref sig .tc := ⟨.hbm, 92, rfl⟩
abbrev main_v41 : Ref sig .tc := ⟨.hbm, 93, rfl⟩
abbrev main_c_11 : Ref sig .tc := ⟨.hbm, 94, rfl⟩
abbrev main_call1_cst : Ref sig .tc := ⟨.hbm, 95, rfl⟩
abbrev main_call1_v0 : Ref sig .tc := ⟨.hbm, 96, rfl⟩
abbrev main_call1_v1 : Ref sig .tc := ⟨.hbm, 97, rfl⟩
abbrev main_call1_cst_0 : Ref sig .tc := ⟨.hbm, 98, rfl⟩
abbrev main_call1_v2 : Ref sig .tc := ⟨.hbm, 99, rfl⟩
abbrev main_call1_v3 : Ref sig .tc := ⟨.hbm, 100, rfl⟩
abbrev main_call1_v4 : Ref sig .tc := ⟨.hbm, 101, rfl⟩
abbrev main_call1_v5 : Ref sig .tc := ⟨.hbm, 102, rfl⟩
abbrev main_call1_v6 : Ref sig .tc := ⟨.hbm, 103, rfl⟩
abbrev main_call1_v7 : Ref sig .tc := ⟨.hbm, 104, rfl⟩
abbrev main_call1_cst_1 : Ref sig .tc := ⟨.hbm, 105, rfl⟩
abbrev main_call1_v8 : Ref sig .tc := ⟨.hbm, 106, rfl⟩
abbrev main_call1_cst_2 : Ref sig .tc := ⟨.hbm, 107, rfl⟩
abbrev main_call1_v9 : Ref sig .tc := ⟨.hbm, 108, rfl⟩
abbrev main_call1_v10 : Ref sig .tc := ⟨.hbm, 109, rfl⟩
abbrev main_call1_v11 : Ref sig .tc := ⟨.hbm, 110, rfl⟩
abbrev main_call1_cst_3 : Ref sig .tc := ⟨.hbm, 111, rfl⟩
abbrev main_call1_v12 : Ref sig .tc := ⟨.hbm, 112, rfl⟩
abbrev main_call1_cst_4 : Ref sig .tc := ⟨.hbm, 113, rfl⟩
abbrev main_call1_call0_v0 : Ref sig .tc := ⟨.hbm, 114, rfl⟩
abbrev main_call1_call0_v1 : Ref sig .tc := ⟨.hbm, 115, rfl⟩
abbrev main_v42 : Ref sig .tc := ⟨.hbm, 116, rfl⟩
abbrev main_v43 : Ref sig .tc := ⟨.hbm, 117, rfl⟩
abbrev main_v44 : Ref sig .tc := ⟨.hbm, 118, rfl⟩
abbrev main_v45 : Ref sig .tc := ⟨.hbm, 119, rfl⟩
abbrev main_v46 : Ref sig .tc := ⟨.hbm, 120, rfl⟩
abbrev main_v47 : Ref sig .tc := ⟨.hbm, 121, rfl⟩
abbrev main_c_12 : Ref sig .tc := ⟨.hbm, 122, rfl⟩
abbrev main_v48 : Ref sig .tc := ⟨.hbm, 123, rfl⟩
abbrev main_v49 : Ref sig .tc := ⟨.hbm, 124, rfl⟩
abbrev main_c_13 : Ref sig .tc := ⟨.hbm, 125, rfl⟩
abbrev main_v50 : Ref sig .tc := ⟨.hbm, 126, rfl⟩
abbrev main_v51 : Ref sig .tc := ⟨.hbm, 127, rfl⟩
abbrev main_v52 : Ref sig .tc := ⟨.hbm, 128, rfl⟩
abbrev main_v53 : Ref sig .tc := ⟨.hbm, 129, rfl⟩
abbrev main_v54 : Ref sig .tc := ⟨.hbm, 130, rfl⟩
abbrev main_cst_14 : Ref sig .tc := ⟨.hbm, 131, rfl⟩
abbrev main_v55 : Ref sig .tc := ⟨.hbm, 132, rfl⟩
abbrev main_v56 : Ref sig .tc := ⟨.hbm, 133, rfl⟩
abbrev main_v57 : Ref sig .tc := ⟨.hbm, 134, rfl⟩
abbrev main_v58 : Ref sig .tc := ⟨.hbm, 135, rfl⟩
abbrev main_v59 : Ref sig .tc := ⟨.hbm, 136, rfl⟩
abbrev main_v60 : Ref sig .tc := ⟨.hbm, 137, rfl⟩
abbrev main_v61 : Ref sig .tc := ⟨.hbm, 138, rfl⟩
abbrev main_v62 : Ref sig .tc := ⟨.hbm, 139, rfl⟩
abbrev main_cst_15 : Ref sig .tc := ⟨.hbm, 140, rfl⟩
abbrev main_v63 : Ref sig .tc := ⟨.hbm, 141, rfl⟩
abbrev main_cst_16 : Ref sig .tc := ⟨.hbm, 142, rfl⟩
abbrev main_v64 : Ref sig .tc := ⟨.hbm, 143, rfl⟩
abbrev main_v65 : Ref sig .tc := ⟨.hbm, 144, rfl⟩
abbrev main_c_17 : Ref sig .tc := ⟨.hbm, 145, rfl⟩
abbrev main_call2_cst : Ref sig .tc := ⟨.hbm, 146, rfl⟩
abbrev main_call2_v0 : Ref sig .tc := ⟨.hbm, 147, rfl⟩
abbrev main_call2_v1 : Ref sig .tc := ⟨.hbm, 148, rfl⟩
abbrev main_call2_cst_0 : Ref sig .tc := ⟨.hbm, 149, rfl⟩
abbrev main_call2_v2 : Ref sig .tc := ⟨.hbm, 150, rfl⟩
abbrev main_call2_v3 : Ref sig .tc := ⟨.hbm, 151, rfl⟩
abbrev main_call2_v4 : Ref sig .tc := ⟨.hbm, 152, rfl⟩
abbrev main_call2_v5 : Ref sig .tc := ⟨.hbm, 153, rfl⟩
abbrev main_call2_v6 : Ref sig .tc := ⟨.hbm, 154, rfl⟩
abbrev main_call2_v7 : Ref sig .tc := ⟨.hbm, 155, rfl⟩
abbrev main_call2_cst_1 : Ref sig .tc := ⟨.hbm, 156, rfl⟩
abbrev main_call2_v8 : Ref sig .tc := ⟨.hbm, 157, rfl⟩
abbrev main_call2_cst_2 : Ref sig .tc := ⟨.hbm, 158, rfl⟩
abbrev main_call2_v9 : Ref sig .tc := ⟨.hbm, 159, rfl⟩
abbrev main_call2_v10 : Ref sig .tc := ⟨.hbm, 160, rfl⟩
abbrev main_call2_v11 : Ref sig .tc := ⟨.hbm, 161, rfl⟩
abbrev main_call2_cst_3 : Ref sig .tc := ⟨.hbm, 162, rfl⟩
abbrev main_call2_v12 : Ref sig .tc := ⟨.hbm, 163, rfl⟩
abbrev main_call2_cst_4 : Ref sig .tc := ⟨.hbm, 164, rfl⟩
abbrev main_call2_call0_v0 : Ref sig .tc := ⟨.hbm, 165, rfl⟩
abbrev main_call2_call0_v1 : Ref sig .tc := ⟨.hbm, 166, rfl⟩
abbrev main_v66 : Ref sig .tc := ⟨.hbm, 167, rfl⟩
abbrev main_v67 : Ref sig .tc := ⟨.hbm, 168, rfl⟩
abbrev main_v68 : Ref sig .tc := ⟨.hbm, 169, rfl⟩
abbrev main_v69 : Ref sig .tc := ⟨.hbm, 170, rfl⟩
abbrev main_v70 : Ref sig .tc := ⟨.hbm, 171, rfl⟩
abbrev main_v71 : Ref sig .tc := ⟨.hbm, 172, rfl⟩
abbrev main_v72 : Ref sig .tc := ⟨.hbm, 173, rfl⟩
abbrev main_v73 : Ref sig .tc := ⟨.hbm, 174, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc3_stg6_0 : Ref sig .tc := ⟨.vmem, 33, rfl⟩
abbrev cc3_stg6_1 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg2_0 : Ref sig .tc := ⟨.vmem, 38, rfl⟩
abbrev cc4_stg2_1 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg5_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg4_0 : Ref sig .tc := ⟨.vmem, 49, rfl⟩
abbrev cc5_stg5_0 : Ref sig .tc := ⟨.vmem, 50, rfl⟩
abbrev cc5_stg5_1 : Ref sig .tc := ⟨.vmem, 51, rfl⟩
abbrev cc5_stg6_0 : Ref sig .tc := ⟨.vmem, 52, rfl⟩
abbrev cc5_stg6_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg2_0 : Ref sig .tc := ⟨.vmem, 57, rfl⟩
abbrev cc6_stg3_0 : Ref sig .tc := ⟨.vmem, 58, rfl⟩
abbrev cc6_stg3_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem5_0 : DmaSem sig := 23
abbrev cc2_sem5_1 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem5_1 : DmaSem sig := 32
abbrev cc3_sem6_0 : DmaSem sig := 33
abbrev cc3_sem6_1 : DmaSem sig := 34
abbrev cc4_sem0_0 : DmaSem sig := 35
abbrev cc4_sem0_1 : DmaSem sig := 36
abbrev cc4_sem1_0 : DmaSem sig := 37
abbrev cc4_sem2_0 : DmaSem sig := 38
abbrev cc4_sem2_1 : DmaSem sig := 39
abbrev cc4_sem3_0 : DmaSem sig := 40
abbrev cc4_sem4_0 : DmaSem sig := 41
abbrev cc4_sem5_0 : DmaSem sig := 42
abbrev cc4_sem5_1 : DmaSem sig := 43
abbrev cc5_sem0_0 : DmaSem sig := 44
abbrev cc5_sem0_1 : DmaSem sig := 45
abbrev cc5_sem1_0 : DmaSem sig := 46
abbrev cc5_sem2_0 : DmaSem sig := 47
abbrev cc5_sem3_0 : DmaSem sig := 48
abbrev cc5_sem4_0 : DmaSem sig := 49
abbrev cc5_sem5_0 : DmaSem sig := 50
abbrev cc5_sem5_1 : DmaSem sig := 51
abbrev cc5_sem6_0 : DmaSem sig := 52
abbrev cc5_sem6_1 : DmaSem sig := 53
abbrev cc6_sem0_0 : DmaSem sig := 54
abbrev cc6_sem0_1 : DmaSem sig := 55
abbrev cc6_sem1_0 : DmaSem sig := 56
abbrev cc6_sem2_0 : DmaSem sig := 57
abbrev cc6_sem3_0 : DmaSem sig := 58
abbrev cc6_sem3_1 : DmaSem sig := 59

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S10000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S10000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S10000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S10000x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x2 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x2 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S10000x2 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S100000x64 : S_.BroadcastsInDim S100000x64 (![] : Fin 0 → Fin S100000x64.rank)
  reducesTo_S100000x64_S64_d0 : S100000x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S100000x64_0_1 : S1x64.BroadcastsInDim S100000x64 (![0, 1] : Fin 2 → Fin S100000x64.rank)
  shapeCasts_S10000x64_S10000x64 : S10000x64.ShapeCasts S10000x64
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  inb_S64x64_S64x64_0_0 : ∀ a, (![0, 0] : Fin 2 → Nat) a + S64x64.size a ≤ S64x64.size a
  h_S64x64 : 0 < S64x64.numel
  shapeCasts_S2_S1x2 : S2.ShapeCasts S1x2
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  inb_S10000x2_S10000x2_0_0 : ∀ a, (![0, 0] : Fin 2 → Nat) a + S10000x2.size a ≤ S10000x2.size a
  h_S10000x2 : 0 < S10000x2.numel
  dot_S10000x128_S128x64_S10000x64_1_0_0_1_n_n_wf : DotDims.WF S10000x128 S128x64 S10000x64 [1] [0] [0] [1] [] []
  scatter_S100000_S3200000x1_S3200000_n_0_0_1_wf : ScatterDims.WF S100000 S3200000x1 S3200000 [] [0] [0] 1
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S10000x64_S64x64_S10000x64_1_0_0_1_n_n_wf : DotDims.WF S10000x64 S64x64 S10000x64 [1] [0] [0] [1] [] []
  dot_S10000x64_S64x2_S10000x2_1_0_0_1_n_n_wf : DotDims.WF S10000x64 S64x2 S10000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x64.size a ≤ S100000x64.size a
  hwx1_6 : ∀ i : grid1.Coords, EltTy.bits .f32 = 32 ∨ (Rect.block (s := S100000x64) S10000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x64.size a ≤ S100000x64.size a
  hwx3_5 : ∀ i : grid3.Coords, EltTy.bits .f32 = 32 ∨ (Rect.block (s := S100000x64) S10000x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S10000x64.size a ≤ S100000x64.size a
  hwx3_6 : ∀ i : grid3.Coords, EltTy.bits .f32 = 32 ∨ (Rect.block (s := S100000x64) S10000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x64.size a ≤ S100000x64.size a
  hwx4_5 : ∀ i : grid4.Coords, EltTy.bits .f32 = 32 ∨ (Rect.block (s := S100000x64) S10000x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x64.size a ≤ S100000x64.size a
  hwx5_5 : ∀ i : grid5.Coords, EltTy.bits .f32 = 32 ∨ (Rect.block (s := S100000x64) S10000x64.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S10000x64.size a ≤ S100000x64.size a
  hwx5_6 : ∀ i : grid5.Coords, EltTy.bits .f32 = 32 ∨ (Rect.block (s := S100000x64) S10000x64.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x2.size a ≤ S64x2.size a
  hwx6_1 : ∀ i : grid6.Coords, EltTy.bits .f32 = 32 ∨ (Rect.block (s := S64x2) S64x2.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x2.size a ≤ S1x2.size a
  hwx6_2 : ∀ i : grid6.Coords, EltTy.bits .f32 = 32 ∨ (Rect.block (s := S1x2) S1x2.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S10000x2.size a ≤ S100000x2.size a
  hwx6_3 : ∀ i : grid6.Coords, EltTy.bits .f32 = 32 ∨ (Rect.block (s := S100000x2) S10000x2.size (cc6_transform_3 i) (hinb6_3 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x2_S10000x2_1_0_0_1_n_n : DotDims S10000x64 S64x2 S10000x2 where
  lhsContracting := [1]
  rhsContracting := [0]
  lhsNonContracting := [0]
  rhsNonContracting := [1]
  lhsBatch := []
  rhsBatch := []
  wf := dot_S10000x64_S64x2_S10000x2_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S10000x64.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v15) S10000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v36) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S10000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v37) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v38) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v38) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v44) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v45) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v46) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v6) S10000x64.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v47) S10000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v60) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg11) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v47) S10000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg13) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v61) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v62) S10000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v62) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v67) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v68) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v69) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v70) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v15) S10000x64.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_v71) S10000x64.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v71) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg16) S64x2.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v72) S1x2.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v73) S10000x2.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S1x3200000 : Shape := ⟨2, ![1, 3200000]⟩
abbrev S3200000 : Shape := ⟨1, ![3200000]⟩
abbrev S100000x64 : Shape := ⟨2, ![100000, 64]⟩
abbrev S1x64 : Shape := ⟨2, ![1, 64]⟩
abbrev S_ : Shape := ⟨0, ![]⟩
abbrev S3200000x1 : Shape := ⟨2, ![3200000, 1]⟩
abbrev S3200000x64 : Shape := ⟨2, ![3200000, 64]⟩
abbrev S100000 : Shape := ⟨1, ![100000]⟩
abbrev S100000x1 : Shape := ⟨2, ![100000, 1]⟩
abbrev S100000x2 : Shape := ⟨2, ![100000, 2]⟩
abbrev S1x2 : Shape := ⟨2, ![1, 2]⟩

abbrev nBuf : Space → Nat
  | .hbm => 234
  | .vmem => 0
  | .smem => 0
  | _ => 0

abbrev hbmTy0_0 (i : Nat) : BufTy := match i % 128 with
  | 0 => ⟨S100000x128, .f32⟩
  | 1 => ⟨S2x3200000, .i32⟩
  | 2 => ⟨S128x64, .f32⟩
  | 3 => ⟨S64, .f32⟩
  | 4 => ⟨S64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64, .f32⟩
  | 11 => ⟨S64x64, .f32⟩
  | 12 => ⟨S64, .f32⟩
  | 13 => ⟨S64x64, .f32⟩
  | 14 => ⟨S64, .f32⟩
  | 15 => ⟨S64, .f32⟩
  | 16 => ⟨S64x2, .f32⟩
  | 17 => ⟨S2, .f32⟩
  | 18 => ⟨S1x3200000, .i32⟩
  | 19 => ⟨S3200000, .i32⟩
  | 20 => ⟨S1x3200000, .i32⟩
  | 21 => ⟨S3200000, .i32⟩
  | 22 => ⟨S100000x64, .f32⟩
  | 23 => ⟨S1x64, .f32⟩
  | 24 => ⟨S100000x64, .f32⟩
  | 25 => ⟨S100000x64, .f32⟩
  | 26 => ⟨S_, .f32⟩
  | 27 => ⟨S64, .f32⟩
  | 28 => ⟨S_, .f32⟩
  | 29 => ⟨S64, .f32⟩
  | 30 => ⟨S64, .f32⟩
  | 31 => ⟨S_, .i32⟩
  | 32 => ⟨S_, .f32⟩
  | 33 => ⟨S64, .f32⟩
  | 34 => ⟨S1x64, .f32⟩
  | 35 => ⟨S_, .f32⟩
  | 36 => ⟨S1x64, .f32⟩
  | 37 => ⟨S1x64, .f32⟩
  | 38 => ⟨S100000x64, .f32⟩
  | 39 => ⟨S100000x64, .f32⟩
  | 40 => ⟨S100000x64, .f32⟩
  | 41 => ⟨S_, .f32⟩
  | 42 => ⟨S_, .f32⟩
  | 43 => ⟨S_, .f32⟩
  | 44 => ⟨S_, .f32⟩
  | 45 => ⟨S64, .f32⟩
  | 46 => ⟨S64, .f32⟩
  | 47 => ⟨S64, .f32⟩
  | 48 => ⟨S_, .f32⟩
  | 49 => ⟨S_, .i1⟩
  | 50 => ⟨S_, .f32⟩
  | 51 => ⟨S_, .f32⟩
  | 52 => ⟨S64, .f32⟩
  | 53 => ⟨S64, .f32⟩
  | 54 => ⟨S1x64, .f32⟩
  | 55 => ⟨S100000x64, .f32⟩
  | 56 => ⟨S100000x64, .f32⟩
  | 57 => ⟨S1x64, .f32⟩
  | 58 => ⟨S100000x64, .f32⟩
  | 59 => ⟨S100000x64, .f32⟩
  | 60 => ⟨S_, .f32⟩
  | 61 => ⟨S64, .f32⟩
  | 62 => ⟨S64, .f32⟩
  | 63 => ⟨S64, .f32⟩
  | 64 => ⟨S1x64, .f32⟩
  | 65 => ⟨S100000x64, .f32⟩
  | 66 => ⟨S100000x64, .f32⟩
  | 67 => ⟨S1x64, .f32⟩
  | 68 => ⟨S100000x64, .f32⟩
  | 69 => ⟨S100000x64, .f32⟩
  | 70 => ⟨S_, .f32⟩
  | 71 => ⟨S100000x64, .f32⟩
  | 72 => ⟨S100000x64, .f32⟩
  | 73 => ⟨S_, .i32⟩
  | 74 => ⟨S3200000, .i32⟩
  | 75 => ⟨S3200000, .i1⟩
  | 76 => ⟨S_, .i32⟩
  | 77 => ⟨S3200000, .i32⟩
  | 78 => ⟨S3200000, .i32⟩
  | 79 => ⟨S3200000, .i32⟩
  | 80 => ⟨S3200000x1, .i32⟩
  | 81 => ⟨S3200000x64, .f32⟩
  | 82 => ⟨S_, .f32⟩
  | 83 => ⟨S100000x64, .f32⟩
  | 84 => ⟨S3200000x1, .i32⟩
  | 85 => ⟨S100000x64, .f32⟩
  | 86 => ⟨S_, .f32⟩
  | 87 => ⟨S3200000, .f32⟩
  | 88 => ⟨S_, .f32⟩
  | 89 => ⟨S100000, .f32⟩
  | 90 => ⟨S3200000x1, .i32⟩
  | 91 => ⟨S100000, .f32⟩
  | 92 => ⟨S_, .f32⟩
  | 93 => ⟨S100000, .f32⟩
  | 94 => ⟨S100000, .f32⟩
  | 95 => ⟨S100000x1, .f32⟩
  | 96 => ⟨S100000x64, .f32⟩
  | 97 => ⟨S100000x64, .f32⟩
  | 98 => ⟨S100000x64, .f32⟩
  | 99 => ⟨S1x64, .f32⟩
  | 100 => ⟨S100000x64, .f32⟩
  | 101 => ⟨S100000x64, .f32⟩
  | 102 => ⟨S100000x64, .f32⟩
  | 103 => ⟨S100000x64, .f32⟩
  | 104 => ⟨S_, .f32⟩
  | 105 => ⟨S64, .f32⟩
  | 106 => ⟨S_, .f32⟩
  | 107 => ⟨S64, .f32⟩
  | 108 => ⟨S64, .f32⟩
  | 109 => ⟨S_, .i32⟩
  | 110 => ⟨S_, .f32⟩
  | 111 => ⟨S64, .f32⟩
  | 112 => ⟨S1x64, .f32⟩
  | 113 => ⟨S_, .f32⟩
  | 114 => ⟨S1x64, .f32⟩
  | 115 => ⟨S1x64, .f32⟩
  | 116 => ⟨S100000x64, .f32⟩
  | 117 => ⟨S100000x64, .f32⟩
  | 118 => ⟨S100000x64, .f32⟩
  | 119 => ⟨S_, .f32⟩
  | 120 => ⟨S_, .f32⟩
  | 121 => ⟨S_, .f32⟩
  | 122 => ⟨S_, .f32⟩
  | 123 => ⟨S64, .f32⟩
  | 124 => ⟨S64, .f32⟩
  | 125 => ⟨S64, .f32⟩
  | 126 => ⟨S_, .f32⟩
  | 127 => ⟨S_, .i1⟩
  | _ => ⟨S100000x128, .f32⟩

abbrev hbmTy0_1 (i : Nat) : BufTy := match i % 128 with
  | 0 => ⟨S_, .f32⟩
  | 1 => ⟨S_, .f32⟩
  | 2 => ⟨S64, .f32⟩
  | 3 => ⟨S64, .f32⟩
  | 4 => ⟨S1x64, .f32⟩
  | 5 => ⟨S100000x64, .f32⟩
  | 6 => ⟨S100000x64, .f32⟩
  | 7 => ⟨S1x64, .f32⟩
  | 8 => ⟨S100000x64, .f32⟩
  | 9 => ⟨S100000x64, .f32⟩
  | 10 => ⟨S_, .f32⟩
  | 11 => ⟨S64, .f32⟩
  | 12 => ⟨S64, .f32⟩
  | 13 => ⟨S64, .f32⟩
  | 14 => ⟨S1x64, .f32⟩
  | 15 => ⟨S100000x64, .f32⟩
  | 16 => ⟨S100000x64, .f32⟩
  | 17 => ⟨S1x64, .f32⟩
  | 18 => ⟨S100000x64, .f32⟩
  | 19 => ⟨S100000x64, .f32⟩
  | 20 => ⟨S_, .f32⟩
  | 21 => ⟨S100000x64, .f32⟩
  | 22 => ⟨S100000x64, .f32⟩
  | 23 => ⟨S_, .i32⟩
  | 24 => ⟨S3200000, .i32⟩
  | 25 => ⟨S3200000, .i1⟩
  | 26 => ⟨S_, .i32⟩
  | 27 => ⟨S3200000, .i32⟩
  | 28 => ⟨S3200000, .i32⟩
  | 29 => ⟨S3200000, .i32⟩
  | 30 => ⟨S3200000x1, .i32⟩
  | 31 => ⟨S3200000x64, .f32⟩
  | 32 => ⟨S_, .f32⟩
  | 33 => ⟨S100000x64, .f32⟩
  | 34 => ⟨S3200000x1, .i32⟩
  | 35 => ⟨S100000x64, .f32⟩
  | 36 => ⟨S_, .f32⟩
  | 37 => ⟨S3200000, .f32⟩
  | 38 => ⟨S_, .f32⟩
  | 39 => ⟨S100000, .f32⟩
  | 40 => ⟨S3200000x1, .i32⟩
  | 41 => ⟨S100000, .f32⟩
  | 42 => ⟨S_, .f32⟩
  | 43 => ⟨S100000, .f32⟩
  | 44 => ⟨S100000, .f32⟩
  | 45 => ⟨S100000x1, .f32⟩
  | 46 => ⟨S100000x64, .f32⟩
  | 47 => ⟨S100000x64, .f32⟩
  | 48 => ⟨S100000x64, .f32⟩
  | 49 => ⟨S1x64, .f32⟩
  | 50 => ⟨S100000x64, .f32⟩
  | 51 => ⟨S100000x64, .f32⟩
  | 52 => ⟨S100000x64, .f32⟩
  | 53 => ⟨S100000x64, .f32⟩
  | 54 => ⟨S_, .f32⟩
  | 55 => ⟨S64, .f32⟩
  | 56 => ⟨S_, .f32⟩
  | 57 => ⟨S64, .f32⟩
  | 58 => ⟨S64, .f32⟩
  | 59 => ⟨S_, .i32⟩
  | 60 => ⟨S_, .f32⟩
  | 61 => ⟨S64, .f32⟩
  | 62 => ⟨S1x64, .f32⟩
  | 63 => ⟨S_, .f32⟩
  | 64 => ⟨S1x64, .f32⟩
  | 65 => ⟨S1x64, .f32⟩
  | 66 => ⟨S100000x64, .f32⟩
  | 67 => ⟨S100000x64, .f32⟩
  | 68 => ⟨S100000x64, .f32⟩
  | 69 => ⟨S_, .f32⟩
  | 70 => ⟨S_, .f32⟩
  | 71 => ⟨S_, .f32⟩
  | 72 => ⟨S_, .f32⟩
  | 73 => ⟨S64, .f32⟩
  | 74 => ⟨S64, .f32⟩
  | 75 => ⟨S64, .f32⟩
  | 76 => ⟨S_, .f32⟩
  | 77 => ⟨S_, .i1⟩
  | 78 => ⟨S_, .f32⟩
  | 79 => ⟨S_, .f32⟩
  | 80 => ⟨S64, .f32⟩
  | 81 => ⟨S64, .f32⟩
  | 82 => ⟨S1x64, .f32⟩
  | 83 => ⟨S100000x64, .f32⟩
  | 84 => ⟨S100000x64, .f32⟩
  | 85 => ⟨S1x64, .f32⟩
  | 86 => ⟨S100000x64, .f32⟩
  | 87 => ⟨S100000x64, .f32⟩
  | 88 => ⟨S_, .f32⟩
  | 89 => ⟨S64, .f32⟩
  | 90 => ⟨S64, .f32⟩
  | 91 => ⟨S64, .f32⟩
  | 92 => ⟨S1x64, .f32⟩
  | 93 => ⟨S100000x64, .f32⟩
  | 94 => ⟨S100000x64, .f32⟩
  | 95 => ⟨S1x64, .f32⟩
  | 96 => ⟨S100000x64, .f32⟩
  | 97 => ⟨S100000x64, .f32⟩
  | 98 => ⟨S_, .f32⟩
  | 99 => ⟨S100000x64, .f32⟩
  | 100 => ⟨S100000x64, .f32⟩
  | 101 => ⟨S100000x64, .f32⟩
  | 102 => ⟨S100000x2, .f32⟩
  | 103 => ⟨S1x2, .f32⟩
  | 104 => ⟨S100000x2, .f32⟩
  | 105 => ⟨S100000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_cst_0 : Ref sig .tc := ⟨.hbm, 28, rfl⟩
abbrev main_v9 : Ref sig .tc := ⟨.hbm, 29, rfl⟩
abbrev main_v10 : Ref sig .tc := ⟨.hbm, 30, rfl⟩
abbrev main_c : Ref sig .tc := ⟨.hbm, 31, rfl⟩
abbrev main_call0_cst : Ref sig .tc := ⟨.hbm, 32, rfl⟩
abbrev main_call0_v0 : Ref sig .tc := ⟨.hbm, 33, rfl⟩
abbrev main_call0_v1 : Ref sig .tc := ⟨.hbm, 34, rfl⟩
abbrev main_call0_cst_0 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_v6 : Ref sig .tc := ⟨.hbm, 40, rfl⟩
abbrev main_call0_v7 : Ref sig .tc := ⟨.hbm, 41, rfl⟩
abbrev main_call0_cst_1 : Ref sig .tc := ⟨.hbm, 42, rfl⟩
abbrev main_call0_v8 : Ref sig .tc := ⟨.hbm, 43, rfl⟩
abbrev main_call0_cst_2 : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_cst_3 : Ref sig .tc := ⟨.hbm, 48, rfl⟩
abbrev main_call0_v12 : Ref sig .tc := ⟨.hbm, 49, rfl⟩
abbrev main_call0_cst_4 : Ref sig .tc := ⟨.hbm, 50, rfl⟩
abbrev main_call0_call0_v0 : Ref sig .tc := ⟨.hbm, 51, rfl⟩
abbrev main_call0_call0_v1 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_cst_1 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_call1_cst : Ref sig .tc := ⟨.hbm, 70, rfl⟩
abbrev main_call1_v0 : Ref sig .tc := ⟨.hbm, 71, rfl⟩
abbrev main_v27 : Ref sig .tc := ⟨.hbm, 72, rfl⟩
abbrev main_c_2 : Ref sig .tc := ⟨.hbm, 73, rfl⟩
abbrev main_v28 : Ref sig .tc := ⟨.hbm, 74, rfl⟩
abbrev main_v29 : Ref sig .tc := ⟨.hbm, 75, rfl⟩
abbrev main_c_3 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_cst_4 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_cst_5 : Ref sig .tc := ⟨.hbm, 86, rfl⟩
abbrev main_v38 : Ref sig .tc := ⟨.hbm, 87, rfl⟩
abbrev main_cst_6 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_cst_7 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_cst_8 : Ref sig .tc := ⟨.hbm, 104, rfl⟩
abbrev main_v53 : Ref sig .tc := ⟨.hbm, 105, rfl⟩
abbrev main_cst_9 : Ref sig .tc := ⟨.hbm, 106, rfl⟩
abbrev main_v54 : Ref sig .tc := ⟨.hbm, 107, rfl⟩
abbrev main_v55 : Ref sig .tc := ⟨.hbm, 108, rfl⟩
abbrev main_c_10 : Ref sig .tc := ⟨.hbm, 109, rfl⟩
abbrev main_call2_cst : Ref sig .tc := ⟨.hbm, 110, rfl⟩
abbrev main_call2_v0 : Ref sig .tc := ⟨.hbm, 111, rfl⟩
abbrev main_call2_v1 : Ref sig .tc := ⟨.hbm, 112, rfl⟩
abbrev main_call2_cst_0 : Ref sig .tc := ⟨.hbm, 113, rfl⟩
abbrev main_call2_v2 : Ref sig .tc := ⟨.hbm, 114, rfl⟩
abbrev main_call2_v3 : Ref sig .tc := ⟨.hbm, 115, rfl⟩
abbrev main_call2_v4 : Ref sig .tc := ⟨.hbm, 116, rfl⟩
abbrev main_call2_v5 : Ref sig .tc := ⟨.hbm, 117, rfl⟩
abbrev main_call2_v6 : Ref sig .tc := ⟨.hbm, 118, rfl⟩
abbrev main_call2_v7 : Ref sig .tc := ⟨.hbm, 119, rfl⟩
abbrev main_call2_cst_1 : Ref sig .tc := ⟨.hbm, 120, rfl⟩
abbrev main_call2_v8 : Ref sig .tc := ⟨.hbm, 121, rfl⟩
abbrev main_call2_cst_2 : Ref sig .tc := ⟨.hbm, 122, rfl⟩
abbrev main_call2_v9 : Ref sig .tc := ⟨.hbm, 123, rfl⟩
abbrev main_call2_v10 : Ref sig .tc := ⟨.hbm, 124, rfl⟩
abbrev main_call2_v11 : Ref sig .tc := ⟨.hbm, 125, rfl⟩
abbrev main_call2_cst_3 : Ref sig .tc := ⟨.hbm, 126, rfl⟩
abbrev main_call2_v12 : Ref sig .tc := ⟨.hbm, 127, rfl⟩
abbrev main_call2_cst_4 : Ref sig .tc := ⟨.hbm, 128, rfl⟩
abbrev main_call2_call0_v0 : Ref sig .tc := ⟨.hbm, 129, rfl⟩
abbrev main_call2_call0_v1 : Ref sig .tc := ⟨.hbm, 130, rfl⟩
abbrev main_v56 : Ref sig .tc := ⟨.hbm, 131, rfl⟩
abbrev main_v57 : Ref sig .tc := ⟨.hbm, 132, rfl⟩
abbrev main_v58 : Ref sig .tc := ⟨.hbm, 133, rfl⟩
abbrev main_v59 : Ref sig .tc := ⟨.hbm, 134, rfl⟩
abbrev main_v60 : Ref sig .tc := ⟨.hbm, 135, rfl⟩
abbrev main_v61 : Ref sig .tc := ⟨.hbm, 136, rfl⟩
abbrev main_v62 : Ref sig .tc := ⟨.hbm, 137, rfl⟩
abbrev main_cst_11 : Ref sig .tc := ⟨.hbm, 138, rfl⟩
abbrev main_v63 : Ref sig .tc := ⟨.hbm, 139, rfl⟩
abbrev main_v64 : Ref sig .tc := ⟨.hbm, 140, rfl⟩
abbrev main_v65 : Ref sig .tc := ⟨.hbm, 141, rfl⟩
abbrev main_v66 : Ref sig .tc := ⟨.hbm, 142, rfl⟩
abbrev main_v67 : Ref sig .tc := ⟨.hbm, 143, rfl⟩
abbrev main_v68 : Ref sig .tc := ⟨.hbm, 144, rfl⟩
abbrev main_v69 : Ref sig .tc := ⟨.hbm, 145, rfl⟩
abbrev main_v70 : Ref sig .tc := ⟨.hbm, 146, rfl⟩
abbrev main_v71 : Ref sig .tc := ⟨.hbm, 147, rfl⟩
abbrev main_call3_cst : Ref sig .tc := ⟨.hbm, 148, rfl⟩
abbrev main_call3_v0 : Ref sig .tc := ⟨.hbm, 149, rfl⟩
abbrev main_v72 : Ref sig .tc := ⟨.hbm, 150, rfl⟩
abbrev main_c_12 : Ref sig .tc := ⟨.hbm, 151, rfl⟩
abbrev main_v73 : Ref sig .tc := ⟨.hbm, 152, rfl⟩
abbrev main_v74 : Ref sig .tc := ⟨.hbm, 153, rfl⟩
abbrev main_c_13 : Ref sig .tc := ⟨.hbm, 154, rfl⟩
abbrev main_v75 : Ref sig .tc := ⟨.hbm, 155, rfl⟩
abbrev main_v76 : Ref sig .tc := ⟨.hbm, 156, rfl⟩
abbrev main_v77 : Ref sig .tc := ⟨.hbm, 157, rfl⟩
abbrev main_v78 : Ref sig .tc := ⟨.hbm, 158, rfl⟩
abbrev main_v79 : Ref sig .tc := ⟨.hbm, 159, rfl⟩
abbrev main_cst_14 : Ref sig .tc := ⟨.hbm, 160, rfl⟩
abbrev main_v80 : Ref sig .tc := ⟨.hbm, 161, rfl⟩
abbrev main_v81 : Ref sig .tc := ⟨.hbm, 162, rfl⟩
abbrev main_v82 : Ref sig .tc := ⟨.hbm, 163, rfl⟩
abbrev main_cst_15 : Ref sig .tc := ⟨.hbm, 164, rfl⟩
abbrev main_v83 : Ref sig .tc := ⟨.hbm, 165, rfl⟩
abbrev main_cst_16 : Ref sig .tc := ⟨.hbm, 166, rfl⟩
abbrev main_v84 : Ref sig .tc := ⟨.hbm, 167, rfl⟩
abbrev main_v85 : Ref sig .tc := ⟨.hbm, 168, rfl⟩
abbrev main_v86 : Ref sig .tc := ⟨.hbm, 169, rfl⟩
abbrev main_cst_17 : Ref sig .tc := ⟨.hbm, 170, rfl⟩
abbrev main_v87 : Ref sig .tc := ⟨.hbm, 171, rfl⟩
abbrev main_v88 : Ref sig .tc := ⟨.hbm, 172, rfl⟩
abbrev main_v89 : Ref sig .tc := ⟨.hbm, 173, rfl⟩
abbrev main_v90 : Ref sig .tc := ⟨.hbm, 174, rfl⟩
abbrev main_v91 : Ref sig .tc := ⟨.hbm, 175, rfl⟩
abbrev main_v92 : Ref sig .tc := ⟨.hbm, 176, rfl⟩
abbrev main_v93 : Ref sig .tc := ⟨.hbm, 177, rfl⟩
abbrev main_v94 : Ref sig .tc := ⟨.hbm, 178, rfl⟩
abbrev main_v95 : Ref sig .tc := ⟨.hbm, 179, rfl⟩
abbrev main_v96 : Ref sig .tc := ⟨.hbm, 180, rfl⟩
abbrev main_v97 : Ref sig .tc := ⟨.hbm, 181, rfl⟩
abbrev main_cst_18 : Ref sig .tc := ⟨.hbm, 182, rfl⟩
abbrev main_v98 : Ref sig .tc := ⟨.hbm, 183, rfl⟩
abbrev main_cst_19 : Ref sig .tc := ⟨.hbm, 184, rfl⟩
abbrev main_v99 : Ref sig .tc := ⟨.hbm, 185, rfl⟩
abbrev main_v100 : Ref sig .tc := ⟨.hbm, 186, rfl⟩
abbrev main_c_20 : Ref sig .tc := ⟨.hbm, 187, rfl⟩
abbrev main_call4_cst : Ref sig .tc := ⟨.hbm, 188, rfl⟩
abbrev main_call4_v0 : Ref sig .tc := ⟨.hbm, 189, rfl⟩
abbrev main_call4_v1 : Ref sig .tc := ⟨.hbm, 190, rfl⟩
abbrev main_call4_cst_0 : Ref sig .tc := ⟨.hbm, 191, rfl⟩
abbrev main_call4_v2 : Ref sig .tc := ⟨.hbm, 192, rfl⟩
abbrev main_call4_v3 : Ref sig .tc := ⟨.hbm, 193, rfl⟩
abbrev main_call4_v4 : Ref sig .tc := ⟨.hbm, 194, rfl⟩
abbrev main_call4_v5 : Ref sig .tc := ⟨.hbm, 195, rfl⟩
abbrev main_call4_v6 : Ref sig .tc := ⟨.hbm, 196, rfl⟩
abbrev main_call4_v7 : Ref sig .tc := ⟨.hbm, 197, rfl⟩
abbrev main_call4_cst_1 : Ref sig .tc := ⟨.hbm, 198, rfl⟩
abbrev main_call4_v8 : Ref sig .tc := ⟨.hbm, 199, rfl⟩
abbrev main_call4_cst_2 : Ref sig .tc := ⟨.hbm, 200, rfl⟩
abbrev main_call4_v9 : Ref sig .tc := ⟨.hbm, 201, rfl⟩
abbrev main_call4_v10 : Ref sig .tc := ⟨.hbm, 202, rfl⟩
abbrev main_call4_v11 : Ref sig .tc := ⟨.hbm, 203, rfl⟩
abbrev main_call4_cst_3 : Ref sig .tc := ⟨.hbm, 204, rfl⟩
abbrev main_call4_v12 : Ref sig .tc := ⟨.hbm, 205, rfl⟩
abbrev main_call4_cst_4 : Ref sig .tc := ⟨.hbm, 206, rfl⟩
abbrev main_call4_call0_v0 : Ref sig .tc := ⟨.hbm, 207, rfl⟩
abbrev main_call4_call0_v1 : Ref sig .tc := ⟨.hbm, 208, rfl⟩
abbrev main_v101 : Ref sig .tc := ⟨.hbm, 209, rfl⟩
abbrev main_v102 : Ref sig .tc := ⟨.hbm, 210, rfl⟩
abbrev main_v103 : Ref sig .tc := ⟨.hbm, 211, rfl⟩
abbrev main_v104 : Ref sig .tc := ⟨.hbm, 212, rfl⟩
abbrev main_v105 : Ref sig .tc := ⟨.hbm, 213, rfl⟩
abbrev main_v106 : Ref sig .tc := ⟨.hbm, 214, rfl⟩
abbrev main_v107 : Ref sig .tc := ⟨.hbm, 215, rfl⟩
abbrev main_cst_21 : Ref sig .tc := ⟨.hbm, 216, rfl⟩
abbrev main_v108 : Ref sig .tc := ⟨.hbm, 217, rfl⟩
abbrev main_v109 : Ref sig .tc := ⟨.hbm, 218, rfl⟩
abbrev main_v110 : Ref sig .tc := ⟨.hbm, 219, rfl⟩
abbrev main_v111 : Ref sig .tc := ⟨.hbm, 220, rfl⟩
abbrev main_v112 : Ref sig .tc := ⟨.hbm, 221, rfl⟩
abbrev main_v113 : Ref sig .tc := ⟨.hbm, 222, rfl⟩
abbrev main_v114 : Ref sig .tc := ⟨.hbm, 223, rfl⟩
abbrev main_v115 : Ref sig .tc := ⟨.hbm, 224, rfl⟩
abbrev main_v116 : Ref sig .tc := ⟨.hbm, 225, rfl⟩
abbrev main_call5_cst : Ref sig .tc := ⟨.hbm, 226, rfl⟩
abbrev main_call5_v0 : Ref sig .tc := ⟨.hbm, 227, rfl⟩
abbrev main_v117 : Ref sig .tc := ⟨.hbm, 228, rfl⟩
abbrev main_v118 : Ref sig .tc := ⟨.hbm, 229, rfl⟩
abbrev main_v119 : Ref sig .tc := ⟨.hbm, 230, rfl⟩
abbrev main_v120 : Ref sig .tc := ⟨.hbm, 231, rfl⟩
abbrev main_v121 : Ref sig .tc := ⟨.hbm, 232, rfl⟩
abbrev main_v122 : Ref sig .tc := ⟨.hbm, 233, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S_S100000x64 : S_.BroadcastsInDim S100000x64 (![] : Fin 0 → Fin S100000x64.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  dot_S100000x128_S128x64_S100000x64_1_0_0_1_n_n_wf : DotDims.WF S100000x128 S128x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  scatter_S100000_S3200000x1_S3200000_n_0_0_1_wf : ScatterDims.WF S100000 S3200000x1 S3200000 [] [0] [0] 1
  dot_S100000x64_S64x64_S100000x64_1_0_0_1_n_n_wf : DotDims.WF S100000x64 S64x64 S100000x64 [1] [0] [0] [1] [] []
  dot_S100000x64_S64x2_S100000x2_1_0_0_1_n_n_wf : DotDims.WF S100000x64 S64x2 S100000x2 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf

class Facts : Prop extends Facts₀ where

variable [Facts]
-- ==== Proof.KRun.lean ====
/-
  The idealized kernel program's run, with its result array named.

  The program is seven grid kernels among stretches of host operations.  Its run is the run of these twenty
  segments in order; at the end every buffer that outlives a kernel holds what the last boundary's contents say.
  Here that is read at the result buffer and at the eighteen argument buffers: the result holds the last
  boundary's contents at the result's reference, and every argument holds what it was launched with.
-/
import proofs.«168059_j26053271617569_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents and the arguments end as launched. -/
theorem run : θ_run defs (onTc (τ := τ) (main (F := F))) ⟨m, fun _ => 0, ρ⟩ (fun r => ∀ c : Dev nD,
      r.2.mem ((c.tc : Thread nD τ).loc main_v73) = W20 m ρ c (Proc.devRef .tc main_v73)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c =>
      ⟨h c _ (mem_uc main_v73 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c),
       (h c _ (mem_uc main_arg7 (by decide))).trans (W20_main_arg7 m ρ c),
       (h c _ (mem_uc main_arg8 (by decide))).trans (W20_main_arg8 m ρ c),
       (h c _ (mem_uc main_arg9 (by decide))).trans (W20_main_arg9 m ρ c),
       (h c _ (mem_uc main_arg10 (by decide))).trans (W20_main_arg10 m ρ c),
       (h c _ (mem_uc main_arg11 (by decide))).trans (W20_main_arg11 m ρ c),
       (h c _ (mem_uc main_arg12 (by decide))).trans (W20_main_arg12 m ρ c),
       (h c _ (mem_uc main_arg13 (by decide))).trans (W20_main_arg13 m ρ c),
       (h c _ (mem_uc main_arg14 (by decide))).trans (W20_main_arg14 m ρ c),
       (h c _ (mem_uc main_arg15 (by decide))).trans (W20_main_arg15 m ρ c),
       (h c _ (mem_uc main_arg16 (by decide))).trans (W20_main_arg16 m ρ c),
       (h c _ (mem_uc main_arg17 (by decide))).trans (W20_main_arg17 m ρ c)⟩)

end Cert.KernelIdeal.KRun

end
-- ==== Proof.Spec.lean ====
/-
  A two-layer mean-aggregating graph network on a fixed graph, as one function of its arguments, on the extended reals.

  Nodes carry rows of a [100000, ·] matrix; the edges are the columns of a [2, 3200000] integer table (source row,
  destination row).  The network is
    h₀ = relu (bn (x · Wp + bp)),
    h₁ = relu (bn (sage h₀)),
    h₂ = relu (bn (sage h₁)) + h₀,
    out = h₂ · Wo + bo,
  where  bn y = g · (y − mean y) · (var y + ε)^(−1/2) + b  with the mean and the (biased) variance taken down each
  column, and  sage h = (mean over a node's incoming edges of the source rows of h) · Wl + bl + h · Wr,  the mean
  being the sum over the incoming edges divided by max(number of incoming edges, 1).
  Every operation is spelt as the host operation that computes it, so that a host program that computes the
  network step by step has this function as its value by unfolding alone.
-/
import proofs.«168059_j26053271617569_1_alg».proof.ReferenceIdeal
import Idealize.ShloMosaic.PureOps.Ideal

noncomputable section

namespace Cert.Sage

open Idealize.ShloMosaic Cert.ReferenceIdeal Cert.ReferenceIdeal.Facts₀

-- the shapes' side conditions (which broadcasts, slices and contractions are well formed) are the program's stated facts
variable [Cert.ReferenceIdeal.Facts₀]

/-- An array of 32-bit floats of shape `s`, entries extended reals. -/
abbrev Arr (s : Shape) : Type := FVec Ideal s .f32
/-- An array of 32-bit integers of shape `s`. -/
abbrev IArr (s : Shape) : Type := IVec s 32

/-- A vector of 64 numbers repeated down the 100000 rows. -/
def rows64 (v : Arr S64) : Arr S100000x64 :=
  broadcastInDim S100000x64 ![0, 1] bcast_S1x64_S100000x64_0_1 (broadcastInDim S1x64 ![1] bcast_S64_S1x64_1 v)

/-- A vector of 2 numbers repeated down the 100000 rows. -/
def rows2 (v : Arr S2) : Arr S100000x2 :=
  broadcastInDim S100000x2 ![0, 1] bcast_S1x2_S100000x2_0_1 (broadcastInDim S1x2 ![1] bcast_S2_S1x2_1 v)

/-- The input projection `x · Wp + bp`. -/
def proj (x : Arr S100000x128) (w : Arr S128x64) (b : Arr S64) : Arr S100000x64 :=
  addf (Host.dotGeneral dot_S100000x128_S128x64_S100000x64_1_0_0_1_n_n none x w) (rows64 b)

/-- The mean down each column: the column's sum over 100000. -/
def colMean (y : Arr S100000x64) : Arr S64 :=
  Host.divf (Host.reduceAdd y (constant S_ .f32 0x00000000#32) reducesTo_S100000x64_S64_d0 h_S_)
    (broadcastInDim S64 ![] bcast_S_S64 (constant S_ .f32 0x47C35000#32))

/-- The number the sum of squared deviations is divided by: 100000 minus the (zero) correction. -/
def varCount : Arr S_ :=
  subf (constant S_ .f32 0x47C35000#32) (sitofp .f32 (constantI S_ 32 0#32))

/-- The deviations from the column means (the means kept as one row and repeated down the rows). -/
def deviations (y : Arr S100000x64) : Arr S100000x64 :=
  subf y (broadcastInDim S100000x64 ![0, 1] bcast_S1x64_S100000x64_0_1
    (Host.divf (broadcastInDim S1x64 ![1] bcast_S64_S1x64_1
        (Host.reduceAdd y (constant S_ .f32 0x00000000#32) reducesTo_S100000x64_S64_d0 h_S_))
      (broadcastInDim S1x64 ![] bcast_S_S1x64 (constant S_ .f32 0x47C35000#32))))

/-- The biased variance down each column: the mean of the squared deviations, guarded by "the count is positive". -/
def colVar (y : Arr S100000x64) : Arr S64 :=
  select (broadcastInDim S64 ![] bcast_S_S64 (cmpf .ogt varCount (constant S_ .f32 0x00000000#32)))
    (Host.divf (Host.reduceAdd (mulf (deviations y) (deviations y)) (constant S_ .f32 0x00000000#32)
        reducesTo_S100000x64_S64_d0 h_S_) (broadcastInDim S64 ![] bcast_S_S64 varCount))
    (broadcastInDim S64 ![] bcast_S_S64 (id (constant S_ .f32 0x7FC00000#32)))

/-- The reciprocal standard deviation of each column, `(var + ε)^(−1/2)`. -/
def invStd (y : Arr S100000x64) : Arr S64 :=
  Host.rsqrt (addf (colVar y) (broadcastInDim S64 ![] bcast_S_S64 (constant S_ .f32 0x3727C5AC#32)))

/-- Batch normalisation down the columns, then the positive part. -/
def bnRelu (y : Arr S100000x64) (g b : Arr S64) : Arr S100000x64 :=
  maximumf (addf (mulf (mulf (rows64 g) (subf y (rows64 (colMean y)))) (rows64 (invStd y))) (rows64 b))
    (broadcastInDim S100000x64 ![] bcast_S_S100000x64 (constant S_ .f32 0x00000000#32))

/-- The edges' source rows (row 0 of the table). -/
def srcOf (e : IArr S2x3200000) : IArr S3200000 :=
  shapeCast S3200000 (extractStridedSlice S1x3200000 ![0, 0] e slices_S2x3200000_S1x3200000_0_0) shapeCasts_S1x3200000_S3200000

/-- The edges' destination rows (row 1 of the table). -/
def dstOf (e : IArr S2x3200000) : IArr S3200000 :=
  shapeCast S3200000 (extractStridedSlice S1x3200000 ![1, 0] e slices_S2x3200000_S1x3200000_1_0) shapeCasts_S1x3200000_S3200000

/-- The source rows as a column of gather indices, a negative index counted from the end. -/
def srcColumn (e : IArr S2x3200000) : IArr S3200000x1 :=
  broadcastInDim S3200000x1 ![0] bcast_S3200000_S3200000x1_0
    (select (cmpi .slt (srcOf e) (broadcastInDim S3200000 ![] bcast_S_S3200000 (constantI S_ 32 0#32)))
      (addi (srcOf e) (broadcastInDim S3200000 ![] bcast_S_S3200000 (constantI S_ 32 100000#32))) (srcOf e))

/-- The destination rows as a column of scatter indices. -/
def dstColumn (e : IArr S2x3200000) : IArr S3200000x1 :=
  broadcastInDim S3200000x1 ![0] bcast_S3200000_S3200000x1_0 (dstOf e)

/-- For every node, the sum over its incoming edges of the source rows of `h`. -/
def edgeSum (h : Arr S100000x64) (e : IArr S2x3200000) : Arr S100000x64 :=
  Host.scatterAdd scatter_S100000x64_S3200000x1_S3200000x64_1_0_0_1
    (broadcastInDim S100000x64 ![] bcast_S_S100000x64 (constant S_ .f32 0x00000000#32)) (dstColumn e)
    (Host.gather gather_S100000x64_S3200000x1_S3200000x64_1_0_n_n_0_1_164 h (srcColumn e))

/-- For every node, the number of its incoming edges, at least one. -/
def degree (e : IArr S2x3200000) : Arr S100000 :=
  maximumf (Host.scatterAdd scatter_S100000_S3200000x1_S3200000_n_0_0_1
      (broadcastInDim S100000 ![] bcast_S_S100000 (constant S_ .f32 0x00000000#32)) (dstColumn e)
      (broadcastInDim S3200000 ![] bcast_S_S3200000 (constant S_ .f32 0x3F800000#32)))
    (broadcastInDim S100000 ![] bcast_S_S100000 (constant S_ .f32 0x3F800000#32))

/-- A number per node repeated along the node's row. -/
def alongRows (d : Arr S100000) : Arr S100000x64 :=
  broadcastInDim S100000x64 ![0, 1] bcast_S100000x1_S100000x64_0_1 (broadcastInDim S100000x1 ![0] bcast_S100000_S100000x1_0 d)

/-- The mean over a node's incoming edges of the source rows. -/
def edgeMean (h : Arr S100000x64) (e : IArr S2x3200000) : Arr S100000x64 :=
  Host.divf (edgeSum h e) (alongRows (degree e))

/-- One layer: `edgeMean h · Wl + bl + h · Wr`. -/
def sage (h : Arr S100000x64) (e : IArr S2x3200000) (wl : Arr S64x64) (bl : Arr S64) (wr : Arr S64x64) : Arr S100000x64 :=
  addf (addf (Host.dotGeneral dot_S100000x64_S64x64_S100000x64_1_0_0_1_n_n none (edgeMean h e) wl) (rows64 bl))
    (Host.dotGeneral dot_S100000x64_S64x64_S100000x64_1_0_0_1_n_n none h wr)

/-- The output head `h · Wo + bo`. -/
def head (h : Arr S100000x64) (wo : Arr S64x2) (bo : Arr S2) : Arr S100000x2 :=
  addf (Host.dotGeneral dot_S100000x64_S64x2_S100000x2_1_0_0_1_n_n none h wo) (rows2 bo)

/-- The first hidden state. -/
def hidden0 (x : Arr S100000x128) (wp : Arr S128x64) (bp gIn bIn : Arr S64) : Arr S100000x64 :=
  bnRelu (proj x wp bp) gIn bIn

/-- A later hidden state from the one before it (without the residual). -/
def hiddenNext (h : Arr S100000x64) (e : IArr S2x3200000) (wl : Arr S64x64) (bl : Arr S64) (wr : Arr S64x64) (g b : Arr S64) :
    Arr S100000x64 :=
  bnRelu (sage h e wl bl wr) g b

/-- The whole network. -/
def forward (x : Arr S100000x128) (e : IArr S2x3200000) (wp : Arr S128x64) (bp gIn bIn : Arr S64)
    (wl0 : Arr S64x64) (bl0 : Arr S64) (wr0 : Arr S64x64) (g0 b0 : Arr S64)
    (wl1 : Arr S64x64) (bl1 : Arr S64) (wr1 : Arr S64x64) (g1 b1 : Arr S64) (wo : Arr S64x2) (bo : Arr S2) : Arr S100000x2 :=
  head (addf (hiddenNext (hiddenNext (hidden0 x wp bp gIn bIn) e wl0 bl0 wr0 g0 b0) e wl1 bl1 wr1 g1 b1)
    (hidden0 x wp bp gIn bIn)) wo bo

end Cert.Sage

end
-- ==== Proof.RefRun.lean ====
/-
  The reference program's run, written out.

  The reference is a straight line of 216 host operations: @main's own, with the three outlined functions — the biased
  column variance (which itself calls the guarded select), the guarded select, and the positive part — unfolded at their
  six call sites over the calls' buffer records. The line is cut into seven stages at the values that later stages read:
    A  the edge table's two rows, and the input projection  x · Wp + bp                       (main_v1, main_v3, main_v7)
    B  batch normalisation down the columns, then the positive part: the first hidden state  (main_v27)
    C  the first mean-aggregating layer                                                       (main_v52)
    D  batch normalisation, positive part: the second hidden state                            (main_v72)
    E  the second mean-aggregating layer                                                      (main_v97)
    F  batch normalisation, positive part, plus the first hidden state                        (main_v118)
    G  the output head                                                                        (main_v122)
  `ops` is their concatenation. `main_eq`: @main is `seq ops`. `run_all`: every weakly fair execution terminates with
  each buffer at the fold `after ops` over the launch contents. For each stage, from ARBITRARY contents `W`: its result
  buffer holds the network's corresponding function (Proof/Spec.lean) of what `W` has at the buffers the stage reads
  (`valA_v7` … `valG`: the stage's operations composed are that function's definition unfolded), and every buffer the
  stage does not write keeps its contents (`frameA` … `frameG`). Chained (`after_append`), the result buffer after the
  whole line holds `Cert.Sage.forward` of the eighteen arguments (`value`) and the arguments are unchanged (`kept`);
  `run` states both of every execution, at the extended reals.
-/
import proofs.«168059_j26053271617569_1_alg».proof.Proof.Gen.ReferenceIdeal
import Idealize.ShloMosaic.Lib.StableHlo.Run
import proofs.«168059_j26053271617569_1_alg».proof.Proof.Spec

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo

variable [Cert.ReferenceIdeal.Facts]
variable {F : FTy → Type} [FloatOps F]

/-! ## The operations, stage by stage -/

/-- The edge table's two rows as source and destination vectors, and the input projection `x · Wp + bp` (result `main_v7`). -/
abbrev opsA : List (HloOp τ sig (Elt F)) :=
  [ StableHlo.unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v0 main_v1 rfl shapeCasts_S1x3200000_S3200000,
    StableHlo.unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v2 main_v3 rfl shapeCasts_S1x3200000_S3200000,
    StableHlo.binary main_arg0 main_arg2 main_v4 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg3 main_v5 (broadcastInDim S1x64 ![1] bcast_S64_S1x64_1 : (⟨S64, .f32⟩ : BufTy).Contents (Elt F) → (⟨S1x64, .f32⟩ : BufTy).Contents (Elt F)),
    StableHlo.unary main_v5 main_v6 (broadcastInDim S100000x64 ![0, 1] bcast_S1x64_S100000x64_0_1 : (⟨S1x64, .f32⟩ : BufTy).Contents (Elt F) → (⟨S100000x64, .f32⟩ : BufTy).Contents (Elt F)),
    StableHlo.binary main_v4 main_v6 main_v7 (addf : (⟨S100000x64, .f32⟩ : BufTy).Contents (Elt F) → (⟨S100000x64, .f32⟩ : BufTy).Contents (Elt F) → (⟨S100000x64, .f32⟩ : BufTy).Contents (Elt F)) ]

/-- Batch normalisation down the columns of `main_v7` with scale `main_arg4` and shift `main_arg5`, then the positive part (result `main_v27`): the column means, the column variances (the outlined variance with its guarded select inlined at its call), the normalised and rescaled rows, the maximum with zero. -/
abbrev opsB : List (HloOp τ sig (Elt F)) :=
  [ StableHlo.nullary main_cst (constant S_ .f32 0x00000000#32),
    StableHlo.binary main_v7 main_cst main_v8 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_0 (constant S_ .f32 0x47C35000#32),
    StableHlo.unary main_cst_0 main_v9 (broadcastInDim S64 ![] bcast_S_S64 : (⟨S_, .f32⟩ : BufTy).Contents (Elt F) → (⟨S64, .f32⟩ : BufTy).Contents (Elt F)),
    StableHlo.binary main_v8 main_v9 main_v10 (Host.divf : (⟨S64, .f32⟩ : BufTy).Contents (Elt F) → (⟨S64, .f32⟩ : BufTy).Contents (Elt F) → (⟨S64, .f32⟩ : BufTy).Contents (Elt F)),
    StableHlo.nullary main_c (constantI S_ 32 0#32),
    StableHlo.TRef.nullary main_call0.cst (constant S_ .f32 0x00000000#32),
    StableHlo.TRef.binary (.of main_v7 : StableHlo.TRef sig ⟨S100000x64, .f32⟩) main_call0.cst main_call0.v0 (fun x v => Host.reduceAdd x v reducesTo_S100000x64_S64_d0 h_S_),
    StableHlo.TRef.unary main_call0.v0 main_call0.v1 (broadcastInDim S1x64 ![1] bcast_S64_S1x64_1),
    StableHlo.TRef.nullary main_call0.cst_0 (constant S_ .f32 0x47C35000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S100000x64 ![0, 1] bcast_S1x64_S100000x64_0_1),
    StableHlo.TRef.binary (.of main_v7 : StableHlo.TRef sig ⟨S100000x64, .f32⟩) main_call0.v4 main_call0.v5 subf,
    StableHlo.TRef.binary main_call0.v5 main_call0.v5 main_call0.v6 mulf,
    StableHlo.TRef.unary (.of main_c : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b),
    StableHlo.unary main_v10 main_v12 (broadcastInDim S1x64 ![1] bcast_S64_S1x64_1 : (⟨S64, .f32⟩ : BufTy).Contents (Elt F) → (⟨S1x64, .f32⟩ : BufTy).Contents (Elt F)),
    StableHlo.unary main_v12 main_v13 (broadcastInDim S100000x64 ![0, 1] bcast_S1x64_S100000x64_0_1 : (⟨S1x64, .f32⟩ : BufTy).Contents (Elt F) → (⟨S100000x64, .f32⟩ : BufTy).Contents (Elt F)),
    StableHlo.binary main_v7 main_v13 main_v14 (subf : (⟨S100000x64, .f32⟩ : BufTy).Contents (Elt F) → (⟨S100000x64, .f32⟩ : BufTy).Contents (Elt F) → (⟨S100000x64, .f32⟩ : BufTy).Contents (Elt F)),
    StableHlo.unary main_arg4 main_v15 (broadcastInDim S1x64 ![1] bcast_S64_S1x64_1 : (⟨S64, .f32⟩ : BufTy).Contents (Elt F) → (⟨S1x64, .f32⟩ : BufTy).Contents (Elt F)),
    StableHlo.unary main_v15 main_v16 (broadcastInDim S100000x64 ![0, 1] bcast_S1x64_S100000x64_0_1 : (⟨S1x64, .f32⟩ : BufTy).Contents (Elt F) → (⟨S100000x64, .f32⟩ : BufTy).Contents (Elt F)),
    StableHlo.binary main_v16 main_v14 main_v17 (mulf : (⟨S100000x64, .f32⟩ : BufTy).Contents (Elt F) → (⟨S100000x64, .f32⟩ : BufTy).Contents (Elt F) → (⟨S100000x64, .f32⟩ : BufTy).Contents (Elt F)),
    StableHlo.nullary main_cst_1 (constant S_ .f32 0x3727C5AC#32),
    StableHlo.unary main_cst_1 main_v18 (broadcastInDim S64 ![] bcast_S_S64 : (⟨S_, .f32⟩ : BufTy).Contents (Elt F) → (⟨S64, .f32⟩ : BufTy).Contents (Elt F)),
    StableHlo.binary main_v11 main_v18 main_v19 (addf : (⟨S64, .f32⟩ : BufTy).Contents (Elt F) → (⟨S64, .f32⟩ : BufTy).Contents (Elt F) → (⟨S64, .f32⟩ : BufTy).Contents (Elt F)),
    StableHlo.unary main_v19 main_v20 (Host.rsqrt : (⟨S64, .f32⟩ : BufTy).Contents (Elt F) → (⟨S64, .f32⟩ : BufTy).Contents (Elt F)),
    StableHlo.unary main_v20 main_v21 (broadcastInDim S1x64 ![1] bcast_S64_S1x64_1 : (⟨S64, .f32⟩ : BufTy).Contents (Elt F) → (⟨S1x64, .f32⟩ : BufTy).Contents (Elt F)),
    StableHlo.unary main_v21 main_v22 (broadcastInDim S100000x64 ![0, 1] bcast_S1x64_S100000x64_0_1 : (⟨S1x64, .f32⟩ : BufTy).Contents (Elt F) → (⟨S100000x64, .f32⟩ : BufTy).Contents (Elt F)),
    StableHlo.binary main_v17 main_v22 main_v23 (mulf : (⟨S100000x64, .f32⟩ : BufTy).Contents (Elt F) → (⟨S100000x64, .f32⟩ : BufTy).Contents (Elt F) → (⟨S100000x64, .f32⟩ : BufTy).Contents (Elt F)),
    StableHlo.unary main_arg5 main_v24 (broadcastInDim S1x64 ![1] bcast_S64_S1x64_1 : (⟨S64, .f32⟩ : BufTy).Contents (Elt F) → (⟨S1x64, .f32⟩ : BufTy).Contents (Elt F)),
    StableHlo.unary main_v24 main_v25 (broadcastInDim S100000x64 ![0, 1] bcast_S1x64_S100000x64_0_1 : (⟨S1x64, .f32⟩ : BufTy).Contents (Elt F) → (⟨S100000x64, .f32⟩ : BufTy).Contents (Elt F)),
    StableHlo.binary main_v23 main_v25 main_v26 (addf : (⟨S100000x64, .f32⟩ : BufTy).Contents (Elt F) → (⟨S100000x64, .f32⟩ : BufTy).Contents (Elt F) → (⟨S100000x64, .f32⟩ : BufTy).Contents (Elt F)),
    StableHlo.TRef.nullary main_call1.cst (constant S_ .f32 0x00000000#32),
    StableHlo.TRef.unary main_call1.cst main_call1.v0 (broadcastInDim S100000x64 ![] bcast_S_S100000x64),
    StableHlo.TRef.binary (.of main_v26 : StableHlo.TRef sig ⟨S100000x64, .f32⟩) main_call1.v0 main_call1.v1 maximumf ]

/-- The first mean-aggregating layer on `main_v27` (result `main_v52`): the source indices made non-negative, the gather of the source rows, their sum scattered at the destination rows, the in-degree (at least one), the quotient, and the two products with `main_arg6`, `main_arg8` and the bias `main_arg7`. -/
abbrev opsC : List (HloOp τ sig (Elt F)) :=
  [ StableHlo.nullary main_c_2 (constantI S_ 32 0#32),
    StableHlo.unary main_c_2 main_v28 (broadcastInDim S3200000 ![] bcast_S_S3200000 : (⟨S_, .i32⟩ : BufTy).Contents (Elt F) → (⟨S3200000, .i32⟩ : BufTy).Contents (Elt F)),
    StableHlo.binary main_v1 main_v28 main_v29 (cmpi .slt : (⟨S3200000, .i32⟩ : BufTy).Contents (Elt F) → (⟨S3200000, .i32⟩ : BufTy).Contents (Elt F) → (⟨S3200000, .i1⟩ : BufTy).Contents (Elt F)),
    StableHlo.nullary main_c_3 (constantI S_ 32 100000#32),
    StableHlo.unary main_c_3 main_v30 (broadcastInDim S3200000 ![] bcast_S_S3200000 : (⟨S_, .i32⟩ : BufTy).Contents (Elt F) → (⟨S3200000, .i32⟩ : BufTy).Contents (Elt F)),
    StableHlo.binary main_v1 main_v30 main_v31 (addi : (⟨S3200000, .i32⟩ : BufTy).Contents (Elt F) → (⟨S3200000, .i32⟩ : BufTy).Contents (Elt F) → (⟨S3200000, .i32⟩ : BufTy).Contents (Elt F)),
    StableHlo.ternary main_v29 main_v31 main_v1 main_v32 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v32 main_v33 (broadcastInDim S3200000x1 ![0] bcast_S3200000_S3200000x1_0 : (⟨S3200000, .i32⟩ : BufTy).Contents (Elt F) → (⟨S3200000x1, .i32⟩ : BufTy).Contents (Elt F)),
    StableHlo.binary main_v27 main_v33 main_v34 ((fun x i => Host.gather gather_S100000x64_S3200000x1_S3200000x64_1_0_n_n_0_1_164 x i) : (⟨S100000x64, .f32⟩ : BufTy).Contents (Elt F) → (⟨S3200000x1, .i32⟩ : BufTy).Contents (Elt F) → (⟨S3200000x64, .f32⟩ : BufTy).Contents (Elt F)),
    StableHlo.nullary main_cst_4 (constant S_ .f32 0x00000000#32),
    StableHlo.unary main_cst_4 main_v35 (broadcastInDim S100000x64 ![] bcast_S_S100000x64 : (⟨S_, .f32⟩ : BufTy).Contents (Elt F) → (⟨S100000x64, .f32⟩ : BufTy).Contents (Elt F)),
    StableHlo.unary main_v3 main_v36 (broadcastInDim S3200000x1 ![0] bcast_S3200000_S3200000x1_0 : (⟨S3200000, .i32⟩ : BufTy).Contents (Elt F) → (⟨S3200000x1, .i32⟩ : BufTy).Contents (Elt F)),
    StableHlo.ternary main_v35 main_v36 main_v34 main_v37 ((fun x i u => Host.scatterAdd scatter_S100000x64_S3200000x1_S3200000x64_1_0_0_1 x i u) : (⟨S100000x64, .f32⟩ : BufTy).Contents (Elt F) → (⟨S3200000x1, .i32⟩ : BufTy).Contents (Elt F) → (⟨S3200000x64, .f32⟩ : BufTy).Contents (Elt F) → (⟨S100000x64, .f32⟩ : BufTy).Contents (Elt F)),
    StableHlo.nullary main_cst_5 (constant S_ .f32 0x3F800000#32),
    StableHlo.unary main_cst_5 main_v38 (broadcastInDim S3200000 ![] bcast_S_S3200000 : (⟨S_, .f32⟩ : BufTy).Contents (Elt F) → (⟨S3200000, .f32⟩ : BufTy).Contents (Elt F)),
    StableHlo.nullary main_cst_6 (constant S_ .f32 0x00000000#32),
    StableHlo.unary main_cst_6 main_v39 (broadcastInDim S100000 ![] bcast_S_S100000 : (⟨S_, .f32⟩ : BufTy).Contents (Elt F) → (⟨S100000, .f32⟩ : BufTy).Contents (Elt F)),
    StableHlo.unary main_v3 main_v40 (broadcastInDim S3200000x1 ![0] bcast_S3200000_S3200000x1_0 : (⟨S3200000, .i32⟩ : BufTy).Contents (Elt F) → (⟨S3200000x1, .i32⟩ : BufTy).Contents (Elt F)),
    StableHlo.ternary main_v39 main_v40 main_v38 main_v41 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_7 (constant S_ .f32 0x3F800000#32),
    StableHlo.unary main_cst_7 main_v42 (broadcastInDim S100000 ![] bcast_S_S100000 : (⟨S_, .f32⟩ : BufTy).Contents (Elt F) → (⟨S100000, .f32⟩ : BufTy).Contents (Elt F)),
    StableHlo.binary main_v41 main_v42 main_v43 (maximumf : (⟨S100000, .f32⟩ : BufTy).Contents (Elt F) → (⟨S100000, .f32⟩ : BufTy).Contents (Elt F) → (⟨S100000, .f32⟩ : BufTy).Contents (Elt F)),
    StableHlo.unary main_v43 main_v44 (broadcastInDim S100000x1 ![0] bcast_S100000_S100000x1_0 : (⟨S100000, .f32⟩ : BufTy).Contents (Elt F) → (⟨S100000x1, .f32⟩ : BufTy).Contents (Elt F)),
    StableHlo.unary main_v44 main_v45 (broadcastInDim S100000x64 ![0, 1] bcast_S100000x1_S100000x64_0_1 : (⟨S100000x1, .f32⟩ : BufTy).Contents (Elt F) → (⟨S100000x64, .f32⟩ : BufTy).Contents (Elt F)),
    StableHlo.binary main_v37 main_v45 main_v46 (Host.divf : (⟨S100000x64, .f32⟩ : BufTy).Contents (Elt F) → (⟨S100000x64, .f32⟩ : BufTy).Contents (Elt F) → (⟨S100000x64, .f32⟩ : BufTy).Contents (Elt F)),
    StableHlo.binary main_v46 main_arg6 main_v47 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg7 main_v48 (broadcastInDim S1x64 ![1] bcast_S64_S1x64_1 : (⟨S64, .f32⟩ : BufTy).Contents (Elt F) → (⟨S1x64, .f32⟩ : BufTy).Contents (Elt F)),
    StableHlo.unary main_v48 main_v49 (broadcastInDim S100000x64 ![0, 1] bcast_S1x64_S100000x64_0_1 : (⟨S1x64, .f32⟩ : BufTy).Contents (Elt F) → (⟨S100000x64, .f32⟩ : BufTy).Contents (Elt F)),
    StableHlo.binary main_v47 main_v49 main_v50 (addf : (⟨S100000x64, .f32⟩ : BufTy).Contents (Elt F) → (⟨S100000x64, .f32⟩ : BufTy).Contents (Elt F) → (⟨S100000x64, .f32⟩ : BufTy).Contents (Elt F)),
    StableHlo.binary main_v27 main_arg8 main_v51 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v50 main_v51 main_v52 (addf : (⟨S100000x64, .f32⟩ : BufTy).Contents (Elt F) → (⟨S100000x64, .f32⟩ : BufTy).Contents (Elt F) → (⟨S100000x64, .f32⟩ : BufTy).Contents (Elt F)) ]

/-- Batch normalisation of `main_v52` with scale `main_arg9` and shift `main_arg10`, then the positive part (result `main_v72`). -/
abbrev opsD : List (HloOp τ sig (Elt F)) :=
  [ StableHlo.nullary main_cst_8 (constant S_ .f32 0x00000000#32),
    StableHlo.binary main_v52 main_cst_8 main_v53 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_9 (constant S_ .f32 0x47C35000#32),
    StableHlo.unary main_cst_9 main_v54 (broadcastInDim S64 ![] bcast_S_S64 : (⟨S_, .f32⟩ : BufTy).Contents (Elt F) → (⟨S64, .f32⟩ : BufTy).Contents (Elt F)),
    StableHlo.binary main_v53 main_v54 main_v55 (Host.divf : (⟨S64, .f32⟩ : BufTy).Contents (Elt F) → (⟨S64, .f32⟩ : BufTy).Contents (Elt F) → (⟨S64, .f32⟩ : BufTy).Contents (Elt F)),
    StableHlo.nullary main_c_10 (constantI S_ 32 0#32),
    StableHlo.TRef.nullary main_call2.cst (constant S_ .f32 0x00000000#32),
    StableHlo.TRef.binary (.of main_v52 : StableHlo.TRef sig ⟨S100000x64, .f32⟩) main_call2.cst main_call2.v0 (fun x v => Host.reduceAdd x v reducesTo_S100000x64_S64_d0 h_S_),
    StableHlo.TRef.unary main_call2.v0 main_call2.v1 (broadcastInDim S1x64 ![1] bcast_S64_S1x64_1),
    StableHlo.TRef.nullary main_call2.cst_0 (constant S_ .f32 0x47C35000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S100000x64 ![0, 1] bcast_S1x64_S100000x64_0_1),
    StableHlo.TRef.binary (.of main_v52 : StableHlo.TRef sig ⟨S100000x64, .f32⟩) main_call2.v4 main_call2.v5 subf,
    StableHlo.TRef.binary main_call2.v5 main_call2.v5 main_call2.v6 mulf,
    StableHlo.TRef.unary (.of main_c_10 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b),
    StableHlo.unary main_v55 main_v57 (broadcastInDim S1x64 ![1] bcast_S64_S1x64_1 : (⟨S64, .f32⟩ : BufTy).Contents (Elt F) → (⟨S1x64, .f32⟩ : BufTy).Contents (Elt F)),
    StableHlo.unary main_v57 main_v58 (broadcastInDim S100000x64 ![0, 1] bcast_S1x64_S100000x64_0_1 : (⟨S1x64, .f32⟩ : BufTy).Contents (Elt F) → (⟨S100000x64, .f32⟩ : BufTy).Contents (Elt F)),
    StableHlo.binary main_v52 main_v58 main_v59 (subf : (⟨S100000x64, .f32⟩ : BufTy).Contents (Elt F) → (⟨S100000x64, .f32⟩ : BufTy).Contents (Elt F) → (⟨S100000x64, .f32⟩ : BufTy).Contents (Elt F)),
    StableHlo.unary main_arg9 main_v60 (broadcastInDim S1x64 ![1] bcast_S64_S1x64_1 : (⟨S64, .f32⟩ : BufTy).Contents (Elt F) → (⟨S1x64, .f32⟩ : BufTy).Contents (Elt F)),
    StableHlo.unary main_v60 main_v61 (broadcastInDim S100000x64 ![0, 1] bcast_S1x64_S100000x64_0_1 : (⟨S1x64, .f32⟩ : BufTy).Contents (Elt F) → (⟨S100000x64, .f32⟩ : BufTy).Contents (Elt F)),
    StableHlo.binary main_v61 main_v59 main_v62 (mulf : (⟨S100000x64, .f32⟩ : BufTy).Contents (Elt F) → (⟨S100000x64, .f32⟩ : BufTy).Contents (Elt F) → (⟨S100000x64, .f32⟩ : BufTy).Contents (Elt F)),
    StableHlo.nullary main_cst_11 (constant S_ .f32 0x3727C5AC#32),
    StableHlo.unary main_cst_11 main_v63 (broadcastInDim S64 ![] bcast_S_S64 : (⟨S_, .f32⟩ : BufTy).Contents (Elt F) → (⟨S64, .f32⟩ : BufTy).Contents (Elt F)),
    StableHlo.binary main_v56 main_v63 main_v64 (addf : (⟨S64, .f32⟩ : BufTy).Contents (Elt F) → (⟨S64, .f32⟩ : BufTy).Contents (Elt F) → (⟨S64, .f32⟩ : BufTy).Contents (Elt F)),
    StableHlo.unary main_v64 main_v65 (Host.rsqrt : (⟨S64, .f32⟩ : BufTy).Contents (Elt F) → (⟨S64, .f32⟩ : BufTy).Contents (Elt F)),
    StableHlo.unary main_v65 main_v66 (broadcastInDim S1x64 ![1] bcast_S64_S1x64_1 : (⟨S64, .f32⟩ : BufTy).Contents (Elt F) → (⟨S1x64, .f32⟩ : BufTy).Contents (Elt F)),
    StableHlo.unary main_v66 main_v67 (broadcastInDim S100000x64 ![0, 1] bcast_S1x64_S100000x64_0_1 : (⟨S1x64, .f32⟩ : BufTy).Contents (Elt F) → (⟨S100000x64, .f32⟩ : BufTy).Contents (Elt F)),
    StableHlo.binary main_v62 main_v67 main_v68 (mulf : (⟨S100000x64, .f32⟩ : BufTy).Contents (Elt F) → (⟨S100000x64, .f32⟩ : BufTy).Contents (Elt F) → (⟨S100000x64, .f32⟩ : BufTy).Contents (Elt F)),
    StableHlo.unary main_arg10 main_v69 (broadcastInDim S1x64 ![1] bcast_S64_S1x64_1 : (⟨S64, .f32⟩ : BufTy).Contents (Elt F) → (⟨S1x64, .f32⟩ : BufTy).Contents (Elt F)),
    StableHlo.unary main_v69 main_v70 (broadcastInDim S100000x64 ![0, 1] bcast_S1x64_S100000x64_0_1 : (⟨S1x64, .f32⟩ : BufTy).Contents (Elt F) → (⟨S100000x64, .f32⟩ : BufTy).Contents (Elt F)),
    StableHlo.binary main_v68 main_v70 main_v71 (addf : (⟨S100000x64, .f32⟩ : BufTy).Contents (Elt F) → (⟨S100000x64, .f32⟩ : BufTy).Contents (Elt F) → (⟨S100000x64, .f32⟩ : BufTy).Contents (Elt F)),
    StableHlo.TRef.nullary main_call3.cst (constant S_ .f32 0x00000000#32),
    StableHlo.TRef.unary main_call3.cst main_call3.v0 (broadcastInDim S100000x64 ![] bcast_S_S100000x64),
    StableHlo.TRef.binary (.of main_v71 : StableHlo.TRef sig ⟨S100000x64, .f32⟩) main_call3.v0 main_call3.v1 maximumf ]

/-- The second mean-aggregating layer on `main_v72` (result `main_v97`), with `main_arg11`, `main_arg12`, `main_arg13`. -/
abbrev opsE : List (HloOp τ sig (Elt F)) :=
  [ StableHlo.nullary main_c_12 (constantI S_ 32 0#32),
    StableHlo.unary main_c_12 main_v73 (broadcastInDim S3200000 ![] bcast_S_S3200000 : (⟨S_, .i32⟩ : BufTy).Contents (Elt F) → (⟨S3200000, .i32⟩ : BufTy).Contents (Elt F)),
    StableHlo.binary main_v1 main_v73 main_v74 (cmpi .slt : (⟨S3200000, .i32⟩ : BufTy).Contents (Elt F) → (⟨S3200000, .i32⟩ : BufTy).Contents (Elt F) → (⟨S3200000, .i1⟩ : BufTy).Contents (Elt F)),
    StableHlo.nullary main_c_13 (constantI S_ 32 100000#32),
    StableHlo.unary main_c_13 main_v75 (broadcastInDim S3200000 ![] bcast_S_S3200000 : (⟨S_, .i32⟩ : BufTy).Contents (Elt F) → (⟨S3200000, .i32⟩ : BufTy).Contents (Elt F)),
    StableHlo.binary main_v1 main_v75 main_v76 (addi : (⟨S3200000, .i32⟩ : BufTy).Contents (Elt F) → (⟨S3200000, .i32⟩ : BufTy).Contents (Elt F) → (⟨S3200000, .i32⟩ : BufTy).Contents (Elt F)),
    StableHlo.ternary main_v74 main_v76 main_v1 main_v77 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v77 main_v78 (broadcastInDim S3200000x1 ![0] bcast_S3200000_S3200000x1_0 : (⟨S3200000, .i32⟩ : BufTy).Contents (Elt F) → (⟨S3200000x1, .i32⟩ : BufTy).Contents (Elt F)),
    StableHlo.binary main_v72 main_v78 main_v79 ((fun x i => Host.gather gather_S100000x64_S3200000x1_S3200000x64_1_0_n_n_0_1_164 x i) : (⟨S100000x64, .f32⟩ : BufTy).Contents (Elt F) → (⟨S3200000x1, .i32⟩ : BufTy).Contents (Elt F) → (⟨S3200000x64, .f32⟩ : BufTy).Contents (Elt F)),
    StableHlo.nullary main_cst_14 (constant S_ .f32 0x00000000#32),
    StableHlo.unary main_cst_14 main_v80 (broadcastInDim S100000x64 ![] bcast_S_S100000x64 : (⟨S_, .f32⟩ : BufTy).Contents (Elt F) → (⟨S100000x64, .f32⟩ : BufTy).Contents (Elt F)),
    StableHlo.unary main_v3 main_v81 (broadcastInDim S3200000x1 ![0] bcast_S3200000_S3200000x1_0 : (⟨S3200000, .i32⟩ : BufTy).Contents (Elt F) → (⟨S3200000x1, .i32⟩ : BufTy).Contents (Elt F)),
    StableHlo.ternary main_v80 main_v81 main_v79 main_v82 ((fun x i u => Host.scatterAdd scatter_S100000x64_S3200000x1_S3200000x64_1_0_0_1 x i u) : (⟨S100000x64, .f32⟩ : BufTy).Contents (Elt F) → (⟨S3200000x1, .i32⟩ : BufTy).Contents (Elt F) → (⟨S3200000x64, .f32⟩ : BufTy).Contents (Elt F) → (⟨S100000x64, .f32⟩ : BufTy).Contents (Elt F)),
    StableHlo.nullary main_cst_15 (constant S_ .f32 0x3F800000#32),
    StableHlo.unary main_cst_15 main_v83 (broadcastInDim S3200000 ![] bcast_S_S3200000 : (⟨S_, .f32⟩ : BufTy).Contents (Elt F) → (⟨S3200000, .f32⟩ : BufTy).Contents (Elt F)),
    StableHlo.nullary main_cst_16 (constant S_ .f32 0x00000000#32),
    StableHlo.unary main_cst_16 main_v84 (broadcastInDim S100000 ![] bcast_S_S100000 : (⟨S_, .f32⟩ : BufTy).Contents (Elt F) → (⟨S100000, .f32⟩ : BufTy).Contents (Elt F)),
    StableHlo.unary main_v3 main_v85 (broadcastInDim S3200000x1 ![0] bcast_S3200000_S3200000x1_0 : (⟨S3200000, .i32⟩ : BufTy).Contents (Elt F) → (⟨S3200000x1, .i32⟩ : BufTy).Contents (Elt F)),
    StableHlo.ternary main_v84 main_v85 main_v83 main_v86 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_17 (constant S_ .f32 0x3F800000#32),
    StableHlo.unary main_cst_17 main_v87 (broadcastInDim S100000 ![] bcast_S_S100000 : (⟨S_, .f32⟩ : BufTy).Contents (Elt F) → (⟨S100000, .f32⟩ : BufTy).Contents (Elt F)),
    StableHlo.binary main_v86 main_v87 main_v88 (maximumf : (⟨S100000, .f32⟩ : BufTy).Contents (Elt F) → (⟨S100000, .f32⟩ : BufTy).Contents (Elt F) → (⟨S100000, .f32⟩ : BufTy).Contents (Elt F)),
    StableHlo.unary main_v88 main_v89 (broadcastInDim S100000x1 ![0] bcast_S100000_S100000x1_0 : (⟨S100000, .f32⟩ : BufTy).Contents (Elt F) → (⟨S100000x1, .f32⟩ : BufTy).Contents (Elt F)),
    StableHlo.unary main_v89 main_v90 (broadcastInDim S100000x64 ![0, 1] bcast_S100000x1_S100000x64_0_1 : (⟨S100000x1, .f32⟩ : BufTy).Contents (Elt F) → (⟨S100000x64, .f32⟩ : BufTy).Contents (Elt F)),
    StableHlo.binary main_v82 main_v90 main_v91 (Host.divf : (⟨S100000x64, .f32⟩ : BufTy).Contents (Elt F) → (⟨S100000x64, .f32⟩ : BufTy).Contents (Elt F) → (⟨S100000x64, .f32⟩ : BufTy).Contents (Elt F)),
    StableHlo.binary main_v91 main_arg11 main_v92 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg12 main_v93 (broadcastInDim S1x64 ![1] bcast_S64_S1x64_1 : (⟨S64, .f32⟩ : BufTy).Contents (Elt F) → (⟨S1x64, .f32⟩ : BufTy).Contents (Elt F)),
    StableHlo.unary main_v93 main_v94 (broadcastInDim S100000x64 ![0, 1] bcast_S1x64_S100000x64_0_1 : (⟨S1x64, .f32⟩ : BufTy).Contents (Elt F) → (⟨S100000x64, .f32⟩ : BufTy).Contents (Elt F)),
    StableHlo.binary main_v92 main_v94 main_v95 (addf : (⟨S100000x64, .f32⟩ : BufTy).Contents (Elt F) → (⟨S100000x64, .f32⟩ : BufTy).Contents (Elt F) → (⟨S100000x64, .f32⟩ : BufTy).Contents (Elt F)),
    StableHlo.binary main_v72 main_arg13 main_v96 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.binary main_v95 main_v96 main_v97 (addf : (⟨S100000x64, .f32⟩ : BufTy).Contents (Elt F) → (⟨S100000x64, .f32⟩ : BufTy).Contents (Elt F) → (⟨S100000x64, .f32⟩ : BufTy).Contents (Elt F)) ]

/-- Batch normalisation of `main_v97` with scale `main_arg14` and shift `main_arg15`, the positive part, and the sum with the first hidden state `main_v27` (result `main_v118`). -/
abbrev opsF : List (HloOp τ sig (Elt F)) :=
  [ StableHlo.nullary main_cst_18 (constant S_ .f32 0x00000000#32),
    StableHlo.binary main_v97 main_cst_18 main_v98 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_19 (constant S_ .f32 0x47C35000#32),
    StableHlo.unary main_cst_19 main_v99 (broadcastInDim S64 ![] bcast_S_S64 : (⟨S_, .f32⟩ : BufTy).Contents (Elt F) → (⟨S64, .f32⟩ : BufTy).Contents (Elt F)),
    StableHlo.binary main_v98 main_v99 main_v100 (Host.divf : (⟨S64, .f32⟩ : BufTy).Contents (Elt F) → (⟨S64, .f32⟩ : BufTy).Contents (Elt F) → (⟨S64, .f32⟩ : BufTy).Contents (Elt F)),
    StableHlo.nullary main_c_20 (constantI S_ 32 0#32),
    StableHlo.TRef.nullary main_call4.cst (constant S_ .f32 0x00000000#32),
    StableHlo.TRef.binary (.of main_v97 : StableHlo.TRef sig ⟨S100000x64, .f32⟩) main_call4.cst main_call4.v0 (fun x v => Host.reduceAdd x v reducesTo_S100000x64_S64_d0 h_S_),
    StableHlo.TRef.unary main_call4.v0 main_call4.v1 (broadcastInDim S1x64 ![1] bcast_S64_S1x64_1),
    StableHlo.TRef.nullary main_call4.cst_0 (constant S_ .f32 0x47C35000#32),
    StableHlo.TRef.unary main_call4.cst_0 main_call4.v2 (broadcastInDim S1x64 ![] bcast_S_S1x64),
    StableHlo.TRef.binary main_call4.v1 main_call4.v2 main_call4.v3 Host.divf,
    StableHlo.TRef.unary main_call4.v3 main_call4.v4 (broadcastInDim S100000x64 ![0, 1] bcast_S1x64_S100000x64_0_1),
    StableHlo.TRef.binary (.of main_v97 : StableHlo.TRef sig ⟨S100000x64, .f32⟩) main_call4.v4 main_call4.v5 subf,
    StableHlo.TRef.binary main_call4.v5 main_call4.v5 main_call4.v6 mulf,
    StableHlo.TRef.unary (.of main_c_20 : StableHlo.TRef sig ⟨S_, .i32⟩) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x64_S64_d0 h_S_),
    StableHlo.TRef.unary main_call4.v8 main_call4.v10 (broadcastInDim S64 ![] bcast_S_S64),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S64 ![] bcast_S_S64),
    StableHlo.TRef.ternary main_call4.v12 main_call4.v11 main_call4.call0.v1 main_call4.call0.v2 (fun p a b => select (broadcastInDim S64 ![] bcast_S_S64 p) a b),
    StableHlo.unary main_v100 main_v102 (broadcastInDim S1x64 ![1] bcast_S64_S1x64_1 : (⟨S64, .f32⟩ : BufTy).Contents (Elt F) → (⟨S1x64, .f32⟩ : BufTy).Contents (Elt F)),
    StableHlo.unary main_v102 main_v103 (broadcastInDim S100000x64 ![0, 1] bcast_S1x64_S100000x64_0_1 : (⟨S1x64, .f32⟩ : BufTy).Contents (Elt F) → (⟨S100000x64, .f32⟩ : BufTy).Contents (Elt F)),
    StableHlo.binary main_v97 main_v103 main_v104 (subf : (⟨S100000x64, .f32⟩ : BufTy).Contents (Elt F) → (⟨S100000x64, .f32⟩ : BufTy).Contents (Elt F) → (⟨S100000x64, .f32⟩ : BufTy).Contents (Elt F)),
    StableHlo.unary main_arg14 main_v105 (broadcastInDim S1x64 ![1] bcast_S64_S1x64_1 : (⟨S64, .f32⟩ : BufTy).Contents (Elt F) → (⟨S1x64, .f32⟩ : BufTy).Contents (Elt F)),
    StableHlo.unary main_v105 main_v106 (broadcastInDim S100000x64 ![0, 1] bcast_S1x64_S100000x64_0_1 : (⟨S1x64, .f32⟩ : BufTy).Contents (Elt F) → (⟨S100000x64, .f32⟩ : BufTy).Contents (Elt F)),
    StableHlo.binary main_v106 main_v104 main_v107 (mulf : (⟨S100000x64, .f32⟩ : BufTy).Contents (Elt F) → (⟨S100000x64, .f32⟩ : BufTy).Contents (Elt F) → (⟨S100000x64, .f32⟩ : BufTy).Contents (Elt F)),
    StableHlo.nullary main_cst_21 (constant S_ .f32 0x3727C5AC#32),
    StableHlo.unary main_cst_21 main_v108 (broadcastInDim S64 ![] bcast_S_S64 : (⟨S_, .f32⟩ : BufTy).Contents (Elt F) → (⟨S64, .f32⟩ : BufTy).Contents (Elt F)),
    StableHlo.binary main_v101 main_v108 main_v109 (addf : (⟨S64, .f32⟩ : BufTy).Contents (Elt F) → (⟨S64, .f32⟩ : BufTy).Contents (Elt F) → (⟨S64, .f32⟩ : BufTy).Contents (Elt F)),
    StableHlo.unary main_v109 main_v110 (Host.rsqrt : (⟨S64, .f32⟩ : BufTy).Contents (Elt F) → (⟨S64, .f32⟩ : BufTy).Contents (Elt F)),
    StableHlo.unary main_v110 main_v111 (broadcastInDim S1x64 ![1] bcast_S64_S1x64_1 : (⟨S64, .f32⟩ : BufTy).Contents (Elt F) → (⟨S1x64, .f32⟩ : BufTy).Contents (Elt F)),
    StableHlo.unary main_v111 main_v112 (broadcastInDim S100000x64 ![0, 1] bcast_S1x64_S100000x64_0_1 : (⟨S1x64, .f32⟩ : BufTy).Contents (Elt F) → (⟨S100000x64, .f32⟩ : BufTy).Contents (Elt F)),
    StableHlo.binary main_v107 main_v112 main_v113 (mulf : (⟨S100000x64, .f32⟩ : BufTy).Contents (Elt F) → (⟨S100000x64, .f32⟩ : BufTy).Contents (Elt F) → (⟨S100000x64, .f32⟩ : BufTy).Contents (Elt F)),
    StableHlo.unary main_arg15 main_v114 (broadcastInDim S1x64 ![1] bcast_S64_S1x64_1 : (⟨S64, .f32⟩ : BufTy).Contents (Elt F) → (⟨S1x64, .f32⟩ : BufTy).Contents (Elt F)),
    StableHlo.unary main_v114 main_v115 (broadcastInDim S100000x64 ![0, 1] bcast_S1x64_S100000x64_0_1 : (⟨S1x64, .f32⟩ : BufTy).Contents (Elt F) → (⟨S100000x64, .f32⟩ : BufTy).Contents (Elt F)),
    StableHlo.binary main_v113 main_v115 main_v116 (addf : (⟨S100000x64, .f32⟩ : BufTy).Contents (Elt F) → (⟨S100000x64, .f32⟩ : BufTy).Contents (Elt F) → (⟨S100000x64, .f32⟩ : BufTy).Contents (Elt F)),
    StableHlo.TRef.nullary main_call5.cst (constant S_ .f32 0x00000000#32),
    StableHlo.TRef.unary main_call5.cst main_call5.v0 (broadcastInDim S100000x64 ![] bcast_S_S100000x64),
    StableHlo.TRef.binary (.of main_v116 : StableHlo.TRef sig ⟨S100000x64, .f32⟩) main_call5.v0 main_call5.v1 maximumf,
    StableHlo.binary main_v117 main_v27 main_v118 (addf : (⟨S100000x64, .f32⟩ : BufTy).Contents (Elt F) → (⟨S100000x64, .f32⟩ : BufTy).Contents (Elt F) → (⟨S100000x64, .f32⟩ : BufTy).Contents (Elt F)) ]

/-- The output head `main_v118 · Wo + bo` (result `main_v122`). -/
abbrev opsG : List (HloOp τ sig (Elt F)) :=
  [ StableHlo.binary main_v118 main_arg16 main_v119 ((fun l r => Host.dotGeneral dot_S100000x64_S64x2_S100000x2_1_0_0_1_n_n none l r) : (⟨S100000x64, .f32⟩ : BufTy).Contents (Elt F) → (⟨S64x2, .f32⟩ : BufTy).Contents (Elt F) → (⟨S100000x2, .f32⟩ : BufTy).Contents (Elt F)),
    StableHlo.unary main_arg17 main_v120 (broadcastInDim S1x2 ![1] bcast_S2_S1x2_1 : (⟨S2, .f32⟩ : BufTy).Contents (Elt F) → (⟨S1x2, .f32⟩ : BufTy).Contents (Elt F)),
    StableHlo.unary main_v120 main_v121 (broadcastInDim S100000x2 ![0, 1] bcast_S1x2_S100000x2_0_1 : (⟨S1x2, .f32⟩ : BufTy).Contents (Elt F) → (⟨S100000x2, .f32⟩ : BufTy).Contents (Elt F)),
    StableHlo.binary main_v119 main_v121 main_v122 (addf : (⟨S100000x2, .f32⟩ : BufTy).Contents (Elt F) → (⟨S100000x2, .f32⟩ : BufTy).Contents (Elt F) → (⟨S100000x2, .f32⟩ : BufTy).Contents (Elt F)) ]

/-- The whole program: the seven stages in order. -/
abbrev ops : List (HloOp τ sig (Elt F)) := opsA ++ (opsB ++ (opsC ++ (opsD ++ (opsE ++ (opsF ++ opsG)))))

/-! ## Folding over a concatenation -/

/-- The fold over two lines one after the other is the second line's fold from the first's. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- An operation whose only written buffer is `y`, a member of the list `W`, writes inside `W`. -/
theorem writes_sub_of_mem {W : List (Ref sig .tc)} {op : HloOp τ sig (Elt F)} (y : Ref sig .tc)
    (hw : op.writes = {Proc.devRef .tc y}) (hy : y ∈ W) :
    op.writes ⊆ (W.map (Proc.devRef (τ := τ) .tc)).toFinset := by
  rw [hw, Finset.singleton_subset_iff, List.mem_toFinset]
  exact List.mem_map.mpr ⟨y, hy, rfl⟩

/-! ## What each stage writes, and that it leaves every other buffer alone -/

/-- The buffers stage A writes, in order: one per operation. -/
abbrev wA : List (Ref sig .tc) :=
  [main_v0, main_v1, main_v2, main_v3, main_v4, main_v5, main_v6, main_v7]

theorem writesA : (opsA : List (HloOp τ sig (Elt F))).Forall fun op => op.writes ⊆ ((wA).map (Proc.devRef (τ := τ) .tc)).toFinset :=
  ⟨writes_sub_of_mem main_v0 rfl (by decide), writes_sub_of_mem main_v1 rfl (by decide), writes_sub_of_mem main_v2 rfl (by decide),
   writes_sub_of_mem main_v3 rfl (by decide), writes_sub_of_mem main_v4 rfl (by decide), writes_sub_of_mem main_v5 rfl (by decide),
   writes_sub_of_mem main_v6 rfl (by decide), writes_sub_of_mem main_v7 rfl (by decide)⟩

/-- A buffer stage A does not write keeps its contents. -/
theorem frameA (V : Valuation τ sig (Elt F)) {r : Ref sig .tc} (hr : r ∉ wA) :
    after opsA V (Proc.devRef .tc r) = V (Proc.devRef .tc r) :=
  after_of_writes_sub opsA V writesA hr

/-- The buffers stage B writes, in order: one per operation. -/
abbrev wB : List (Ref sig .tc) :=
  [main_cst, main_v8, main_cst_0, main_v9, main_v10, main_c, main_call0_cst, main_call0_v0,
   main_call0_v1, main_call0_cst_0, main_call0_v2, main_call0_v3, main_call0_v4, main_call0_v5, main_call0_v6, main_call0_v7,
   main_call0_cst_1, main_call0_v8, main_call0_cst_2, main_call0_v9, main_call0_v10, main_call0_v11, main_call0_cst_3, main_call0_v12,
   main_call0_cst_4, main_call0_call0_v0, main_call0_call0_v1, main_v11, main_v12, main_v13, main_v14, main_v15,
   main_v16, main_v17, main_cst_1, main_v18, main_v19, main_v20, main_v21, main_v22,
   main_v23, main_v24, main_v25, main_v26, main_call1_cst, main_call1_v0, main_v27]

theorem writesB : (opsB : List (HloOp τ sig (Elt F))).Forall fun op => op.writes ⊆ ((wB).map (Proc.devRef (τ := τ) .tc)).toFinset :=
  ⟨writes_sub_of_mem main_cst rfl (by decide), writes_sub_of_mem main_v8 rfl (by decide), writes_sub_of_mem main_cst_0 rfl (by decide),
   writes_sub_of_mem main_v9 rfl (by decide), writes_sub_of_mem main_v10 rfl (by decide), writes_sub_of_mem main_c rfl (by decide),
   writes_sub_of_mem main_call0_cst rfl (by decide), writes_sub_of_mem main_call0_v0 rfl (by decide), writes_sub_of_mem main_call0_v1 rfl (by decide),
   writes_sub_of_mem main_call0_cst_0 rfl (by decide), writes_sub_of_mem main_call0_v2 rfl (by decide), writes_sub_of_mem main_call0_v3 rfl (by decide),
   writes_sub_of_mem main_call0_v4 rfl (by decide), writes_sub_of_mem main_call0_v5 rfl (by decide), writes_sub_of_mem main_call0_v6 rfl (by decide),
   writes_sub_of_mem main_call0_v7 rfl (by decide), writes_sub_of_mem main_call0_cst_1 rfl (by decide), writes_sub_of_mem main_call0_v8 rfl (by decide),
   writes_sub_of_mem main_call0_cst_2 rfl (by decide), writes_sub_of_mem main_call0_v9 rfl (by decide), writes_sub_of_mem main_call0_v10 rfl (by decide),
   writes_sub_of_mem main_call0_v11 rfl (by decide), writes_sub_of_mem main_call0_cst_3 rfl (by decide), writes_sub_of_mem main_call0_v12 rfl (by decide),
   writes_sub_of_mem main_call0_cst_4 rfl (by decide), writes_sub_of_mem main_call0_call0_v0 rfl (by decide), writes_sub_of_mem main_call0_call0_v1 rfl (by decide),
   writes_sub_of_mem main_v11 rfl (by decide), writes_sub_of_mem main_v12 rfl (by decide), writes_sub_of_mem main_v13 rfl (by decide),
   writes_sub_of_mem main_v14 rfl (by decide), writes_sub_of_mem main_v15 rfl (by decide), writes_sub_of_mem main_v16 rfl (by decide),
   writes_sub_of_mem main_v17 rfl (by decide), writes_sub_of_mem main_cst_1 rfl (by decide), writes_sub_of_mem main_v18 rfl (by decide),
   writes_sub_of_mem main_v19 rfl (by decide), writes_sub_of_mem main_v20 rfl (by decide), writes_sub_of_mem main_v21 rfl (by decide),
   writes_sub_of_mem main_v22 rfl (by decide), writes_sub_of_mem main_v23 rfl (by decide), writes_sub_of_mem main_v24 rfl (by decide),
   writes_sub_of_mem main_v25 rfl (by decide), writes_sub_of_mem main_v26 rfl (by decide), writes_sub_of_mem main_call1_cst rfl (by decide),
   writes_sub_of_mem main_call1_v0 rfl (by decide), writes_sub_of_mem main_v27 rfl (by decide)⟩

/-- A buffer stage B does not write keeps its contents. -/
theorem frameB (V : Valuation τ sig (Elt F)) {r : Ref sig .tc} (hr : r ∉ wB) :
    after opsB V (Proc.devRef .tc r) = V (Proc.devRef .tc r) :=
  after_of_writes_sub opsB V writesB hr

/-- The buffers stage C writes, in order: one per operation. -/
abbrev wC : List (Ref sig .tc) :=
  [main_c_2, main_v28, main_v29, main_c_3, main_v30, main_v31, main_v32, main_v33,
   main_v34, main_cst_4, main_v35, main_v36, main_v37, main_cst_5, main_v38, main_cst_6,
   main_v39, main_v40, main_v41, main_cst_7, main_v42, main_v43, main_v44, main_v45,
   main_v46, main_v47, main_v48, main_v49, main_v50, main_v51, main_v52]

theorem writesC : (opsC : List (HloOp τ sig (Elt F))).Forall fun op => op.writes ⊆ ((wC).map (Proc.devRef (τ := τ) .tc)).toFinset :=
  ⟨writes_sub_of_mem main_c_2 rfl (by decide), writes_sub_of_mem main_v28 rfl (by decide), writes_sub_of_mem main_v29 rfl (by decide),
   writes_sub_of_mem main_c_3 rfl (by decide), writes_sub_of_mem main_v30 rfl (by decide), writes_sub_of_mem main_v31 rfl (by decide),
   writes_sub_of_mem main_v32 rfl (by decide), writes_sub_of_mem main_v33 rfl (by decide), writes_sub_of_mem main_v34 rfl (by decide),
   writes_sub_of_mem main_cst_4 rfl (by decide), writes_sub_of_mem main_v35 rfl (by decide), writes_sub_of_mem main_v36 rfl (by decide),
   writes_sub_of_mem main_v37 rfl (by decide), writes_sub_of_mem main_cst_5 rfl (by decide), writes_sub_of_mem main_v38 rfl (by decide),
   writes_sub_of_mem main_cst_6 rfl (by decide), writes_sub_of_mem main_v39 rfl (by decide), writes_sub_of_mem main_v40 rfl (by decide),
   writes_sub_of_mem main_v41 rfl (by decide), writes_sub_of_mem main_cst_7 rfl (by decide), writes_sub_of_mem main_v42 rfl (by decide),
   writes_sub_of_mem main_v43 rfl (by decide), writes_sub_of_mem main_v44 rfl (by decide), writes_sub_of_mem main_v45 rfl (by decide),
   writes_sub_of_mem main_v46 rfl (by decide), writes_sub_of_mem main_v47 rfl (by decide), writes_sub_of_mem main_v48 rfl (by decide),
   writes_sub_of_mem main_v49 rfl (by decide), writes_sub_of_mem main_v50 rfl (by decide), writes_sub_of_mem main_v51 rfl (by decide),
   writes_sub_of_mem main_v52 rfl (by decide)⟩

/-- A buffer stage C does not write keeps its contents. -/
theorem frameC (V : Valuation τ sig (Elt F)) {r : Ref sig .tc} (hr : r ∉ wC) :
    after opsC V (Proc.devRef .tc r) = V (Proc.devRef .tc r) :=
  after_of_writes_sub opsC V writesC hr

/-- The buffers stage D writes, in order: one per operation. -/
abbrev wD : List (Ref sig .tc) :=
  [main_cst_8, main_v53, main_cst_9, main_v54, main_v55, main_c_10, main_call2_cst, main_call2_v0,
   main_call2_v1, main_call2_cst_0, main_call2_v2, main_call2_v3, main_call2_v4, main_call2_v5, main_call2_v6, main_call2_v7,
   main_call2_cst_1, main_call2_v8, main_call2_cst_2, main_call2_v9, main_call2_v10, main_call2_v11, main_call2_cst_3, main_call2_v12,
   main_call2_cst_4, main_call2_call0_v0, main_call2_call0_v1, main_v56, main_v57, main_v58, main_v59, main_v60,
   main_v61, main_v62, main_cst_11, main_v63, main_v64, main_v65, main_v66, main_v67,
   main_v68, main_v69, main_v70, main_v71, main_call3_cst, main_call3_v0, main_v72]

theorem writesD : (opsD : List (HloOp τ sig (Elt F))).Forall fun op => op.writes ⊆ ((wD).map (Proc.devRef (τ := τ) .tc)).toFinset :=
  ⟨writes_sub_of_mem main_cst_8 rfl (by decide), writes_sub_of_mem main_v53 rfl (by decide), writes_sub_of_mem main_cst_9 rfl (by decide),
   writes_sub_of_mem main_v54 rfl (by decide), writes_sub_of_mem main_v55 rfl (by decide), writes_sub_of_mem main_c_10 rfl (by decide),
   writes_sub_of_mem main_call2_cst rfl (by decide), writes_sub_of_mem main_call2_v0 rfl (by decide), writes_sub_of_mem main_call2_v1 rfl (by decide),
   writes_sub_of_mem main_call2_cst_0 rfl (by decide), writes_sub_of_mem main_call2_v2 rfl (by decide), writes_sub_of_mem main_call2_v3 rfl (by decide),
   writes_sub_of_mem main_call2_v4 rfl (by decide), writes_sub_of_mem main_call2_v5 rfl (by decide), writes_sub_of_mem main_call2_v6 rfl (by decide),
   writes_sub_of_mem main_call2_v7 rfl (by decide), writes_sub_of_mem main_call2_cst_1 rfl (by decide), writes_sub_of_mem main_call2_v8 rfl (by decide),
   writes_sub_of_mem main_call2_cst_2 rfl (by decide), writes_sub_of_mem main_call2_v9 rfl (by decide), writes_sub_of_mem main_call2_v10 rfl (by decide),
   writes_sub_of_mem main_call2_v11 rfl (by decide), writes_sub_of_mem main_call2_cst_3 rfl (by decide), writes_sub_of_mem main_call2_v12 rfl (by decide),
   writes_sub_of_mem main_call2_cst_4 rfl (by decide), writes_sub_of_mem main_call2_call0_v0 rfl (by decide), writes_sub_of_mem main_call2_call0_v1 rfl (by decide),
   writes_sub_of_mem main_v56 rfl (by decide), writes_sub_of_mem main_v57 rfl (by decide), writes_sub_of_mem main_v58 rfl (by decide),
   writes_sub_of_mem main_v59 rfl (by decide), writes_sub_of_mem main_v60 rfl (by decide), writes_sub_of_mem main_v61 rfl (by decide),
   writes_sub_of_mem main_v62 rfl (by decide), writes_sub_of_mem main_cst_11 rfl (by decide), writes_sub_of_mem main_v63 rfl (by decide),
   writes_sub_of_mem main_v64 rfl (by decide), writes_sub_of_mem main_v65 rfl (by decide), writes_sub_of_mem main_v66 rfl (by decide),
   writes_sub_of_mem main_v67 rfl (by decide), writes_sub_of_mem main_v68 rfl (by decide), writes_sub_of_mem main_v69 rfl (by decide),
   writes_sub_of_mem main_v70 rfl (by decide), writes_sub_of_mem main_v71 rfl (by decide), writes_sub_of_mem main_call3_cst rfl (by decide),
   writes_sub_of_mem main_call3_v0 rfl (by decide), writes_sub_of_mem main_v72 rfl (by decide)⟩

/-- A buffer stage D does not write keeps its contents. -/
theorem frameD (V : Valuation τ sig (Elt F)) {r : Ref sig .tc} (hr : r ∉ wD) :
    after opsD V (Proc.devRef .tc r) = V (Proc.devRef .tc r) :=
  after_of_writes_sub opsD V writesD hr

/-- The buffers stage E writes, in order: one per operation. -/
abbrev wE : List (Ref sig .tc) :=
  [main_c_12, main_v73, main_v74, main_c_13, main_v75, main_v76, main_v77, main_v78,
   main_v79, main_cst_14, main_v80, main_v81, main_v82, main_cst_15, main_v83, main_cst_16,
   main_v84, main_v85, main_v86, main_cst_17, main_v87, main_v88, main_v89, main_v90,
   main_v91, main_v92, main_v93, main_v94, main_v95, main_v96, main_v97]

theorem writesE : (opsE : List (HloOp τ sig (Elt F))).Forall fun op => op.writes ⊆ ((wE).map (Proc.devRef (τ := τ) .tc)).toFinset :=
  ⟨writes_sub_of_mem main_c_12 rfl (by decide), writes_sub_of_mem main_v73 rfl (by decide), writes_sub_of_mem main_v74 rfl (by decide),
   writes_sub_of_mem main_c_13 rfl (by decide), writes_sub_of_mem main_v75 rfl (by decide), writes_sub_of_mem main_v76 rfl (by decide),
   writes_sub_of_mem main_v77 rfl (by decide), writes_sub_of_mem main_v78 rfl (by decide), writes_sub_of_mem main_v79 rfl (by decide),
   writes_sub_of_mem main_cst_14 rfl (by decide), writes_sub_of_mem main_v80 rfl (by decide), writes_sub_of_mem main_v81 rfl (by decide),
   writes_sub_of_mem main_v82 rfl (by decide), writes_sub_of_mem main_cst_15 rfl (by decide), writes_sub_of_mem main_v83 rfl (by decide),
   writes_sub_of_mem main_cst_16 rfl (by decide), writes_sub_of_mem main_v84 rfl (by decide), writes_sub_of_mem main_v85 rfl (by decide),
   writes_sub_of_mem main_v86 rfl (by decide), writes_sub_of_mem main_cst_17 rfl (by decide), writes_sub_of_mem main_v87 rfl (by decide),
   writes_sub_of_mem main_v88 rfl (by decide), writes_sub_of_mem main_v89 rfl (by decide), writes_sub_of_mem main_v90 rfl (by decide),
   writes_sub_of_mem main_v91 rfl (by decide), writes_sub_of_mem main_v92 rfl (by decide), writes_sub_of_mem main_v93 rfl (by decide),
   writes_sub_of_mem main_v94 rfl (by decide), writes_sub_of_mem main_v95 rfl (by decide), writes_sub_of_mem main_v96 rfl (by decide),
   writes_sub_of_mem main_v97 rfl (by decide)⟩

/-- A buffer stage E does not write keeps its contents. -/
theorem frameE (V : Valuation τ sig (Elt F)) {r : Ref sig .tc} (hr : r ∉ wE) :
    after opsE V (Proc.devRef .tc r) = V (Proc.devRef .tc r) :=
  after_of_writes_sub opsE V writesE hr

/-- The buffers stage F writes, in order: one per operation. -/
abbrev wF : List (Ref sig .tc) :=
  [main_cst_18, main_v98, main_cst_19, main_v99, main_v100, main_c_20, main_call4_cst, main_call4_v0,
   main_call4_v1, main_call4_cst_0, main_call4_v2, main_call4_v3, main_call4_v4, main_call4_v5, main_call4_v6, main_call4_v7,
   main_call4_cst_1, main_call4_v8, main_call4_cst_2, main_call4_v9, main_call4_v10, main_call4_v11, main_call4_cst_3, main_call4_v12,
   main_call4_cst_4, main_call4_call0_v0, main_call4_call0_v1, main_v101, main_v102, main_v103, main_v104, main_v105,
   main_v106, main_v107, main_cst_21, main_v108, main_v109, main_v110, main_v111, main_v112,
   main_v113, main_v114, main_v115, main_v116, main_call5_cst, main_call5_v0, main_v117, main_v118]

theorem writesF : (opsF : List (HloOp τ sig (Elt F))).Forall fun op => op.writes ⊆ ((wF).map (Proc.devRef (τ := τ) .tc)).toFinset :=
  ⟨writes_sub_of_mem main_cst_18 rfl (by decide), writes_sub_of_mem main_v98 rfl (by decide), writes_sub_of_mem main_cst_19 rfl (by decide),
   writes_sub_of_mem main_v99 rfl (by decide), writes_sub_of_mem main_v100 rfl (by decide), writes_sub_of_mem main_c_20 rfl (by decide),
   writes_sub_of_mem main_call4_cst rfl (by decide), writes_sub_of_mem main_call4_v0 rfl (by decide), writes_sub_of_mem main_call4_v1 rfl (by decide),
   writes_sub_of_mem main_call4_cst_0 rfl (by decide), writes_sub_of_mem main_call4_v2 rfl (by decide), writes_sub_of_mem main_call4_v3 rfl (by decide),
   writes_sub_of_mem main_call4_v4 rfl (by decide), writes_sub_of_mem main_call4_v5 rfl (by decide), writes_sub_of_mem main_call4_v6 rfl (by decide),
   writes_sub_of_mem main_call4_v7 rfl (by decide), writes_sub_of_mem main_call4_cst_1 rfl (by decide), writes_sub_of_mem main_call4_v8 rfl (by decide),
   writes_sub_of_mem main_call4_cst_2 rfl (by decide), writes_sub_of_mem main_call4_v9 rfl (by decide), writes_sub_of_mem main_call4_v10 rfl (by decide),
   writes_sub_of_mem main_call4_v11 rfl (by decide), writes_sub_of_mem main_call4_cst_3 rfl (by decide), writes_sub_of_mem main_call4_v12 rfl (by decide),
   writes_sub_of_mem main_call4_cst_4 rfl (by decide), writes_sub_of_mem main_call4_call0_v0 rfl (by decide), writes_sub_of_mem main_call4_call0_v1 rfl (by decide),
   writes_sub_of_mem main_v101 rfl (by decide), writes_sub_of_mem main_v102 rfl (by decide), writes_sub_of_mem main_v103 rfl (by decide),
   writes_sub_of_mem main_v104 rfl (by decide), writes_sub_of_mem main_v105 rfl (by decide), writes_sub_of_mem main_v106 rfl (by decide),
   writes_sub_of_mem main_v107 rfl (by decide), writes_sub_of_mem main_cst_21 rfl (by decide), writes_sub_of_mem main_v108 rfl (by decide),
   writes_sub_of_mem main_v109 rfl (by decide), writes_sub_of_mem main_v110 rfl (by decide), writes_sub_of_mem main_v111 rfl (by decide),
   writes_sub_of_mem main_v112 rfl (by decide), writes_sub_of_mem main_v113 rfl (by decide), writes_sub_of_mem main_v114 rfl (by decide),
   writes_sub_of_mem main_v115 rfl (by decide), writes_sub_of_mem main_v116 rfl (by decide), writes_sub_of_mem main_call5_cst rfl (by decide),
   writes_sub_of_mem main_call5_v0 rfl (by decide), writes_sub_of_mem main_v117 rfl (by decide), writes_sub_of_mem main_v118 rfl (by decide)⟩

/-- A buffer stage F does not write keeps its contents. -/
theorem frameF (V : Valuation τ sig (Elt F)) {r : Ref sig .tc} (hr : r ∉ wF) :
    after opsF V (Proc.devRef .tc r) = V (Proc.devRef .tc r) :=
  after_of_writes_sub opsF V writesF hr

/-- The buffers stage G writes, in order: one per operation. -/
abbrev wG : List (Ref sig .tc) :=
  [main_v119, main_v120, main_v121, main_v122]

theorem writesG : (opsG : List (HloOp τ sig (Elt F))).Forall fun op => op.writes ⊆ ((wG).map (Proc.devRef (τ := τ) .tc)).toFinset :=
  ⟨writes_sub_of_mem main_v119 rfl (by decide), writes_sub_of_mem main_v120 rfl (by decide), writes_sub_of_mem main_v121 rfl (by decide),
   writes_sub_of_mem main_v122 rfl (by decide)⟩

/-- A buffer stage G does not write keeps its contents. -/
theorem frameG (V : Valuation τ sig (Elt F)) {r : Ref sig .tc} (hr : r ∉ wG) :
    after opsG V (Proc.devRef .tc r) = V (Proc.devRef .tc r) :=
  after_of_writes_sub opsG V writesG hr

/-! ## The program is the line, and the line's run -/

set_option maxRecDepth 16384 in
set_option maxHeartbeats 16000000 in
/-- @main is that straight line: its three windows in order, the outlined functions unfolded at their calls over the
    calls' buffer records, are one chain of operations ending in the return — the concatenation's chain, by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨unary_bufs_sub .., reshape_bufs_sub .., unary_bufs_sub .., reshape_bufs_sub .., binary_bufs_sub .., unary_bufs_sub ..,
   unary_bufs_sub .., binary_bufs_sub ..⟩
theorem opsA_fresh : (opsA : List (HloOp τ sig (Elt F))).Forall fun op => op.fresh = ∅ :=
  ⟨rfl, rfl, rfl, rfl, rfl, rfl, rfl, rfl⟩
theorem opsB_sub : (opsB : List (HloOp τ sig (Elt F))).Forall fun op => op.bufs ⊆ tcRefs τ sig :=
  ⟨nullary_bufs_sub .., binary_bufs_sub .., nullary_bufs_sub .., unary_bufs_sub .., binary_bufs_sub .., nullary_bufs_sub ..,
   nullary_bufs_sub .., binary_bufs_sub .., unary_bufs_sub .., nullary_bufs_sub .., unary_bufs_sub .., binary_bufs_sub ..,
   unary_bufs_sub .., binary_bufs_sub .., binary_bufs_sub .., unary_bufs_sub .., nullary_bufs_sub .., binary_bufs_sub ..,
   nullary_bufs_sub .., binary_bufs_sub .., unary_bufs_sub .., binary_bufs_sub .., nullary_bufs_sub .., binary_bufs_sub ..,
   nullary_bufs_sub .., unary_bufs_sub .., unary_bufs_sub .., ternary_bufs_sub .., unary_bufs_sub .., unary_bufs_sub ..,
   binary_bufs_sub .., unary_bufs_sub .., unary_bufs_sub .., binary_bufs_sub .., nullary_bufs_sub .., unary_bufs_sub ..,
   binary_bufs_sub .., unary_bufs_sub .., unary_bufs_sub .., unary_bufs_sub .., binary_bufs_sub .., unary_bufs_sub ..,
   unary_bufs_sub .., binary_bufs_sub .., nullary_bufs_sub .., unary_bufs_sub .., binary_bufs_sub ..⟩
theorem opsB_fresh : (opsB : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl⟩
theorem opsC_sub : (opsC : List (HloOp τ sig (Elt F))).Forall fun op => op.bufs ⊆ tcRefs τ sig :=
  ⟨nullary_bufs_sub .., unary_bufs_sub .., binary_bufs_sub .., nullary_bufs_sub .., unary_bufs_sub .., binary_bufs_sub ..,
   ternary_bufs_sub .., unary_bufs_sub .., binary_bufs_sub .., nullary_bufs_sub .., unary_bufs_sub .., unary_bufs_sub ..,
   ternary_bufs_sub .., nullary_bufs_sub .., unary_bufs_sub .., nullary_bufs_sub .., unary_bufs_sub .., unary_bufs_sub ..,
   ternary_bufs_sub .., nullary_bufs_sub .., unary_bufs_sub .., binary_bufs_sub .., unary_bufs_sub .., unary_bufs_sub ..,
   binary_bufs_sub .., binary_bufs_sub .., unary_bufs_sub .., unary_bufs_sub .., binary_bufs_sub .., binary_bufs_sub ..,
   binary_bufs_sub ..⟩
theorem opsC_fresh : (opsC : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl⟩
theorem opsD_sub : (opsD : List (HloOp τ sig (Elt F))).Forall fun op => op.bufs ⊆ tcRefs τ sig :=
  ⟨nullary_bufs_sub .., binary_bufs_sub .., nullary_bufs_sub .., unary_bufs_sub .., binary_bufs_sub .., nullary_bufs_sub ..,
   nullary_bufs_sub .., binary_bufs_sub .., unary_bufs_sub .., nullary_bufs_sub .., unary_bufs_sub .., binary_bufs_sub ..,
   unary_bufs_sub .., binary_bufs_sub .., binary_bufs_sub .., unary_bufs_sub .., nullary_bufs_sub .., binary_bufs_sub ..,
   nullary_bufs_sub .., binary_bufs_sub .., unary_bufs_sub .., binary_bufs_sub .., nullary_bufs_sub .., binary_bufs_sub ..,
   nullary_bufs_sub .., unary_bufs_sub .., unary_bufs_sub .., ternary_bufs_sub .., unary_bufs_sub .., unary_bufs_sub ..,
   binary_bufs_sub .., unary_bufs_sub .., unary_bufs_sub .., binary_bufs_sub .., nullary_bufs_sub .., unary_bufs_sub ..,
   binary_bufs_sub .., unary_bufs_sub .., unary_bufs_sub .., unary_bufs_sub .., binary_bufs_sub .., unary_bufs_sub ..,
   unary_bufs_sub .., binary_bufs_sub .., nullary_bufs_sub .., unary_bufs_sub .., binary_bufs_sub ..⟩
theorem opsD_fresh : (opsD : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl⟩
theorem opsE_sub : (opsE : List (HloOp τ sig (Elt F))).Forall fun op => op.bufs ⊆ tcRefs τ sig :=
  ⟨nullary_bufs_sub .., unary_bufs_sub .., binary_bufs_sub .., nullary_bufs_sub .., unary_bufs_sub .., binary_bufs_sub ..,
   ternary_bufs_sub .., unary_bufs_sub .., binary_bufs_sub .., nullary_bufs_sub .., unary_bufs_sub .., unary_bufs_sub ..,
   ternary_bufs_sub .., nullary_bufs_sub .., unary_bufs_sub .., nullary_bufs_sub .., unary_bufs_sub .., unary_bufs_sub ..,
   ternary_bufs_sub .., nullary_bufs_sub .., unary_bufs_sub .., binary_bufs_sub .., unary_bufs_sub .., unary_bufs_sub ..,
   binary_bufs_sub .., binary_bufs_sub .., unary_bufs_sub .., unary_bufs_sub .., binary_bufs_sub .., binary_bufs_sub ..,
   binary_bufs_sub ..⟩
theorem opsE_fresh : (opsE : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl⟩
theorem opsF_sub : (opsF : List (HloOp τ sig (Elt F))).Forall fun op => op.bufs ⊆ tcRefs τ sig :=
  ⟨nullary_bufs_sub .., binary_bufs_sub .., nullary_bufs_sub .., unary_bufs_sub .., binary_bufs_sub .., nullary_bufs_sub ..,
   nullary_bufs_sub .., binary_bufs_sub .., unary_bufs_sub .., nullary_bufs_sub .., unary_bufs_sub .., binary_bufs_sub ..,
   unary_bufs_sub .., binary_bufs_sub .., binary_bufs_sub .., unary_bufs_sub .., nullary_bufs_sub .., binary_bufs_sub ..,
   nullary_bufs_sub .., binary_bufs_sub .., unary_bufs_sub .., binary_bufs_sub .., nullary_bufs_sub .., binary_bufs_sub ..,
   nullary_bufs_sub .., unary_bufs_sub .., unary_bufs_sub .., ternary_bufs_sub .., unary_bufs_sub .., unary_bufs_sub ..,
   binary_bufs_sub .., unary_bufs_sub .., unary_bufs_sub .., binary_bufs_sub .., nullary_bufs_sub .., unary_bufs_sub ..,
   binary_bufs_sub .., unary_bufs_sub .., unary_bufs_sub .., unary_bufs_sub .., binary_bufs_sub .., unary_bufs_sub ..,
   unary_bufs_sub .., binary_bufs_sub .., nullary_bufs_sub .., unary_bufs_sub .., binary_bufs_sub .., binary_bufs_sub ..⟩
theorem opsF_fresh : (opsF : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl, rfl, rfl, rfl⟩
theorem opsG_sub : (opsG : List (HloOp τ sig (Elt F))).Forall fun op => op.bufs ⊆ tcRefs τ sig :=
  ⟨binary_bufs_sub .., unary_bufs_sub .., unary_bufs_sub .., binary_bufs_sub ..⟩
theorem opsG_fresh : (opsG : List (HloOp τ sig (Elt F))).Forall fun op => op.fresh = ∅ :=
  ⟨rfl, rfl, rfl, rfl⟩

/-- A property of every operation of two lines holds of every operation of their concatenation. -/
theorem forall_append {α : Type} {P : α → Prop} {l₁ l₂ : List α} (h₁ : l₁.Forall P) (h₂ : l₂.Forall P) : (l₁ ++ l₂).Forall P :=
  List.forall_iff_forall_mem.mpr fun x hx => (List.mem_append.mp hx).elim
    (List.forall_iff_forall_mem.mp h₁ x) (List.forall_iff_forall_mem.mp h₂ x)

/-- Every operation touches TensorCore references only. -/
theorem ops_sub : (ops : List (HloOp τ sig (Elt F))).Forall fun op => op.bufs ⊆ tcRefs τ sig :=
  forall_append opsA_sub (forall_append opsB_sub (forall_append opsC_sub (forall_append opsD_sub
    (forall_append opsE_sub (forall_append opsF_sub opsG_sub)))))

/-- Every operation determines its results. -/
theorem ops_fresh : ∀ op ∈ (ops : List (HloOp τ sig (Elt F))), op.fresh = ∅ :=
  List.forall_iff_forall_mem.mp (forall_append opsA_fresh (forall_append opsB_fresh (forall_append opsC_fresh
    (forall_append opsD_fresh (forall_append opsE_fresh (forall_append opsF_fresh opsG_fresh))))))

/-- On the device, for any float values, from any memory with zero counters: every weakly fair execution of @main
    terminates, and every final state has each TensorCore buffer at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-! ## Buffers no stage so far has written -/

theorem keep1 (V : Valuation τ sig (Elt F)) {r : Ref sig .tc} (hA : r ∉ wA) :
    (after opsA V) (Proc.devRef .tc r) = V (Proc.devRef .tc r) :=
  frameA V hA
theorem keep2 (V : Valuation τ sig (Elt F)) {r : Ref sig .tc} (hA : r ∉ wA) (hB : r ∉ wB) :
    (after opsB (after opsA V)) (Proc.devRef .tc r) = V (Proc.devRef .tc r) :=
  (frameB _ hB).trans (keep1 V hA)
theorem keep3 (V : Valuation τ sig (Elt F)) {r : Ref sig .tc} (hA : r ∉ wA) (hB : r ∉ wB) (hC : r ∉ wC) :
    (after opsC (after opsB (after opsA V))) (Proc.devRef .tc r) = V (Proc.devRef .tc r) :=
  (frameC _ hC).trans (keep2 V hA hB)
theorem keep4 (V : Valuation τ sig (Elt F)) {r : Ref sig .tc} (hA : r ∉ wA) (hB : r ∉ wB) (hC : r ∉ wC) (hD : r ∉ wD) :
    (after opsD (after opsC (after opsB (after opsA V)))) (Proc.devRef .tc r) = V (Proc.devRef .tc r) :=
  (frameD _ hD).trans (keep3 V hA hB hC)
theorem keep5 (V : Valuation τ sig (Elt F)) {r : Ref sig .tc} (hA : r ∉ wA) (hB : r ∉ wB) (hC : r ∉ wC) (hD : r ∉ wD) (hE : r ∉ wE) :
    (after opsE (after opsD (after opsC (after opsB (after opsA V))))) (Proc.devRef .tc r) = V (Proc.devRef .tc r) :=
  (frameE _ hE).trans (keep4 V hA hB hC hD)
theorem keep6 (V : Valuation τ sig (Elt F)) {r : Ref sig .tc} (hA : r ∉ wA) (hB : r ∉ wB) (hC : r ∉ wC) (hD : r ∉ wD) (hE : r ∉ wE) (hF : r ∉ wF) :
    (after opsF (after opsE (after opsD (after opsC (after opsB (after opsA V)))))) (Proc.devRef .tc r) = V (Proc.devRef .tc r) :=
  (frameF _ hF).trans (keep5 V hA hB hC hD hE)
theorem keep7 (V : Valuation τ sig (Elt F)) {r : Ref sig .tc} (hA : r ∉ wA) (hB : r ∉ wB) (hC : r ∉ wC) (hD : r ∉ wD) (hE : r ∉ wE) (hF : r ∉ wF) (hG : r ∉ wG) :
    (after opsG (after opsF (after opsE (after opsD (after opsC (after opsB (after opsA V))))))) (Proc.devRef .tc r) = V (Proc.devRef .tc r) :=
  (frameG _ hG).trans (keep6 V hA hB hC hD hE hF)

/-- The fold over the whole program is the seven stages' folds in turn. -/
theorem after_ops (V : Valuation τ sig (Elt F)) : after ops V = (after opsG (after opsF (after opsE (after opsD (after opsC (after opsB (after opsA V))))))) := by
  simp only [after_append]

/-- A buffer the program never writes keeps its contents. -/
theorem kept (V : Valuation τ sig (Elt F)) {r : Ref sig .tc} (hA : r ∉ wA) (hB : r ∉ wB) (hC : r ∉ wC) (hD : r ∉ wD) (hE : r ∉ wE) (hF : r ∉ wF) (hG : r ∉ wG) :
    after ops V (Proc.devRef .tc r) = V (Proc.devRef .tc r) :=
  (congrFun (after_ops V) _).trans (keep7 V hA hB hC hD hE hF hG)

theorem kept_arg0 (V : Valuation τ sig (Elt F)) : after ops V (Proc.devRef .tc main_arg0) = V (Proc.devRef .tc main_arg0) :=
  kept V (by decide) (by decide) (by decide) (by decide) (by decide) (by decide) (by decide)
theorem kept_arg1 (V : Valuation τ sig (Elt F)) : after ops V (Proc.devRef .tc main_arg1) = V (Proc.devRef .tc main_arg1) :=
  kept V (by decide) (by decide) (by decide) (by decide) (by decide) (by decide) (by decide)
theorem kept_arg2 (V : Valuation τ sig (Elt F)) : after ops V (Proc.devRef .tc main_arg2) = V (Proc.devRef .tc main_arg2) :=
  kept V (by decide) (by decide) (by decide) (by decide) (by decide) (by decide) (by decide)
theorem kept_arg3 (V : Valuation τ sig (Elt F)) : after ops V (Proc.devRef .tc main_arg3) = V (Proc.devRef .tc main_arg3) :=
  kept V (by decide) (by decide) (by decide) (by decide) (by decide) (by decide) (by decide)
theorem kept_arg4 (V : Valuation τ sig (Elt F)) : after ops V (Proc.devRef .tc main_arg4) = V (Proc.devRef .tc main_arg4) :=
  kept V (by decide) (by decide) (by decide) (by decide) (by decide) (by decide) (by decide)
theorem kept_arg5 (V : Valuation τ sig (Elt F)) : after ops V (Proc.devRef .tc main_arg5) = V (Proc.devRef .tc main_arg5) :=
  kept V (by decide) (by decide) (by decide) (by decide) (by decide) (by decide) (by decide)
theorem kept_arg6 (V : Valuation τ sig (Elt F)) : after ops V (Proc.devRef .tc main_arg6) = V (Proc.devRef .tc main_arg6) :=
  kept V (by decide) (by decide) (by decide) (by decide) (by decide) (by decide) (by decide)
theorem kept_arg7 (V : Valuation τ sig (Elt F)) : after ops V (Proc.devRef .tc main_arg7) = V (Proc.devRef .tc main_arg7) :=
  kept V (by decide) (by decide) (by decide) (by decide) (by decide) (by decide) (by decide)
theorem kept_arg8 (V : Valuation τ sig (Elt F)) : after ops V (Proc.devRef .tc main_arg8) = V (Proc.devRef .tc main_arg8) :=
  kept V (by decide) (by decide) (by decide) (by decide) (by decide) (by decide) (by decide)
theorem kept_arg9 (V : Valuation τ sig (Elt F)) : after ops V (Proc.devRef .tc main_arg9) = V (Proc.devRef .tc main_arg9) :=
  kept V (by decide) (by decide) (by decide) (by decide) (by decide) (by decide) (by decide)
theorem kept_arg10 (V : Valuation τ sig (Elt F)) : after ops V (Proc.devRef .tc main_arg10) = V (Proc.devRef .tc main_arg10) :=
  kept V (by decide) (by decide) (by decide) (by decide) (by decide) (by decide) (by decide)
theorem kept_arg11 (V : Valuation τ sig (Elt F)) : after ops V (Proc.devRef .tc main_arg11) = V (Proc.devRef .tc main_arg11) :=
  kept V (by decide) (by decide) (by decide) (by decide) (by decide) (by decide) (by decide)
theorem kept_arg12 (V : Valuation τ sig (Elt F)) : after ops V (Proc.devRef .tc main_arg12) = V (Proc.devRef .tc main_arg12) :=
  kept V (by decide) (by decide) (by decide) (by decide) (by decide) (by decide) (by decide)
theorem kept_arg13 (V : Valuation τ sig (Elt F)) : after ops V (Proc.devRef .tc main_arg13) = V (Proc.devRef .tc main_arg13) :=
  kept V (by decide) (by decide) (by decide) (by decide) (by decide) (by decide) (by decide)
theorem kept_arg14 (V : Valuation τ sig (Elt F)) : after ops V (Proc.devRef .tc main_arg14) = V (Proc.devRef .tc main_arg14) :=
  kept V (by decide) (by decide) (by decide) (by decide) (by decide) (by decide) (by decide)
theorem kept_arg15 (V : Valuation τ sig (Elt F)) : after ops V (Proc.devRef .tc main_arg15) = V (Proc.devRef .tc main_arg15) :=
  kept V (by decide) (by decide) (by decide) (by decide) (by decide) (by decide) (by decide)
theorem kept_arg16 (V : Valuation τ sig (Elt F)) : after ops V (Proc.devRef .tc main_arg16) = V (Proc.devRef .tc main_arg16) :=
  kept V (by decide) (by decide) (by decide) (by decide) (by decide) (by decide) (by decide)
theorem kept_arg17 (V : Valuation τ sig (Elt F)) : after ops V (Proc.devRef .tc main_arg17) = V (Proc.devRef .tc main_arg17) :=
  kept V (by decide) (by decide) (by decide) (by decide) (by decide) (by decide) (by decide)

/-! ## What each stage computes, from arbitrary contents

Each stage's result buffer, after the stage has run from contents `W`, holds the network's corresponding function of what
`W` has at the buffers the stage reads: the stage's operations composed are that function's definition unfolded. -/

section Values

/-- Stage A leaves the input projection at `main_v7`. -/
theorem valA_v7 (W : Valuation τ sig (Elt Ideal)) :
    after (opsA (F := Ideal)) W (Proc.devRef .tc main_v7)
      = Cert.Sage.proj (W (Proc.devRef .tc main_arg0)) (W (Proc.devRef .tc main_arg2)) (W (Proc.devRef .tc main_arg3)) := by
  after_results_simp <;> rfl

/-- Stage A leaves the edges' source rows at `main_v1`. -/
theorem valA_v1 (W : Valuation τ sig (Elt Ideal)) :
    after (opsA (F := Ideal)) W (Proc.devRef .tc main_v1) = Cert.Sage.srcOf (W (Proc.devRef .tc main_arg1)) := by
  after_results_simp <;> rfl

/-- Stage A leaves the edges' destination rows at `main_v3`. -/
theorem valA_v3 (W : Valuation τ sig (Elt Ideal)) :
    after (opsA (F := Ideal)) W (Proc.devRef .tc main_v3) = Cert.Sage.dstOf (W (Proc.devRef .tc main_arg1)) := by
  after_results_simp <;> rfl

/-- Stage B leaves the normalised, rectified `main_v7` at `main_v27`. -/
theorem valB (W : Valuation τ sig (Elt Ideal)) :
    after (opsB (F := Ideal)) W (Proc.devRef .tc main_v27)
      = Cert.Sage.bnRelu (W (Proc.devRef .tc main_v7)) (W (Proc.devRef .tc main_arg4)) (W (Proc.devRef .tc main_arg5)) := by
  after_results_simp <;> rfl

/-- Stage C leaves the first layer of `main_v27` at `main_v52`, once `main_v1` and `main_v3` hold the rows of an edge table. -/
theorem valC (W : Valuation τ sig (Elt Ideal)) (e : Cert.Sage.IArr S2x3200000)
    (h1 : W (Proc.devRef .tc main_v1) = Cert.Sage.srcOf e) (h3 : W (Proc.devRef .tc main_v3) = Cert.Sage.dstOf e) :
    after (opsC (F := Ideal)) W (Proc.devRef .tc main_v52)
      = Cert.Sage.sage (W (Proc.devRef .tc main_v27)) e (W (Proc.devRef .tc main_arg6)) (W (Proc.devRef .tc main_arg7)) (W (Proc.devRef .tc main_arg8)) := by
  after_results_simp
  rw [h1, h3]
  rfl

/-- Stage D leaves the normalised, rectified `main_v52` at `main_v72`. -/
theorem valD (W : Valuation τ sig (Elt Ideal)) :
    after (opsD (F := Ideal)) W (Proc.devRef .tc main_v72)
      = Cert.Sage.bnRelu (W (Proc.devRef .tc main_v52)) (W (Proc.devRef .tc main_arg9)) (W (Proc.devRef .tc main_arg10)) := by
  after_results_simp <;> rfl

/-- Stage E leaves the second layer of `main_v72` at `main_v97`, once `main_v1` and `main_v3` hold the rows of an edge table. -/
theorem valE (W : Valuation τ sig (Elt Ideal)) (e : Cert.Sage.IArr S2x3200000)
    (h1 : W (Proc.devRef .tc main_v1) = Cert.Sage.srcOf e) (h3 : W (Proc.devRef .tc main_v3) = Cert.Sage.dstOf e) :
    after (opsE (F := Ideal)) W (Proc.devRef .tc main_v97)
      = Cert.Sage.sage (W (Proc.devRef .tc main_v72)) e (W (Proc.devRef .tc main_arg11)) (W (Proc.devRef .tc main_arg12)) (W (Proc.devRef .tc main_arg13)) := by
  after_results_simp
  rw [h1, h3]
  rfl

/-- Stage F leaves the normalised, rectified `main_v97` plus `main_v27` at `main_v118`. -/
theorem valF (W : Valuation τ sig (Elt Ideal)) :
    after (opsF (F := Ideal)) W (Proc.devRef .tc main_v118)
      = addf (Cert.Sage.bnRelu (W (Proc.devRef .tc main_v97)) (W (Proc.devRef .tc main_arg14)) (W (Proc.devRef .tc main_arg15))) (W (Proc.devRef .tc main_v27)) := by
  after_results_simp <;> rfl

/-- Stage G leaves the output head of `main_v118` at `main_v122`. -/
theorem valG (W : Valuation τ sig (Elt Ideal)) :
    after (opsG (F := Ideal)) W (Proc.devRef .tc main_v122)
      = Cert.Sage.head (W (Proc.devRef .tc main_v118)) (W (Proc.devRef .tc main_arg16)) (W (Proc.devRef .tc main_arg17)) := by
  after_results_simp <;> rfl

/-! ## The stages chained: each hidden state as a function of the arguments -/

theorem at1_v7 (V : Valuation τ sig (Elt Ideal)) :
    (after opsA V) (Proc.devRef .tc main_v7) = Cert.Sage.proj (V (Proc.devRef .tc main_arg0)) (V (Proc.devRef .tc main_arg2)) (V (Proc.devRef .tc main_arg3)) := valA_v7 V
theorem at1_v1 (V : Valuation τ sig (Elt Ideal)) :
    (after opsA V) (Proc.devRef .tc main_v1) = Cert.Sage.srcOf (V (Proc.devRef .tc main_arg1)) := valA_v1 V
theorem at1_v3 (V : Valuation τ sig (Elt Ideal)) :
    (after opsA V) (Proc.devRef .tc main_v3) = Cert.Sage.dstOf (V (Proc.devRef .tc main_arg1)) := valA_v3 V

theorem at2_v27 (V : Valuation τ sig (Elt Ideal)) :
    (after opsB (after opsA V)) (Proc.devRef .tc main_v27) = (Cert.Sage.hidden0 (V (Proc.devRef .tc main_arg0)) (V (Proc.devRef .tc main_arg2)) (V (Proc.devRef .tc main_arg3)) (V (Proc.devRef .tc main_arg4)) (V (Proc.devRef .tc main_arg5))) := by
  rw [valB, at1_v7, keep1 V (r := main_arg4) (by decide), keep1 V (r := main_arg5) (by decide)]
  rfl
theorem at2_v1 (V : Valuation τ sig (Elt Ideal)) :
    (after opsB (after opsA V)) (Proc.devRef .tc main_v1) = Cert.Sage.srcOf (V (Proc.devRef .tc main_arg1)) := (frameB _ (by decide)).trans (at1_v1 V)
theorem at2_v3 (V : Valuation τ sig (Elt Ideal)) :
    (after opsB (after opsA V)) (Proc.devRef .tc main_v3) = Cert.Sage.dstOf (V (Proc.devRef .tc main_arg1)) := (frameB _ (by decide)).trans (at1_v3 V)

theorem at3_v52 (V : Valuation τ sig (Elt Ideal)) :
    (after opsC (after opsB (after opsA V))) (Proc.devRef .tc main_v52) = (Cert.Sage.sage (Cert.Sage.hidden0 (V (Proc.devRef .tc main_arg0)) (V (Proc.devRef .tc main_arg2)) (V (Proc.devRef .tc main_arg3)) (V (Proc.devRef .tc main_arg4)) (V (Proc.devRef .tc main_arg5))) (V (Proc.devRef .tc main_arg1)) (V (Proc.devRef .tc main_arg6)) (V (Proc.devRef .tc main_arg7)) (V (Proc.devRef .tc main_arg8))) := by
  rw [valC _ (V (Proc.devRef .tc main_arg1)) (at2_v1 V) (at2_v3 V), at2_v27, keep2 V (r := main_arg6) (by decide) (by decide),
    keep2 V (r := main_arg7) (by decide) (by decide), keep2 V (r := main_arg8) (by decide) (by decide)]
theorem at3_v27 (V : Valuation τ sig (Elt Ideal)) :
    (after opsC (after opsB (after opsA V))) (Proc.devRef .tc main_v27) = (Cert.Sage.hidden0 (V (Proc.devRef .tc main_arg0)) (V (Proc.devRef .tc main_arg2)) (V (Proc.devRef .tc main_arg3)) (V (Proc.devRef .tc main_arg4)) (V (Proc.devRef .tc main_arg5))) := (frameC _ (by decide)).trans (at2_v27 V)
theorem at3_v1 (V : Valuation τ sig (Elt Ideal)) :
    (after opsC (after opsB (after opsA V))) (Proc.devRef .tc main_v1) = Cert.Sage.srcOf (V (Proc.devRef .tc main_arg1)) := (frameC _ (by decide)).trans (at2_v1 V)
theorem at3_v3 (V : Valuation τ sig (Elt Ideal)) :
    (after opsC (after opsB (after opsA V))) (Proc.devRef .tc main_v3) = Cert.Sage.dstOf (V (Proc.devRef .tc main_arg1)) := (frameC _ (by decide)).trans (at2_v3 V)

theorem at4_v72 (V : Valuation τ sig (Elt Ideal)) :
    (after opsD (after opsC (after opsB (after opsA V)))) (Proc.devRef .tc main_v72) = (Cert.Sage.hiddenNext (Cert.Sage.hidden0 (V (Proc.devRef .tc main_arg0)) (V (Proc.devRef .tc main_arg2)) (V (Proc.devRef .tc main_arg3)) (V (Proc.devRef .tc main_arg4)) (V (Proc.devRef .tc main_arg5))) (V (Proc.devRef .tc main_arg1)) (V (Proc.devRef .tc main_arg6)) (V (Proc.devRef .tc main_arg7)) (V (Proc.devRef .tc main_arg8)) (V (Proc.devRef .tc main_arg9)) (V (Proc.devRef .tc main_arg10))) := by
  rw [valD, at3_v52, keep3 V (r := main_arg9) (by decide) (by decide) (by decide), keep3 V (r := main_arg10) (by decide) (by decide) (by decide)]
  rfl
theorem at4_v27 (V : Valuation τ sig (Elt Ideal)) :
    (after opsD (after opsC (after opsB (after opsA V)))) (Proc.devRef .tc main_v27) = (Cert.Sage.hidden0 (V (Proc.devRef .tc main_arg0)) (V (Proc.devRef .tc main_arg2)) (V (Proc.devRef .tc main_arg3)) (V (Proc.devRef .tc main_arg4)) (V (Proc.devRef .tc main_arg5))) := (frameD _ (by decide)).trans (at3_v27 V)
theorem at4_v1 (V : Valuation τ sig (Elt Ideal)) :
    (after opsD (after opsC (after opsB (after opsA V)))) (Proc.devRef .tc main_v1) = Cert.Sage.srcOf (V (Proc.devRef .tc main_arg1)) := (frameD _ (by decide)).trans (at3_v1 V)
theorem at4_v3 (V : Valuation τ sig (Elt Ideal)) :
    (after opsD (after opsC (after opsB (after opsA V)))) (Proc.devRef .tc main_v3) = Cert.Sage.dstOf (V (Proc.devRef .tc main_arg1)) := (frameD _ (by decide)).trans (at3_v3 V)

theorem at5_v97 (V : Valuation τ sig (Elt Ideal)) :
    (after opsE (after opsD (after opsC (after opsB (after opsA V))))) (Proc.devRef .tc main_v97) = (Cert.Sage.sage (Cert.Sage.hiddenNext (Cert.Sage.hidden0 (V (Proc.devRef .tc main_arg0)) (V (Proc.devRef .tc main_arg2)) (V (Proc.devRef .tc main_arg3)) (V (Proc.devRef .tc main_arg4)) (V (Proc.devRef .tc main_arg5))) (V (Proc.devRef .tc main_arg1)) (V (Proc.devRef .tc main_arg6)) (V (Proc.devRef .tc main_arg7)) (V (Proc.devRef .tc main_arg8)) (V (Proc.devRef .tc main_arg9)) (V (Proc.devRef .tc main_arg10))) (V (Proc.devRef .tc main_arg1)) (V (Proc.devRef .tc main_arg11)) (V (Proc.devRef .tc main_arg12)) (V (Proc.devRef .tc main_arg13))) := by
  rw [valE _ (V (Proc.devRef .tc main_arg1)) (at4_v1 V) (at4_v3 V), at4_v72, keep4 V (r := main_arg11) (by decide) (by decide) (by decide) (by decide),
    keep4 V (r := main_arg12) (by decide) (by decide) (by decide) (by decide), keep4 V (r := main_arg13) (by decide) (by decide) (by decide) (by decide)]
theorem at5_v27 (V : Valuation τ sig (Elt Ideal)) :
    (after opsE (after opsD (after opsC (after opsB (after opsA V))))) (Proc.devRef .tc main_v27) = (Cert.Sage.hidden0 (V (Proc.devRef .tc main_arg0)) (V (Proc.devRef .tc main_arg2)) (V (Proc.devRef .tc main_arg3)) (V (Proc.devRef .tc main_arg4)) (V (Proc.devRef .tc main_arg5))) := (frameE _ (by decide)).trans (at4_v27 V)

theorem at6_v118 (V : Valuation τ sig (Elt Ideal)) :
    (after opsF (after opsE (after opsD (after opsC (after opsB (after opsA V)))))) (Proc.devRef .tc main_v118) = addf (Cert.Sage.hiddenNext (Cert.Sage.hiddenNext (Cert.Sage.hidden0 (V (Proc.devRef .tc main_arg0)) (V (Proc.devRef .tc main_arg2)) (V (Proc.devRef .tc main_arg3)) (V (Proc.devRef .tc main_arg4)) (V (Proc.devRef .tc main_arg5))) (V (Proc.devRef .tc main_arg1)) (V (Proc.devRef .tc main_arg6)) (V (Proc.devRef .tc main_arg7)) (V (Proc.devRef .tc main_arg8)) (V (Proc.devRef .tc main_arg9)) (V (Proc.devRef .tc main_arg10))) (V (Proc.devRef .tc main_arg1)) (V (Proc.devRef .tc main_arg11)) (V (Proc.devRef .tc main_arg12)) (V (Proc.devRef .tc main_arg13)) (V (Proc.devRef .tc main_arg14)) (V (Proc.devRef .tc main_arg15))) (Cert.Sage.hidden0 (V (Proc.devRef .tc main_arg0)) (V (Proc.devRef .tc main_arg2)) (V (Proc.devRef .tc main_arg3)) (V (Proc.devRef .tc main_arg4)) (V (Proc.devRef .tc main_arg5))) := by
  rw [valF, at5_v97, at5_v27, keep5 V (r := main_arg14) (by decide) (by decide) (by decide) (by decide) (by decide), keep5 V (r := main_arg15) (by decide) (by decide) (by decide) (by decide) (by decide)]
  rfl

/-- The result buffer after the whole program holds the network of the eighteen arguments. -/
theorem value (V : Valuation τ sig (Elt Ideal)) :
    after (ops (F := Ideal)) V (Proc.devRef .tc main_v122)
      = Cert.Sage.forward (V (Proc.devRef .tc main_arg0))
          (V (Proc.devRef .tc main_arg1))
          (V (Proc.devRef .tc main_arg2))
          (V (Proc.devRef .tc main_arg3))
          (V (Proc.devRef .tc main_arg4))
          (V (Proc.devRef .tc main_arg5))
          (V (Proc.devRef .tc main_arg6))
          (V (Proc.devRef .tc main_arg7))
          (V (Proc.devRef .tc main_arg8))
          (V (Proc.devRef .tc main_arg9))
          (V (Proc.devRef .tc main_arg10))
          (V (Proc.devRef .tc main_arg11))
          (V (Proc.devRef .tc main_arg12))
          (V (Proc.devRef .tc main_arg13))
          (V (Proc.devRef .tc main_arg14))
          (V (Proc.devRef .tc main_arg15))
          (V (Proc.devRef .tc main_arg16))
          (V (Proc.devRef .tc main_arg17)) := by
  rw [after_ops, valG, at6_v118, keep6 V (r := main_arg16) (by decide) (by decide) (by decide) (by decide) (by decide) (by decide), keep6 V (r := main_arg17) (by decide) (by decide) (by decide) (by decide) (by decide) (by decide)]
  rfl

/-- On the device, at the extended reals, from any memory with zero counters: every weakly fair execution of @main
    terminates with the result buffer at the network of the arguments' launch contents, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v122)
        = Cert.Sage.forward (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
            (m ((c.tc : Thread nD τ).loc main_arg12))
            (m ((c.tc : Thread nD τ).loc main_arg13))
            (m ((c.tc : Thread nD τ).loc main_arg14))
            (m ((c.tc : Thread nD τ).loc main_arg15))
            (m ((c.tc : Thread nD τ).loc main_arg16))
            (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨(h c main_v122).trans (value _),
      (h c main_arg0).trans (kept_arg0 _),
      (h c main_arg1).trans (kept_arg1 _),
      (h c main_arg2).trans (kept_arg2 _),
      (h c main_arg3).trans (kept_arg3 _),
      (h c main_arg4).trans (kept_arg4 _),
      (h c main_arg5).trans (kept_arg5 _),
      (h c main_arg6).trans (kept_arg6 _),
      (h c main_arg7).trans (kept_arg7 _),
      (h c main_arg8).trans (kept_arg8 _),
      (h c main_arg9).trans (kept_arg9 _),
      (h c main_arg10).trans (kept_arg10 _),
      (h c main_arg11).trans (kept_arg11 _),
      (h c main_arg12).trans (kept_arg12 _),
      (h c main_arg13).trans (kept_arg13 _),
      (h c main_arg14).trans (kept_arg14 _),
      (h c main_arg15).trans (kept_arg15 _),
      (h c main_arg16).trans (kept_arg16 _),
      (h c main_arg17).trans (kept_arg17 _)⟩)
    (run_all m ρ)

end Values

end Cert.ReferenceIdeal.RefRun

end
-- ==== Proof.Claims.lean ====
/-
  The certificate's five claims, the kernel's value taken as a hypothesis.

  Both programs run to the end with their eighteen arguments unchanged: the kernel and its idealization by their
  generated frames, the reference by its run as a straight line of host operations (Proof/RefRun.lean). The
  idealization rewrote nothing, so it preserves the kernel trivially. For the algebraic claim, the reference's result
  is the network `Cert.Sage.forward` of its arguments (Proof/RefRun.lean) and the idealized kernel's result is the
  last boundary's contents at the result buffer (Proof/KRun.lean): given that those contents are the same network of
  the kernel's arguments (`hval`), and arguments that agree, both results are one array, the network of the
  kernel's arguments.
-/
import proofs.«168059_j26053271617569_1_alg».proof.Defs
import proofs.«168059_j26053271617569_1_alg».proof.Proof.Gen.Kernel.Frame
import proofs.«168059_j26053271617569_1_alg».proof.Proof.Gen.KernelIdeal.Frame
import proofs.«168059_j26053271617569_1_alg».proof.Proof.Gen.ReferenceIdeal
import proofs.«168059_j26053271617569_1_alg».proof.Proof.Gen.Pre_finite_inputs
import proofs.«168059_j26053271617569_1_alg».proof.Proof.KRun
import proofs.«168059_j26053271617569_1_alg».proof.Proof.RefRun
import proofs.«168059_j26053271617569_1_alg».proof.Proof.Spec

noncomputable section

namespace Cert.Proof.Claims

open Idealize.ShloMosaic Idealize.SL.Sem

/-- The kernel runs and leaves its arguments as launched. -/
theorem frame_Kernel : Cert.frame_Kernel := fun m ρ _ => Cert.Kernel.Gen.frame m ρ

/-- The idealized kernel runs and leaves its arguments as launched. -/
theorem frame_KernelIdeal : Cert.frame_KernelIdeal := fun m ρ _ => Cert.KernelIdeal.Gen.frame m ρ

/-- The reference runs and leaves its arguments as launched: its run, the result's conjunct dropped. -/
theorem frame_ReferenceIdeal : Cert.frame_ReferenceIdeal := fun m ρ _ =>
  (θ_run Cert.ReferenceIdeal.defs _ _).mono (fun _ h c => (h c).2) (Cert.ReferenceIdeal.RefRun.run m ρ)

/-- The idealization rewrote no operation. -/
theorem preserves_Kernel_KernelIdeal : Cert.preserves_Kernel_KernelIdeal := trivial

/-- If the idealized kernel's last boundary holds, at the result buffer, the network of the kernel's arguments, then
    from memories that agree on the arguments both programs end with that one array as their result, and with their
    arguments unchanged. -/
theorem algebraic_of
    (hval : ∀ (m : (ℓ : Loc Cert.KernelIdeal.nD Cert.KernelIdeal.τ Cert.KernelIdeal.sig) → Buf (Elt Ideal) ℓ)
      (ρ : Dev Cert.KernelIdeal.nD → PrngReg) (c : Dev Cert.KernelIdeal.nD),
      Cert.KernelIdeal.Gen.W20 m ρ c (Proc.devRef .tc Cert.KernelIdeal.main_v73)
        = Cert.Sage.forward (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4))
            (m ((c.tc : Thread Cert.KernelIdeal.nD Cert.KernelIdeal.τ).loc Cert.KernelIdeal.main_arg5))
            (m ((c.tc : Thread Cert.KernelIdeal.nD Cert.KernelIdeal.τ).loc Cert.KernelIdeal.main_arg6))
            (m ((c.tc : Thread Cert.KernelIdeal.nD Cert.KernelIdeal.τ).loc Cert.KernelIdeal.main_arg7))
            (m ((c.tc : Thread Cert.KernelIdeal.nD Cert.KernelIdeal.τ).loc Cert.KernelIdeal.main_arg8))
            (m ((c.tc : Thread Cert.KernelIdeal.nD Cert.KernelIdeal.τ).loc Cert.KernelIdeal.main_arg9))
            (m ((c.tc : Thread Cert.KernelIdeal.nD Cert.KernelIdeal.τ).loc Cert.KernelIdeal.main_arg10))
            (m ((c.tc : Thread Cert.KernelIdeal.nD Cert.KernelIdeal.τ).loc Cert.KernelIdeal.main_arg11))
            (m ((c.tc : Thread Cert.KernelIdeal.nD Cert.KernelIdeal.τ).loc Cert.KernelIdeal.main_arg12))
            (m ((c.tc : Thread Cert.KernelIdeal.nD Cert.KernelIdeal.τ).loc Cert.KernelIdeal.main_arg13))
            (m ((c.tc : Thread Cert.KernelIdeal.nD Cert.KernelIdeal.τ).loc Cert.KernelIdeal.main_arg14))
            (m ((c.tc : Thread Cert.KernelIdeal.nD Cert.KernelIdeal.τ).loc Cert.KernelIdeal.main_arg15))
            (m ((c.tc : Thread Cert.KernelIdeal.nD Cert.KernelIdeal.τ).loc Cert.KernelIdeal.main_arg16))
            (m ((c.tc : Thread Cert.KernelIdeal.nD Cert.KernelIdeal.τ).loc Cert.KernelIdeal.main_arg17))) :
    Cert.algebraic_KernelIdeal_ReferenceIdeal := by
  intro m ρ m' ρ' _ hagree
  refine ⟨fun c => (Cert.Sage.forward (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17)) :
      Buf (Elt Ideal) ((c.tc : Thread Cert.KernelIdeal.nD Cert.KernelIdeal.τ).loc Cert.KernelIdeal.main_v73)), ?_, ?_⟩
  · exact (θ_run Cert.KernelIdeal.defs _ _).mono (fun _ h c => ⟨(h c).1.trans (hval m ρ c), (h c).2⟩)
      (Cert.KernelIdeal.KRun.run m ρ)
  · refine (θ_run Cert.ReferenceIdeal.defs _ _).mono (fun _ h c => ⟨(h c).1.trans ?_, (h c).2⟩)
      (Cert.ReferenceIdeal.RefRun.run m' ρ')
    obtain ⟨h0, h1, h2, h3, h4, h5, h6, h7, h8, h9, h10, h11, h12, h13, h14, h15, h16, h17⟩ := hagree c
    rw [h0, h1, h2, h3, h4, h5, h6, h7, h8, h9, h10, h11, h12, h13, h14, h15, h16, h17]

/-- Everything the certificate claims, given the kernel's value. -/
theorem claim_of
    (hval : ∀ (m : (ℓ : Loc Cert.KernelIdeal.nD Cert.KernelIdeal.τ Cert.KernelIdeal.sig) → Buf (Elt Ideal) ℓ)
      (ρ : Dev Cert.KernelIdeal.nD → PrngReg) (c : Dev Cert.KernelIdeal.nD),
      Cert.KernelIdeal.Gen.W20 m ρ c (Proc.devRef .tc Cert.KernelIdeal.main_v73)
        = Cert.Sage.forward (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4))
            (m ((c.tc : Thread Cert.KernelIdeal.nD Cert.KernelIdeal.τ).loc Cert.KernelIdeal.main_arg5))
            (m ((c.tc : Thread Cert.KernelIdeal.nD Cert.KernelIdeal.τ).loc Cert.KernelIdeal.main_arg6))
            (m ((c.tc : Thread Cert.KernelIdeal.nD Cert.KernelIdeal.τ).loc Cert.KernelIdeal.main_arg7))
            (m ((c.tc : Thread Cert.KernelIdeal.nD Cert.KernelIdeal.τ).loc Cert.KernelIdeal.main_arg8))
            (m ((c.tc : Thread Cert.KernelIdeal.nD Cert.KernelIdeal.τ).loc Cert.KernelIdeal.main_arg9))
            (m ((c.tc : Thread Cert.KernelIdeal.nD Cert.KernelIdeal.τ).loc Cert.KernelIdeal.main_arg10))
            (m ((c.tc : Thread Cert.KernelIdeal.nD Cert.KernelIdeal.τ).loc Cert.KernelIdeal.main_arg11))
            (m ((c.tc : Thread Cert.KernelIdeal.nD Cert.KernelIdeal.τ).loc Cert.KernelIdeal.main_arg12))
            (m ((c.tc : Thread Cert.KernelIdeal.nD Cert.KernelIdeal.τ).loc Cert.KernelIdeal.main_arg13))
            (m ((c.tc : Thread Cert.KernelIdeal.nD Cert.KernelIdeal.τ).loc Cert.KernelIdeal.main_arg14))
            (m ((c.tc : Thread Cert.KernelIdeal.nD Cert.KernelIdeal.τ).loc Cert.KernelIdeal.main_arg15))
            (m ((c.tc : Thread Cert.KernelIdeal.nD Cert.KernelIdeal.τ).loc Cert.KernelIdeal.main_arg16))
            (m ((c.tc : Thread Cert.KernelIdeal.nD Cert.KernelIdeal.τ).loc Cert.KernelIdeal.main_arg17))) :
    Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, preserves_Kernel_KernelIdeal, algebraic_of hval⟩

end Cert.Proof.Claims

end
-- ==== Proof.Glue.lean ====
/-
  What the host stretches between the grid kernels leave in the buffers.

  The program is seven grid kernels among thirteen stretches of host operations.  Each stretch is a straight line of
  array operations: it rewrites the buffers it writes, one after the other, and leaves every other buffer as it was.
  For an arbitrary assignment of contents to the buffers this module reads off, stretch by stretch, what the buffers
  a later kernel reads hold afterwards — the edge table's two rows, the column means and variances of the array
  about to be normalised, the per-node edge sums scaled by the reciprocal in-degree, the parameter vectors as
  one-row matrices — each as the named function of the contents the stretch started from, and states that a buffer
  outside the list of those a stretch writes is unchanged by it.
-/
import proofs.«168059_j26053271617569_1_alg».proof.Proof.Gen.KernelIdeal.Launch
import proofs.«168059_j26053271617569_1_alg».proof.Proof.Gen.ReferenceIdeal
import proofs.«168059_j26053271617569_1_alg».proof.Proof.Spec
import Idealize.ShloMosaic.Lib.StableHlo.Run

set_option maxRecDepth 16384

noncomputable section

namespace Cert.KernelIdeal.Glue

open Idealize.ShloMosaic Idealize.ShloMosaic.TcCoe
open Idealize.ShloMosaic.StableHlo (after)
open Cert.KernelIdeal Cert.KernelIdeal.Gen

local prefix:max "↟" => Proc.devRef (τ := τ) Proc.tc

/-- Each written buffer lies in the listed ones. -/
theorem single_sub {Wl : List (Ref sig .tc)} {y : Ref sig .tc} (h : y ∈ Wl) :
    ({Proc.devRef (τ := τ) Proc.tc y} : Finset (DevRef τ sig)) ⊆ (Wl.map (Proc.devRef (τ := τ) Proc.tc)).toFinset :=
  Finset.singleton_subset_iff.2 (List.mem_toFinset.2 (List.mem_map_of_mem h))

/-! ## The arrays the statements name -/

/-- A vector of 64 numbers as a one-row matrix. -/
def row64 (v : FVec Ideal S64 .f32) : FVec Ideal S1x64 .f32 := shapeCast S1x64 v shapeCasts_S64_S1x64
/-- A vector of 2 numbers as a one-row matrix. -/
def row2 (v : FVec Ideal S2 .f32) : FVec Ideal S1x2 .f32 := shapeCast S1x2 v shapeCasts_S2_S1x2
/-- The [100000, 64] matrix of zeros. -/
def zeros : FVec Ideal S100000x64 .f32 :=
  broadcastInDim S100000x64 ![] bcast_S_S100000x64 (constant (F := Ideal) S_ .f32 0x00000000#32)
/-- The vector of 100000 ones. -/
def ones : FVec Ideal S100000 .f32 :=
  broadcastInDim S100000 ![] bcast_S_S100000 (constant (F := Ideal) S_ .f32 0x3F800000#32)

/-! ## The buffers each stretch writes, and that it leaves the others alone -/

abbrev written_hostOps0 : List (Ref sig .tc) :=
  [main_v0, main_v1, main_v2, main_v3, main_v4]
theorem keep_hostOps0 (W : Valuation τ sig (Elt Ideal)) (r : Ref sig .tc) (hr : r ∉ written_hostOps0) :
    after hostOps0 W ↟r = W ↟r :=
  StableHlo.after_of_writes_sub hostOps0 W (by
    simp only [hostOps0, List.Forall, StableHlo.nullary_writes, StableHlo.unary_writes, StableHlo.binary_writes,
      StableHlo.ternary_writes, StableHlo.reshape_writes]
    repeat' apply And.intro
    all_goals exact single_sub (by decide)) hr

abbrev written_hostOps1 : List (Ref sig .tc) :=
  [main_cst, main_v6, main_cst_0, main_v7, main_cst_1, main_v8, main_v9, main_c]
theorem keep_hostOps1 (W : Valuation τ sig (Elt Ideal)) (r : Ref sig .tc) (hr : r ∉ written_hostOps1) :
    after hostOps1 W ↟r = W ↟r :=
  StableHlo.after_of_writes_sub hostOps1 W (by
    simp only [hostOps1, List.Forall, StableHlo.nullary_writes, StableHlo.unary_writes, StableHlo.binary_writes,
      StableHlo.ternary_writes, StableHlo.reshape_writes]
    repeat' apply And.intro
    all_goals exact single_sub (by decide)) hr

abbrev written_hostOps1_1 : List (Ref sig .tc) :=
  [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v10]
theorem keep_hostOps1_1 (W : Valuation τ sig (Elt Ideal)) (r : Ref sig .tc) (hr : r ∉ written_hostOps1_1) :
    after hostOps1_1 W ↟r = W ↟r :=
  StableHlo.after_of_writes_sub hostOps1_1 W (by
    simp only [hostOps1_1, List.Forall, StableHlo.nullary_writes, StableHlo.unary_writes, StableHlo.binary_writes,
      StableHlo.ternary_writes, StableHlo.reshape_writes]
    repeat' apply And.intro
    all_goals exact single_sub (by decide)) hr

abbrev written_hostOps1_2 : List (Ref sig .tc) :=
  [main_v11, main_v12, main_v13, main_v14]
theorem keep_hostOps1_2 (W : Valuation τ sig (Elt Ideal)) (r : Ref sig .tc) (hr : r ∉ written_hostOps1_2) :
    after hostOps1_2 W ↟r = W ↟r :=
  StableHlo.after_of_writes_sub hostOps1_2 W (by
    simp only [hostOps1_2, List.Forall, StableHlo.nullary_writes, StableHlo.unary_writes, StableHlo.binary_writes,
      StableHlo.ternary_writes, StableHlo.reshape_writes]
    repeat' apply And.intro
    all_goals exact single_sub (by decide)) hr

abbrev written_hostOps2 : List (Ref sig .tc) :=
  [main_cst_2, main_v16, main_cst_3, main_v17, main_v18, main_v19, main_cst_4, main_v20, main_v21, main_cst_5, main_v22, main_v23, main_c_6, main_v24, main_v25, main_c_7, main_v26, main_v27, main_v28, main_v29, main_v30, main_cst_8, main_v31, main_v32, main_v33, main_v34, main_v35, main_v36, main_v37]
theorem keep_hostOps2 (W : Valuation τ sig (Elt Ideal)) (r : Ref sig .tc) (hr : r ∉ written_hostOps2) :
    after hostOps2 W ↟r = W ↟r :=
  StableHlo.after_of_writes_sub hostOps2 W (by
    simp only [hostOps2, List.Forall, StableHlo.nullary_writes, StableHlo.unary_writes, StableHlo.binary_writes,
      StableHlo.ternary_writes, StableHlo.reshape_writes]
    repeat' apply And.intro
    all_goals exact single_sub (by decide)) hr

abbrev written_hostOps3 : List (Ref sig .tc) :=
  [main_cst_9, main_v39, main_cst_10, main_v40, main_v41, main_c_11]
theorem keep_hostOps3 (W : Valuation τ sig (Elt Ideal)) (r : Ref sig .tc) (hr : r ∉ written_hostOps3) :
    after hostOps3 W ↟r = W ↟r :=
  StableHlo.after_of_writes_sub hostOps3 W (by
    simp only [hostOps3, List.Forall, StableHlo.nullary_writes, StableHlo.unary_writes, StableHlo.binary_writes,
      StableHlo.ternary_writes, StableHlo.reshape_writes]
    repeat' apply And.intro
    all_goals exact single_sub (by decide)) hr

abbrev written_hostOps3_1 : List (Ref sig .tc) :=
  [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v42]
theorem keep_hostOps3_1 (W : Valuation τ sig (Elt Ideal)) (r : Ref sig .tc) (hr : r ∉ written_hostOps3_1) :
    after hostOps3_1 W ↟r = W ↟r :=
  StableHlo.after_of_writes_sub hostOps3_1 W (by
    simp only [hostOps3_1, List.Forall, StableHlo.nullary_writes, StableHlo.unary_writes, StableHlo.binary_writes,
      StableHlo.ternary_writes, StableHlo.reshape_writes]
    repeat' apply And.intro
    all_goals exact single_sub (by decide)) hr

abbrev written_hostOps3_2 : List (Ref sig .tc) :=
  [main_v43, main_v44, main_v45, main_v46]
theorem keep_hostOps3_2 (W : Valuation τ sig (Elt Ideal)) (r : Ref sig .tc) (hr : r ∉ written_hostOps3_2) :
    after hostOps3_2 W ↟r = W ↟r :=
  StableHlo.after_of_writes_sub hostOps3_2 W (by
    simp only [hostOps3_2, List.Forall, StableHlo.nullary_writes, StableHlo.unary_writes, StableHlo.binary_writes,
      StableHlo.ternary_writes, StableHlo.reshape_writes]
    repeat' apply And.intro
    all_goals exact single_sub (by decide)) hr

abbrev written_hostOps4 : List (Ref sig .tc) :=
  [main_c_12, main_v48, main_v49, main_c_13, main_v50, main_v51, main_v52, main_v53, main_v54, main_cst_14, main_v55, main_v56, main_v57, main_v58, main_v59, main_v60, main_v61]
theorem keep_hostOps4 (W : Valuation τ sig (Elt Ideal)) (r : Ref sig .tc) (hr : r ∉ written_hostOps4) :
    after hostOps4 W ↟r = W ↟r :=
  StableHlo.after_of_writes_sub hostOps4 W (by
    simp only [hostOps4, List.Forall, StableHlo.nullary_writes, StableHlo.unary_writes, StableHlo.binary_writes,
      StableHlo.ternary_writes, StableHlo.reshape_writes]
    repeat' apply And.intro
    all_goals exact single_sub (by decide)) hr

abbrev written_hostOps5 : List (Ref sig .tc) :=
  [main_cst_15, main_v63, main_cst_16, main_v64, main_v65, main_c_17]
theorem keep_hostOps5 (W : Valuation τ sig (Elt Ideal)) (r : Ref sig .tc) (hr : r ∉ written_hostOps5) :
    after hostOps5 W ↟r = W ↟r :=
  StableHlo.after_of_writes_sub hostOps5 W (by
    simp only [hostOps5, List.Forall, StableHlo.nullary_writes, StableHlo.unary_writes, StableHlo.binary_writes,
      StableHlo.ternary_writes, StableHlo.reshape_writes]
    repeat' apply And.intro
    all_goals exact single_sub (by decide)) hr

abbrev written_hostOps5_1 : List (Ref sig .tc) :=
  [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v66]
theorem keep_hostOps5_1 (W : Valuation τ sig (Elt Ideal)) (r : Ref sig .tc) (hr : r ∉ written_hostOps5_1) :
    after hostOps5_1 W ↟r = W ↟r :=
  StableHlo.after_of_writes_sub hostOps5_1 W (by
    simp only [hostOps5_1, List.Forall, StableHlo.nullary_writes, StableHlo.unary_writes, StableHlo.binary_writes,
      StableHlo.ternary_writes, StableHlo.reshape_writes]
    repeat' apply And.intro
    all_goals exact single_sub (by decide)) hr

abbrev written_hostOps5_2 : List (Ref sig .tc) :=
  [main_v67, main_v68, main_v69, main_v70]
theorem keep_hostOps5_2 (W : Valuation τ sig (Elt Ideal)) (r : Ref sig .tc) (hr : r ∉ written_hostOps5_2) :
    after hostOps5_2 W ↟r = W ↟r :=
  StableHlo.after_of_writes_sub hostOps5_2 W (by
    simp only [hostOps5_2, List.Forall, StableHlo.nullary_writes, StableHlo.unary_writes, StableHlo.binary_writes,
      StableHlo.ternary_writes, StableHlo.reshape_writes]
    repeat' apply And.intro
    all_goals exact single_sub (by decide)) hr

abbrev written_hostOps6 : List (Ref sig .tc) :=
  [main_v72]
theorem keep_hostOps6 (W : Valuation τ sig (Elt Ideal)) (r : Ref sig .tc) (hr : r ∉ written_hostOps6) :
    after hostOps6 W ↟r = W ↟r :=
  StableHlo.after_of_writes_sub hostOps6 W (by
    simp only [hostOps6, List.Forall, StableHlo.nullary_writes, StableHlo.unary_writes, StableHlo.binary_writes,
      StableHlo.ternary_writes, StableHlo.reshape_writes]
    repeat' apply And.intro
    all_goals exact single_sub (by decide)) hr

theorem keep_G1 (W : Valuation τ sig (Elt Ideal)) (r : Ref sig .tc)
    (hr : r ∉ written_hostOps1 ++ written_hostOps1_1 ++ written_hostOps1_2) :
    after hostOps1_2 (after hostOps1_1 (after hostOps1 W)) ↟r = W ↟r := by
  rw [keep_hostOps1_2 _ r (fun h => hr (List.mem_append_right _ h)),
    keep_hostOps1_1 _ r (fun h => hr (List.mem_append_left _ (List.mem_append_right _ h))),
    keep_hostOps1 _ r (fun h => hr (List.mem_append_left _ (List.mem_append_left _ h)))]

theorem keep_G3 (W : Valuation τ sig (Elt Ideal)) (r : Ref sig .tc)
    (hr : r ∉ written_hostOps3 ++ written_hostOps3_1 ++ written_hostOps3_2) :
    after hostOps3_2 (after hostOps3_1 (after hostOps3 W)) ↟r = W ↟r := by
  rw [keep_hostOps3_2 _ r (fun h => hr (List.mem_append_right _ h)),
    keep_hostOps3_1 _ r (fun h => hr (List.mem_append_left _ (List.mem_append_right _ h))),
    keep_hostOps3 _ r (fun h => hr (List.mem_append_left _ (List.mem_append_left _ h)))]

theorem keep_G5 (W : Valuation τ sig (Elt Ideal)) (r : Ref sig .tc)
    (hr : r ∉ written_hostOps5 ++ written_hostOps5_1 ++ written_hostOps5_2) :
    after hostOps5_2 (after hostOps5_1 (after hostOps5 W)) ↟r = W ↟r := by
  rw [keep_hostOps5_2 _ r (fun h => hr (List.mem_append_right _ h)),
    keep_hostOps5_1 _ r (fun h => hr (List.mem_append_left _ (List.mem_append_right _ h))),
    keep_hostOps5 _ r (fun h => hr (List.mem_append_left _ (List.mem_append_left _ h)))]

/-! ## What each stretch computes -/

/-! ### The first stretch: the edge table's rows and the first bias -/

/-- The edges' source rows. -/
theorem G0_src (W : Valuation τ sig (Elt Ideal)) :
    after hostOps0 W ↟main_v1 = Cert.Sage.srcOf (W ↟main_arg1) := by
  after_results; rfl

/-- The edges' destination rows. -/
theorem G0_dst (W : Valuation τ sig (Elt Ideal)) :
    after hostOps0 W ↟main_v3 = Cert.Sage.dstOf (W ↟main_arg1) := by
  after_results; rfl

/-- The projection's bias, as one row. -/
theorem G0_bias (W : Valuation τ sig (Elt Ideal)) :
    after hostOps0 W ↟main_v4 = row64 (W ↟main_arg3) := by
  after_results; rfl

/-! ### The stretches before kernel 1: the column statistics of the array the kernel normalises -/

/-- The accumulator the next kernel adds into starts as zeros. -/
theorem G1_zeros (W : Valuation τ sig (Elt Ideal)) :
    after hostOps1_2 (after hostOps1_1 (after hostOps1 W)) ↟main_v6 = zeros := by
  after_results_simp; rfl

/-- The scale vector, as one row. -/
theorem G1_scale (W : Valuation τ sig (Elt Ideal)) :
    after hostOps1_2 (after hostOps1_1 (after hostOps1 W)) ↟main_v11 = row64 (W ↟main_arg4) := by
  after_results_simp; rfl

/-- The shift vector, as one row. -/
theorem G1_shift (W : Valuation τ sig (Elt Ideal)) :
    after hostOps1_2 (after hostOps1_1 (after hostOps1 W)) ↟main_v12 = row64 (W ↟main_arg5) := by
  after_results_simp; rfl

/-- The column means, as one row. -/
theorem G1_mean (W : Valuation τ sig (Elt Ideal)) :
    after hostOps1_2 (after hostOps1_1 (after hostOps1 W)) ↟main_v13 = row64 (Cert.Sage.colMean (W ↟main_v5)) := by
  after_results_simp; rfl

/-- The column variances, as one row. -/
theorem G1_var (W : Valuation τ sig (Elt Ideal)) :
    after hostOps1_2 (after hostOps1_1 (after hostOps1 W)) ↟main_v14 = row64 (Cert.Sage.colVar (W ↟main_v5)) := by
  after_results_simp; rfl

/-! ### The stretches before kernel 3: the column statistics of the array the kernel normalises -/

/-- The scale vector, as one row. -/
theorem G3_scale (W : Valuation τ sig (Elt Ideal)) :
    after hostOps3_2 (after hostOps3_1 (after hostOps3 W)) ↟main_v43 = row64 (W ↟main_arg9) := by
  after_results_simp; rfl

/-- The shift vector, as one row. -/
theorem G3_shift (W : Valuation τ sig (Elt Ideal)) :
    after hostOps3_2 (after hostOps3_1 (after hostOps3 W)) ↟main_v44 = row64 (W ↟main_arg10) := by
  after_results_simp; rfl

/-- The column means, as one row. -/
theorem G3_mean (W : Valuation τ sig (Elt Ideal)) :
    after hostOps3_2 (after hostOps3_1 (after hostOps3 W)) ↟main_v45 = row64 (Cert.Sage.colMean (W ↟main_v38)) := by
  after_results_simp; rfl

/-- The column variances, as one row. -/
theorem G3_var (W : Valuation τ sig (Elt Ideal)) :
    after hostOps3_2 (after hostOps3_1 (after hostOps3 W)) ↟main_v46 = row64 (Cert.Sage.colVar (W ↟main_v38)) := by
  after_results_simp; rfl

/-! ### The stretches before kernel 5: the column statistics of the array the kernel normalises -/

/-- The scale vector, as one row. -/
theorem G5_scale (W : Valuation τ sig (Elt Ideal)) :
    after hostOps5_2 (after hostOps5_1 (after hostOps5 W)) ↟main_v67 = row64 (W ↟main_arg14) := by
  after_results_simp; rfl

/-- The shift vector, as one row. -/
theorem G5_shift (W : Valuation τ sig (Elt Ideal)) :
    after hostOps5_2 (after hostOps5_1 (after hostOps5 W)) ↟main_v68 = row64 (W ↟main_arg15) := by
  after_results_simp; rfl

/-- The column means, as one row. -/
theorem G5_mean (W : Valuation τ sig (Elt Ideal)) :
    after hostOps5_2 (after hostOps5_1 (after hostOps5 W)) ↟main_v69 = row64 (Cert.Sage.colMean (W ↟main_v62)) := by
  after_results_simp; rfl

/-- The column variances, as one row. -/
theorem G5_var (W : Valuation τ sig (Elt Ideal)) :
    after hostOps5_2 (after hostOps5_1 (after hostOps5 W)) ↟main_v70 = row64 (Cert.Sage.colVar (W ↟main_v62)) := by
  after_results_simp; rfl

/-! ### The stretch of the first aggregation: in-degrees, edge sums, the layer's bias -/

/-- The reciprocal of every node's in-degree (at least one). -/
theorem G2_recip (W : Valuation τ sig (Elt Ideal)) (e : Cert.Sage.IArr Cert.ReferenceIdeal.S2x3200000)
    (h1 : W ↟main_v1 = Cert.Sage.srcOf e) (h3 : W ↟main_v3 = Cert.Sage.dstOf e) :
    after hostOps2 W ↟main_v23 = Host.divf ones (Cert.Sage.degree e) := by
  after_results_simp; rw [h3]; rfl

/-- Every node's sum over its incoming edges of the source rows, times the reciprocal in-degree along the row. -/
theorem G2_agg (W : Valuation τ sig (Elt Ideal)) (e : Cert.Sage.IArr Cert.ReferenceIdeal.S2x3200000)
    (h1 : W ↟main_v1 = Cert.Sage.srcOf e) (h3 : W ↟main_v3 = Cert.Sage.dstOf e) :
    after hostOps2 W ↟main_v36
      = mulf (Cert.Sage.edgeSum (W ↟main_v15) e) (Cert.Sage.alongRows (Host.divf ones (Cert.Sage.degree e))) := by
  after_results_simp; rw [h1, h3]; rfl

/-- The layer's bias, as one row. -/
theorem G2_bias (W : Valuation τ sig (Elt Ideal)) :
    after hostOps2 W ↟main_v37 = row64 (W ↟main_arg7) := by
  after_results_simp; rfl

/-! ### The stretch of the second aggregation -/

/-- Every node's edge sum of the source rows, times the reciprocal in-degree computed before. -/
theorem G4_agg (W : Valuation τ sig (Elt Ideal)) (e : Cert.Sage.IArr Cert.ReferenceIdeal.S2x3200000)
    (d : Cert.Sage.Arr Cert.ReferenceIdeal.S100000)
    (h1 : W ↟main_v1 = Cert.Sage.srcOf e) (h3 : W ↟main_v3 = Cert.Sage.dstOf e) (hd : W ↟main_v23 = d) :
    after hostOps4 W ↟main_v60 = mulf (Cert.Sage.edgeSum (W ↟main_v47) e) (Cert.Sage.alongRows d) := by
  after_results_simp; rw [h1, h3, hd]; rfl

/-- The layer's bias, as one row. -/
theorem G4_bias (W : Valuation τ sig (Elt Ideal)) :
    after hostOps4 W ↟main_v61 = row64 (W ↟main_arg12) := by
  after_results_simp; rfl

/-! ### The last stretch -/

/-- The output head's bias, as one row. -/
theorem G6_bias (W : Valuation τ sig (Elt Ideal)) :
    after hostOps6 W ↟main_v72 = row2 (W ↟main_arg17) := by
  after_results; rfl

end Cert.KernelIdeal.Glue

end
-- ==== Proof.LibRowOps.lean ====
/-
  Rows of a matrix on the extended reals: a plain matrix product read at an entry, and a row's maximum.

  • A matrix product `[a, K] × [K, b]` whose dimension numbers contract the one shared axis reads, at the entry
    `(r, q)`, as the sum over `k : Fin K` of `lhs (r, k) · rhs (k, q)` — for the kernel's product into a zero
    accumulator and for the host's product alike.  The dimension numbers enter only through four coordinate facts
    (which operand coordinate is the output's, which is the contraction's), so the lemma serves any record.
  • The maximum over the lanes of an `[a, b]` matrix, read at row `p`, is the fold of `max` over that row's entries
    from the accumulator's value — for the kernel's lane reduction and for the host's one-axis reduction alike.
-/
import Idealize.ShloMosaic.Lib.Pipeline.Value
import Idealize.ShloMosaic.Lib.ValueIdx
import Idealize.ShloMosaic.PureOps.Ideal.Laws

namespace Cert.RowOps

open Idealize.ShloMosaic Idealize.ShloMosaic.ValueIdx
open scoped BigOperators

/-- The contraction's sum re-indexed by the one contracted coordinate, for operands read at indices whose
    coordinates are those of a plain product. -/
theorem contr_sum_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (lhs : FVec Ideal ⟨2, ![a, K]⟩ φ₁) (rhs : FVec Ideal ⟨2, ![K, b]⟩ φ₂) (r : Fin a) (q : Fin b) :
    ∑ k : d.contr.Idx, lhs (d.lhsIdx (ix2 r q) k) * rhs (d.rhsIdx (ix2 r q) k)
      = ∑ k : Fin K, lhs (ix2 r k) * rhs (ix2 k q) := by
  rw [← Equiv.sum_comp (contrEquiv1 d K hr hs).symm]
  refine Finset.sum_congr rfl fun k _ => ?_
  have hk := contrEquiv1_symm_val d K hr hs k
  have el : d.lhsIdx (ix2 r q) ((contrEquiv1 d K hr hs).symm k) = ix2 r k := funext fun ax => Fin.ext (by
    match ax with
    | ⟨0, _⟩ => exact hl0 _ _
    | ⟨1, _⟩ => exact (hl1 _ _).trans hk)
  have er : d.rhsIdx (ix2 r q) ((contrEquiv1 d K hr hs).symm k) = ix2 k q := funext fun ax => Fin.ext (by
    match ax with
    | ⟨0, _⟩ => exact (hr0 _ _).trans hk
    | ⟨1, _⟩ => exact hr1 _ _)
  rw [el, er]

/-- The kernel's product into a zero accumulator, at an entry. -/
theorem matmul_zero_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![a, K]⟩ φ₁) (rhs : FVec Ideal ⟨2, ![K, b]⟩ φ₂)
    (r : Fin a) (q : Fin b) :
    matmul d prec lhs rhs (constant (F := Ideal) ⟨2, ![a, b]⟩ .f32 0x00000000#32) (ix2 r q)
      = ∑ k : Fin K, lhs (ix2 r k) * rhs (ix2 k q) :=
  (Ideal.matmul_constant_zero_apply d prec lhs rhs (ix2 r q)).trans
    (contr_sum_entry d hr hs hl0 hl1 hr0 hr1 lhs rhs r q)

/-- The host's product, at an entry. -/
theorem dotGeneral_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![a, K]⟩ φ₁) (rhs : FVec Ideal ⟨2, ![K, b]⟩ φ₂)
    (r : Fin a) (q : Fin b) :
    Host.dotGeneral (F := Ideal) d prec lhs rhs (ix2 r q) = ∑ k : Fin K, lhs (ix2 r k) * rhs (ix2 k q) := by
  simp only [Host.dotGeneral]
  exact (Ideal.dotGeneral_apply d prec _ lhs rhs (ix2 r q)).trans
    (contr_sum_entry d hr hs hl0 hl1 hr0 hr1 lhs rhs r q)

/-- The kernel's maximum over the lanes, at a row: the fold of `max` over the row from the accumulator's value. -/
theorem multiReduction_max_rows {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  refine congrArg (Finset.fold max _ · _) (funext fun k => ?_)
  exact congrArg src (funext fun c => Fin.ext (by match c with | ⟨0, _⟩ => rfl | ⟨1, _⟩ => rfl))

/-- The host's maximum over the lanes, at a row: the same fold from the initial value. -/
theorem hostReduce_max_rows {a b : ℕ} {φ : FTy} (x : FVec Ideal ⟨2, ![a, b]⟩ φ) (init : FVec Ideal ⟨0, ![]⟩ φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduce (FloatOps.maximumf (F := Ideal) (φ := φ)) x init h' hu (ix1 p)
      = (Finset.univ : Finset (Fin b)).fold max (init ix0) (fun k => x (ix2 p k)) := by
  refine (Host.reduce_eq_fold_single FloatOps.maximumf x init h' h hu (ix1 p)).trans ?_
  rw [eq_ix0 (Shape.Idx.first hu)]
  refine congrArg (Finset.fold max _ · _) (funext fun k => ?_)
  exact congrArg x (funext fun c => Fin.ext (by match c with | ⟨0, _⟩ => rfl | ⟨1, _⟩ => rfl))

end Cert.RowOps
-- ==== Proof.LibDualLinear.lean ====
/-
  Two matrix products added to a row of biases, on the extended reals, read at an entry.

  For matrices `x₁, x₂ : [a, K]`, `w₁, w₂ : [K, n]` and a bias per column, the entry `(r, q)` of
  `x₁ · w₁ + x₂ · w₂ + b` is `(∑ₖ x₁(r,k) · w₁(k,q)) + (∑ₖ x₂(r,k) · w₂(k,q)) + b(q)`.  The same number is
  reached two ways: by two products into zero accumulators, added, plus the bias row repeated down the rows
  (`kernel_entry`), and by two host products, added, plus the bias vector laid out as one row and then repeated
  (`host_entry`).  Only the order of the additions matters here, and it is the same on both sides, so nothing
  is asked of the numbers: the lemmas hold for every extended real.

  Last, a product over a contraction axis of extent `K + K'` whose left operand is two matrices side by side is
  the sum of the two products over `K` and `K'` (`sum_split`): a finite sum split at `K`.
-/
import Idealize.ShloMosaic.Lib.Pipeline.Value
import Idealize.ShloMosaic.Lib.ValueIdx
import Idealize.ShloMosaic.PureOps.Ideal.Laws
import proofs.«168059_j26053271617569_1_alg».proof.Proof.LibRowOps

namespace Cert.DualLinear

open Idealize.ShloMosaic Idealize.ShloMosaic.ValueIdx
open scoped BigOperators

/-- Entry `(r, q)` of `x₁ · w₁ + x₂ · w₂ + b`. -/
noncomputable def entry {a K n : ℕ} {φ₁ φ₂ : FTy} (x1 x2 : FVec Ideal ⟨2, ![a, K]⟩ φ₁) (w1 w2 : FVec Ideal ⟨2, ![K, n]⟩ φ₂)
    (b : Fin n → EReal) (r : Fin a) (q : Fin n) : EReal :=
  (∑ k : Fin K, x1 (ix2 r k) * w1 (ix2 k q)) + (∑ k : Fin K, x2 (ix2 r k) * w2 (ix2 k q)) + b q

/-- The entry depends only on row `r` of the left matrices, column `q` of the right ones and the bias of column `q`:
    two settings that agree there, of whatever extents, have the same entry. -/
theorem entry_congr {a a' K n n' : ℕ} {φ₁ φ₂ φ₁' φ₂' : FTy}
    (x1 x2 : FVec Ideal ⟨2, ![a, K]⟩ φ₁) (w1 w2 : FVec Ideal ⟨2, ![K, n]⟩ φ₂) (b : Fin n → EReal)
    (x1' x2' : FVec Ideal ⟨2, ![a', K]⟩ φ₁') (w1' w2' : FVec Ideal ⟨2, ![K, n']⟩ φ₂') (b' : Fin n' → EReal)
    (r : Fin a) (q : Fin n) (r' : Fin a') (q' : Fin n')
    (hx1 : ∀ k, x1 (ix2 r k) = x1' (ix2 r' k)) (hx2 : ∀ k, x2 (ix2 r k) = x2' (ix2 r' k))
    (hw1 : ∀ k, w1 (ix2 k q) = w1' (ix2 k q')) (hw2 : ∀ k, w2 (ix2 k q) = w2' (ix2 k q')) (hb : b q = b' q') :
    entry x1 x2 w1 w2 b r q = entry x1' x2' w1' w2' b' r' q' := by
  have h1 : (∑ k : Fin K, x1 (ix2 r k) * w1 (ix2 k q)) = ∑ k : Fin K, x1' (ix2 r' k) * w1' (ix2 k q') :=
    Finset.sum_congr rfl fun k _ => by rw [hx1 k, hw1 k]
  have h2 : (∑ k : Fin K, x2 (ix2 r k) * w2 (ix2 k q)) = ∑ k : Fin K, x2' (ix2 r' k) * w2' (ix2 k q') :=
    Finset.sum_congr rfl fun k _ => by rw [hx2 k, hw2 k]
  unfold entry
  rw [h1, h2, hb]

/-- Two products into zero accumulators, added, plus a one-row bias repeated down the rows: at an entry. -/
theorem kernel_entry {a K n : ℕ} {φ₁ φ₂ : FTy} (d : DotDims ⟨2, ![a, K]⟩ ⟨2, ![K, n]⟩ ⟨2, ![a, n]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (x1 x2 : FVec Ideal ⟨2, ![a, K]⟩ φ₁) (w1 w2 : FVec Ideal ⟨2, ![K, n]⟩ φ₂)
    (b : FVec Ideal ⟨2, ![1, n]⟩ .f32) (hb : (⟨2, ![1, n]⟩ : Shape).Broadcasts ⟨2, ![a, n]⟩) (hn : n ≠ 1)
    (r : Fin a) (q : Fin n) :
    addf (addf (matmul d prec x1 w1 (constant (F := Ideal) ⟨2, ![a, n]⟩ .f32 0x00000000#32))
        (matmul d prec x2 w2 (constant (F := Ideal) ⟨2, ![a, n]⟩ .f32 0x00000000#32)))
      (broadcastTo ⟨2, ![a, n]⟩ b hb) (ix2 r q)
      = entry x1 x2 w1 w2 (fun q => b (ix2 0 q)) r q := by
  rw [addf_apply, addf_apply, RowOps.matmul_zero_entry d hr hs hl0 hl1 hr0 hr1,
    RowOps.matmul_zero_entry d hr hs hl0 hl1 hr0 hr1]
  rw [broadcastTo_apply b hb (ix2 r q) (ix2 0 q) (fun ax => by
    match ax with
    | ⟨0, _⟩ => simp
    | ⟨1, _⟩ => simp [hn])]
  rfl

/-- A vector laid out as one row, read at column `q`. -/
theorem row_of_vector {n : ℕ} {α : Type} (b : (⟨1, ![n]⟩ : Shape).Idx → α)
    (h : (⟨1, ![n]⟩ : Shape).ShapeCasts ⟨2, ![1, n]⟩) (q : Fin n) :
    shapeCast ⟨2, ![1, n]⟩ b h (ix2 0 q) = b (ix1 q) := by
  refine (shapeCast_addUnit_apply ![n] b h (ix2 0 q)).trans (congrArg b ?_)
  funext a
  match a with
  | ⟨0, _⟩ => rfl

/-- A bias vector laid out as one row and repeated down the rows, at an entry. -/
theorem bias_entry {a n : ℕ} {α : Type} (b : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![a, n]⟩ ![0, 1]) (hn : n ≠ 1) (r : Fin a) (q : Fin n) :
    broadcastInDim ⟨2, ![a, n]⟩ ![0, 1] h2 (broadcastInDim ⟨2, ![1, n]⟩ ![1] h1 b) (ix2 r q) = b (ix1 q) := by
  rw [broadcastInDim_apply ![0, 1] h2 _ (ix2 r q) (ix2 0 q) (fun ax => by
    match ax with
    | ⟨0, _⟩ => simp
    | ⟨1, _⟩ => simp [hn]; rfl)]
  rw [broadcastInDim_apply ![1] h1 b (ix2 0 q) (ix1 q) (fun ax => by
    match ax with
    | ⟨0, _⟩ => simp [hn]; rfl)]

/-- Two host products, added, plus a bias vector laid out as one row and repeated down the rows: at an entry. -/
theorem host_entry {a K n : ℕ} {φ₁ φ₂ : FTy} (d : DotDims ⟨2, ![a, K]⟩ ⟨2, ![K, n]⟩ ⟨2, ![a, n]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (x1 x2 : FVec Ideal ⟨2, ![a, K]⟩ φ₁) (w1 w2 : FVec Ideal ⟨2, ![K, n]⟩ φ₂)
    (b : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![a, n]⟩ ![0, 1]) (hn : n ≠ 1)
    (r : Fin a) (q : Fin n) :
    addf (addf (Host.dotGeneral (F := Ideal) d prec x1 w1) (Host.dotGeneral (F := Ideal) d prec x2 w2))
      (broadcastInDim ⟨2, ![a, n]⟩ ![0, 1] h2 (broadcastInDim ⟨2, ![1, n]⟩ ![1] h1 b)) (ix2 r q)
      = entry x1 x2 w1 w2 (fun q => b (ix1 q)) r q := by
  rw [addf_apply, addf_apply, RowOps.dotGeneral_entry d hr hs hl0 hl1 hr0 hr1,
    RowOps.dotGeneral_entry d hr hs hl0 hl1 hr0 hr1]
  rw [bias_entry b h1 h2 hn r q]
  rfl

/-- A sum over `K + K'` terms is the sum of its first `K` and its last `K'` terms. -/
theorem sum_split {K K' : ℕ} (f : Fin (K + K') → EReal) :
    ∑ k : Fin (K + K'), f k = (∑ k : Fin K, f (Fin.castAdd K' k)) + ∑ k : Fin K', f (Fin.natAdd K k) :=
  Fin.sum_univ_add f

end Cert.DualLinear
-- ==== Proof.SpecEntry.lean ====
/-
  The network's layers read at one entry.

  Each layer of the network is, at the entry `(r, q)`, a plain expression in the entries of its operands:
  a product with a weight matrix is the sum over the contracted axis, a vector repeated down the rows is the
  vector's entry at the column, the normalisation is the scalar formula at the column's mean and variance.
  The mean over a node's incoming edges is a quotient by the node's degree; because the degree is at least one,
  the quotient is the product with the degree's reciprocal, for every extended real numerator.
-/
import proofs.«168059_j26053271617569_1_alg».proof.Proof.Spec
import proofs.«168059_j26053271617569_1_alg».proof.Proof.LibDualLinear
import Idealize.ShloMosaic.PureOps.Ideal
import Idealize.ShloMosaic.Lib.ValueIdx
import Idealize.ShloMosaic.Lib.Pipeline.Value
import Idealize.ShloMosaic.Lib.IdealHost

noncomputable section

namespace Cert.Sage

open Idealize.ShloMosaic Idealize.ShloMosaic.ValueIdx Cert.ReferenceIdeal Cert.ReferenceIdeal.Facts₀
open scoped BigOperators

variable [Cert.ReferenceIdeal.Facts₀]

theorem rows64_entry (v : Arr S64) (r : Fin 100000) (q : Fin 64) : rows64 v (ix2 r q) = v (ix1 q) :=
  Cert.DualLinear.bias_entry v bcast_S64_S1x64_1 bcast_S1x64_S100000x64_0_1 (by decide) r q

theorem rows2_entry (v : Arr S2) (r : Fin 100000) (q : Fin 2) : rows2 v (ix2 r q) = v (ix1 q) :=
  Cert.DualLinear.bias_entry v bcast_S2_S1x2_1 bcast_S1x2_S100000x2_0_1 (by decide) r q

/-- The input projection at an entry. -/
theorem proj_entry (x : Arr S100000x128) (w : Arr S128x64) (b : Arr S64) (r : Fin 100000) (q : Fin 64) :
    proj x w b (ix2 r q) = (∑ k : Fin 128, x (ix2 r k) * w (ix2 k q)) + b (ix1 q) := by
  unfold proj
  rw [addf_apply, Cert.RowOps.dotGeneral_entry (dot_S100000x128_S128x64_S100000x64_1_0_0_1_n_n) rfl rfl
    (fun _ _ => rfl) (fun i k => (dot_S100000x128_S128x64_S100000x64_1_0_0_1_n_n).lhsIdx_val_of_single rfl i k)
    (fun i k => (dot_S100000x128_S128x64_S100000x64_1_0_0_1_n_n).rhsIdx_val_of_single rfl i k) (fun _ _ => rfl),
    rows64_entry]

/-- The output head at an entry. -/
theorem head_entry (h : Arr S100000x64) (wo : Arr S64x2) (bo : Arr S2) (r : Fin 100000) (q : Fin 2) :
    head h wo bo (ix2 r q) = (∑ k : Fin 64, h (ix2 r k) * wo (ix2 k q)) + bo (ix1 q) := by
  unfold head
  rw [addf_apply, Cert.RowOps.dotGeneral_entry (dot_S100000x64_S64x2_S100000x2_1_0_0_1_n_n) rfl rfl
    (fun _ _ => rfl) (fun i k => (dot_S100000x64_S64x2_S100000x2_1_0_0_1_n_n).lhsIdx_val_of_single rfl i k)
    (fun i k => (dot_S100000x64_S64x2_S100000x2_1_0_0_1_n_n).rhsIdx_val_of_single rfl i k) (fun _ _ => rfl),
    rows2_entry]

/-- One layer with the aggregated rows given: `a · Wl + bl + h · Wr`. -/
def sageOf (a h : Arr S100000x64) (wl : Arr S64x64) (bl : Arr S64) (wr : Arr S64x64) : Arr S100000x64 :=
  addf (addf (Host.dotGeneral dot_S100000x64_S64x64_S100000x64_1_0_0_1_n_n none a wl) (rows64 bl))
    (Host.dotGeneral dot_S100000x64_S64x64_S100000x64_1_0_0_1_n_n none h wr)

theorem sage_eq (h : Arr S100000x64) (e : IArr S2x3200000) (wl : Arr S64x64) (bl : Arr S64) (wr : Arr S64x64) :
    sage h e wl bl wr = sageOf (edgeMean h e) h wl bl wr := rfl

/-- One layer at an entry. -/
theorem sageOf_entry (a h : Arr S100000x64) (wl : Arr S64x64) (bl : Arr S64) (wr : Arr S64x64)
    (r : Fin 100000) (q : Fin 64) :
    sageOf a h wl bl wr (ix2 r q)
      = (∑ k : Fin 64, a (ix2 r k) * wl (ix2 k q)) + bl (ix1 q) + ∑ k : Fin 64, h (ix2 r k) * wr (ix2 k q) := by
  unfold sageOf
  rw [addf_apply, addf_apply,
    Cert.RowOps.dotGeneral_entry (dot_S100000x64_S64x64_S100000x64_1_0_0_1_n_n) rfl rfl
      (fun _ _ => rfl) (fun i k => (dot_S100000x64_S64x64_S100000x64_1_0_0_1_n_n).lhsIdx_val_of_single rfl i k)
      (fun i k => (dot_S100000x64_S64x64_S100000x64_1_0_0_1_n_n).rhsIdx_val_of_single rfl i k) (fun _ _ => rfl),
    Cert.RowOps.dotGeneral_entry (dot_S100000x64_S64x64_S100000x64_1_0_0_1_n_n) rfl rfl
      (fun _ _ => rfl) (fun i k => (dot_S100000x64_S64x64_S100000x64_1_0_0_1_n_n).lhsIdx_val_of_single rfl i k)
      (fun i k => (dot_S100000x64_S64x64_S100000x64_1_0_0_1_n_n).rhsIdx_val_of_single rfl i k) (fun _ _ => rfl),
    rows64_entry]

/-- Adding the all-zero matrix changes nothing. -/
theorem addf_zeros (x : Arr S100000x64) :
    addf x (broadcastInDim S100000x64 ![] bcast_S_S100000x64 (constant S_ .f32 0x00000000#32)) = x := by
  funext i
  rw [addf_apply, broadcastInDim_scalar_apply,
    show constant (F := Ideal) S_ .f32 0x00000000#32 ix0 = (0 : EReal) from Ideal.ofBits_zero_f32, add_zero]

/-- The normalisation followed by the positive part, at an entry: the scalar formula at the column's statistics. -/
theorem bnRelu_entry (y : Arr S100000x64) (g b : Arr S64) (r : Fin 100000) (q : Fin 64) :
    bnRelu y g b (ix2 r q)
      = max (g (ix1 q) * (y (ix2 r q) - colMean y (ix1 q))
            * Ideal.rsqrt (colVar y (ix1 q) + Ideal.ofBits .f32 0x3727C5AC#32) + b (ix1 q))
          (Ideal.ofBits .f32 0x00000000#32) := by
  unfold bnRelu invStd
  rw [maximumf_apply, addf_apply, mulf_apply, mulf_apply, subf_apply, rows64_entry, rows64_entry, rows64_entry,
    rows64_entry]
  rfl

/-- A number per node repeated along the node's row, at an entry. -/
theorem alongRows_entry (d : Arr S100000) (r : Fin 100000) (q : Fin 64) : alongRows d (ix2 r q) = d (ix1 r) := by
  unfold alongRows
  rw [broadcastInDim_apply ![0, 1] bcast_S100000x1_S100000x64_0_1 _ (ix2 r q) (ix2 r 0) (fun ax => by
    match ax with
    | ⟨0, _⟩ => simp
    | ⟨1, _⟩ => simp)]
  rw [broadcastInDim_apply ![0] bcast_S100000_S100000x1_0 d (ix2 r 0) (ix1 r) (fun ax => by
    match ax with
    | ⟨0, _⟩ => simp)]

/-- A node's degree is at least one, so it is not zero. -/
theorem degree_ne_zero (e : IArr S2x3200000) (r : Fin 100000) : degree e (ix1 r) ≠ 0 := by
  unfold degree
  rw [maximumf_apply, broadcastInDim_scalar_apply]
  have h1 : (1 : EReal) ≤ max (Host.scatterAdd scatter_S100000_S3200000x1_S3200000_n_0_0_1
      (broadcastInDim S100000 ![] bcast_S_S100000 (constant (F := Ideal) S_ .f32 0x00000000#32)) (dstColumn e)
      (broadcastInDim S3200000 ![] bcast_S_S3200000 (constant (F := Ideal) S_ .f32 0x3F800000#32)) (ix1 r))
      (constant (F := Ideal) S_ .f32 0x3F800000#32 ix0) := by
    rw [show constant (F := Ideal) S_ .f32 0x3F800000#32 ix0 = (1 : EReal) from Ideal.ofBits_one_f32]
    exact le_max_right _ _
  exact ne_of_gt (lt_of_lt_of_le zero_lt_one h1)

/-- The mean over the incoming edges is the sum over them times the reciprocal of the degree: a quotient by a
    number that is not zero is the product with the number's reciprocal, whatever the numerator. -/
theorem edgeMean_eq_mul (h : Arr S100000x64) (e : IArr S2x3200000) :
    edgeMean h e = mulf (edgeSum h e) (alongRows (Host.divf
      (broadcastInDim S100000 ![] bcast_S_S100000 (constant S_ .f32 0x3F800000#32)) (degree e))) := by
  funext i
  obtain ⟨r, q, rfl⟩ : ∃ (r : Fin 100000) (q : Fin 64), i = ix2 r q := ⟨i 0, i 1, eq_ix2 i⟩
  unfold edgeMean
  rw [mulf_apply, hostDivf_apply, alongRows_entry, alongRows_entry, hostDivf_apply, broadcastInDim_scalar_apply,
    show constant (F := Ideal) S_ .f32 0x3F800000#32 ix0 = (1 : EReal) from Ideal.ofBits_one_f32,
    Ideal.mul_one_div (degree_ne_zero e r)]

end Cert.Sage

end
-- ==== Proof.LibRowProduct.lean ====
/-
  The dense product of two matrices of extended reals, as one whole-array function.

  For `X : [a, K]` and `W : [K, b]` the product is, at the entry `(r, q)`, the sum over `k < K` of
  `X (r, k) · W (k, q)` (`rowProduct`).  Sums and products on the extended reals are those of a commutative
  monoid, so the order and grouping of the sum never matter and no entry need be finite.

  Two readings of that one function are joined here, for any extents and any float formats of the operands:
  • the host's `dot_general` contracting the one shared axis IS the product, as whole arrays
    (`dotGeneral_eq_rowProduct`) — the dimension numbers enter only through four coordinate facts (which operand
    coordinate is the output's, which is the contraction's), so the lemma serves any record;
  • a product into a zero accumulator whose left operand has first passed through a change of float format
    (the identity on the extended reals) is, at any entry, the same sum (`matmul_trunc_entry`).
  Since entry `(r, q)` reads only row `r` of `X`, a row block of the product is the product of the same row
  block of `X` with `W`: a grid over row blocks computes the product block by block, and a certificate reads
  the blocks' entries with the second lemma and the whole array with the first.
  (It imports LibRowOps.lean, which sits beside it.)
-/
import proofs.«168059_j26053271617569_1_alg».proof.Proof.LibRowOps

noncomputable section

namespace Cert.RowProduct

open Idealize.ShloMosaic Idealize.ShloMosaic.ValueIdx
open scoped BigOperators

/-- The matrix product `X · W`, entry by entry: `(X · W) (r, q) = ∑ k, X (r, k) · W (k, q)`. -/
def rowProduct {a K b : ℕ} {φ₁ φ₂ : FTy} (x : FVec Ideal ⟨2, ![a, K]⟩ φ₁) (w : FVec Ideal ⟨2, ![K, b]⟩ φ₂) :
    FVec Ideal ⟨2, ![a, b]⟩ .f32 :=
  fun i => ∑ k : Fin K, x (ix2 (i 0) k) * w (ix2 k (i 1))

theorem rowProduct_entry {a K b : ℕ} {φ₁ φ₂ : FTy} (x : FVec Ideal ⟨2, ![a, K]⟩ φ₁) (w : FVec Ideal ⟨2, ![K, b]⟩ φ₂)
    (r : Fin a) (q : Fin b) : rowProduct x w (ix2 r q) = ∑ k : Fin K, x (ix2 r k) * w (ix2 k q) := rfl

/-- The host's product contracting the shared axis is the product. -/
theorem dotGeneral_eq_rowProduct {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (x : FVec Ideal ⟨2, ![a, K]⟩ φ₁) (w : FVec Ideal ⟨2, ![K, b]⟩ φ₂) :
    Host.dotGeneral (F := Ideal) d prec x w = rowProduct x w := by
  funext i
  obtain ⟨r, q, rfl⟩ : ∃ (r : Fin a) (q : Fin b), i = ix2 r q := ⟨i 0, i 1, eq_ix2 i⟩
  exact Cert.RowOps.dotGeneral_entry d hr hs hl0 hl1 hr0 hr1 prec x w r q

/-- A product into a zero accumulator whose left operand was first narrowed to another float format: on the
    extended reals the narrowing is the identity, so the entry is the plain sum over the contracted axis. -/
theorem matmul_trunc_entry {a K b : ℕ} {φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (x : FVec Ideal ⟨2, ![a, K]⟩ .f32) (w : FVec Ideal ⟨2, ![K, b]⟩ φ₂) (h : FTy.bits .bf16 < FTy.bits .f32)
    (j : (⟨2, ![a, b]⟩ : Shape).Idx) :
    matmul d none (truncf .bf16 x h) w (constant (F := Ideal) ⟨2, ![a, b]⟩ .f32 0x00000000#32) j
      = ∑ k : Fin K, x (ix2 (j 0) k) * w (ix2 k (j 1)) := by
  obtain ⟨r, q, rfl⟩ : ∃ (r : Fin a) (q : Fin b), j = ix2 r q := ⟨j 0, j 1, eq_ix2 j⟩
  exact (Cert.RowOps.matmul_zero_entry d hr hs hl0 hl1 hr0 hr1 none (truncf .bf16 x h) w r q).trans
    (Finset.sum_congr rfl fun k _ => rfl)

end Cert.RowProduct

end
-- ==== Proof.Pay.lean ====
/-
  The three kernel bodies, read at one entry, on the extended reals.

  • The linear body: a row block of `a` (narrowed to a shorter float format, the identity here) times the whole
    weight matrix into a zero accumulator, plus the one-row bias repeated down the rows.  At the entry `(p, q)` of
    the block it is  (∑ₖ a(p,k) · w(k,q)) + b(0,q).
  • The double linear body: two such products, added, plus the bias row: at `(p, q)`
    (∑ₖ a(p,k) · wa(k,q)) + (∑ₖ b(p,k) · wb(k,q)) + bias(0,q).
  • The normalising body: with the scale, the shift, the column mean and the column variance each one row,
    at `(p, q)`   max (γ(0,q) · (y(p,q) − μ(0,q)) · (σ²(0,q) + ε)^(−1/2) + β(0,q), 0) + res(p,q).
  Nothing is asked of the numbers: every identity holds for all extended reals.
-/
import proofs.«168059_j26053271617569_1_alg».proof.Proof.Gen.KernelIdeal.Skeleton
import proofs.«168059_j26053271617569_1_alg».proof.Proof.LibDualLinear
import proofs.«168059_j26053271617569_1_alg».proof.Proof.LibRowProduct
import Idealize.ShloMosaic.PureOps.Ideal
import Idealize.ShloMosaic.Lib.ValueIdx
import Idealize.ShloMosaic.Lib.Pipeline.Value

noncomputable section

namespace Cert.KernelIdeal.Pay

open Idealize.ShloMosaic Idealize.ShloMosaic.ValueIdx Cert.KernelIdeal Cert.KernelIdeal.Gen
open scoped BigOperators

/-- A one-row matrix repeated down the rows, at an entry. -/
theorem rowBroadcast_entry {a n : ℕ} {α : Type} (b : (⟨2, ![1, n]⟩ : Shape).Idx → α)
    (hb : (⟨2, ![1, n]⟩ : Shape).Broadcasts ⟨2, ![a, n]⟩) (hn : n ≠ 1) (r : Fin a) (q : Fin n) :
    broadcastTo ⟨2, ![a, n]⟩ b hb (ix2 r q) = b (ix2 0 q) :=
  broadcastTo_apply b hb (ix2 r q) (ix2 0 q) (fun ax => by
    match ax with
    | ⟨0, _⟩ => simp
    | ⟨1, _⟩ => simp [hn])

/-- The linear body from 128 to 64 columns, at an entry. -/
theorem lin0 (x0 : Vec Ideal S10000x128 .f32) (x1 : Vec Ideal S128x64 .f32) (x2 : Vec Ideal S1x64 .f32)
    (p : Fin 10000) (q : Fin 64) :
    k0_pay1 x0 x1 x2 (ix2 p q) = (∑ k : Fin 128, x0 (ix2 p k) * x1 (ix2 k q)) + x2 (ix2 0 q) := by
  show addf (matmul (dot_S10000x128_S128x64_S10000x64_1_0_0_1_n_n) none (truncf .bf16 x0 bitsLt_bf16_f32)
      (truncf .bf16 x1 bitsLt_bf16_f32) (constant (F := Ideal) S10000x64 .f32 0x00000000#32))
    (broadcastTo S10000x64 (shapeCast S1x64 x2 shapeCasts_S1x64_S1x64) broadcasts_S1x64_S10000x64) (ix2 p q) = _
  rw [addf_apply, Cert.RowProduct.matmul_trunc_entry (dot_S10000x128_S128x64_S10000x64_1_0_0_1_n_n) rfl rfl
    (fun _ _ => rfl) (fun i k => (dot_S10000x128_S128x64_S10000x64_1_0_0_1_n_n).lhsIdx_val_of_single rfl i k)
    (fun i k => (dot_S10000x128_S128x64_S10000x64_1_0_0_1_n_n).rhsIdx_val_of_single rfl i k) (fun _ _ => rfl),
    shapeCast_self, rowBroadcast_entry x2 _ (by decide) p q]
  rfl

/-- The linear body from 64 to 2 columns, at an entry. -/
theorem lin6 (x0 : Vec Ideal S10000x64 .f32) (x1 : Vec Ideal S64x2 .f32) (x2 : Vec Ideal S1x2 .f32)
    (p : Fin 10000) (q : Fin 2) :
    k6_pay1 x0 x1 x2 (ix2 p q) = (∑ k : Fin 64, x0 (ix2 p k) * x1 (ix2 k q)) + x2 (ix2 0 q) := by
  show addf (matmul (dot_S10000x64_S64x2_S10000x2_1_0_0_1_n_n) none
      (truncf .bf16 (shapeCast S10000x64 x0 shapeCasts_S10000x64_S10000x64) bitsLt_bf16_f32)
      (truncf .bf16 x1 bitsLt_bf16_f32) (constant (F := Ideal) S10000x2 .f32 0x00000000#32))
    (broadcastTo S10000x2 (shapeCast S1x2 x2 shapeCasts_S1x2_S1x2) broadcasts_S1x2_S10000x2) (ix2 p q) = _
  rw [addf_apply, Cert.RowProduct.matmul_trunc_entry (dot_S10000x64_S64x2_S10000x2_1_0_0_1_n_n) rfl rfl
    (fun _ _ => rfl) (fun i k => (dot_S10000x64_S64x2_S10000x2_1_0_0_1_n_n).lhsIdx_val_of_single rfl i k)
    (fun i k => (dot_S10000x64_S64x2_S10000x2_1_0_0_1_n_n).rhsIdx_val_of_single rfl i k) (fun _ _ => rfl),
    shapeCast_self, shapeCast_self, rowBroadcast_entry x2 _ (by decide) p q]
  rfl

/-- The double linear body, at an entry. -/
theorem dual (v0 : Vec Ideal S10000x64 .f32) (v3 : Vec Ideal S64x64 .f32) (v5 : Vec Ideal S10000x64 .f32)
    (v8 : Vec Ideal S64x64 .f32) (v13 : Vec Ideal S1x64 .f32) (p : Fin 10000) (q : Fin 64) :
    k2_pay1 v0 v3 v5 v8 v13 (ix2 p q)
      = (∑ k : Fin 64, v0 (ix2 p k) * v3 (ix2 k q)) + (∑ k : Fin 64, v5 (ix2 p k) * v8 (ix2 k q)) + v13 (ix2 0 q) := by
  show addf (addf
      (matmul (dot_S10000x64_S64x64_S10000x64_1_0_0_1_n_n) none
        (truncf .bf16 (shapeCast S10000x64 v0 shapeCasts_S10000x64_S10000x64) bitsLt_bf16_f32)
        (truncf .bf16 v3 bitsLt_bf16_f32) (constant (F := Ideal) S10000x64 .f32 0x00000000#32))
      (matmul (dot_S10000x64_S64x64_S10000x64_1_0_0_1_n_n) none
        (truncf .bf16 (shapeCast S10000x64 v5 shapeCasts_S10000x64_S10000x64) bitsLt_bf16_f32)
        (truncf .bf16 v8 bitsLt_bf16_f32) (constant (F := Ideal) S10000x64 .f32 0x00000000#32)))
    (broadcastTo S10000x64 (shapeCast S1x64 v13 shapeCasts_S1x64_S1x64) broadcasts_S1x64_S10000x64) (ix2 p q) = _
  rw [addf_apply, addf_apply,
    Cert.RowProduct.matmul_trunc_entry (dot_S10000x64_S64x64_S10000x64_1_0_0_1_n_n) rfl rfl
      (fun _ _ => rfl) (fun i k => (dot_S10000x64_S64x64_S10000x64_1_0_0_1_n_n).lhsIdx_val_of_single rfl i k)
      (fun i k => (dot_S10000x64_S64x64_S10000x64_1_0_0_1_n_n).rhsIdx_val_of_single rfl i k) (fun _ _ => rfl),
    Cert.RowProduct.matmul_trunc_entry (dot_S10000x64_S64x64_S10000x64_1_0_0_1_n_n) rfl rfl
      (fun _ _ => rfl) (fun i k => (dot_S10000x64_S64x64_S10000x64_1_0_0_1_n_n).lhsIdx_val_of_single rfl i k)
      (fun i k => (dot_S10000x64_S64x64_S10000x64_1_0_0_1_n_n).rhsIdx_val_of_single rfl i k) (fun _ _ => rfl),
    shapeCast_self, shapeCast_self, shapeCast_self, rowBroadcast_entry v13 _ (by decide) p q]
  rfl

/-- The later double linear body is the same function. -/
theorem dual4_eq : @k4_pay1 Ideal _ = @k2_pay1 Ideal _ := rfl

/-- The value of the normalising body at one entry, from the six numbers it reads. -/
def bnEntry (y γ β μ σ2 res : EReal) : EReal :=
  max (γ * (y - μ) * Ideal.rsqrt (σ2 + Ideal.ofBits .f32 0x3727C5AC#32) + β) (Ideal.ofBits .f32 0x00000000#32) + res

/-- The normalising body, at an entry. -/
theorem bn (v0 : Vec Ideal S10000x64 .f32) (v2 v4 v6 v8 : Vec Ideal S1x64 .f32) (v23 : Vec Ideal S10000x64 .f32)
    (p : Fin 10000) (q : Fin 64) :
    k1_pay1 v0 v2 v4 v6 v8 v23 (ix2 p q)
      = bnEntry (v0 (ix2 p q)) (v2 (ix2 0 q)) (v4 (ix2 0 q)) (v6 (ix2 0 q)) (v8 (ix2 0 q)) (v23 (ix2 p q)) := by
  show addf (maximumf (addf (mulf (mulf
        (broadcastTo S10000x64 (shapeCast S1x64 v2 shapeCasts_S1x64_S1x64) broadcasts_S1x64_S10000x64)
        (subf (shapeCast S10000x64 v0 shapeCasts_S10000x64_S10000x64)
          (broadcastTo S10000x64 (shapeCast S1x64 v6 shapeCasts_S1x64_S1x64) broadcasts_S1x64_S10000x64)))
        (broadcastTo S10000x64 (rsqrt (addf (shapeCast S1x64 v8 shapeCasts_S1x64_S1x64)
          (broadcast S1x64 (Scalar.ofBits (F := Ideal) .f32 0x3727C5AC#32)))) broadcasts_S1x64_S10000x64))
        (broadcastTo S10000x64 (shapeCast S1x64 v4 shapeCasts_S1x64_S1x64) broadcasts_S1x64_S10000x64))
      (broadcast S10000x64 (Scalar.ofBits (F := Ideal) .f32 0x00000000#32)))
    (shapeCast S10000x64 v23 shapeCasts_S10000x64_S10000x64) (ix2 p q) = _
  rw [addf_apply, maximumf_apply, addf_apply, mulf_apply, mulf_apply, subf_apply,
    shapeCast_self, shapeCast_self, shapeCast_self, shapeCast_self, shapeCast_self, shapeCast_self,
    rowBroadcast_entry v2 _ (by decide) p q, rowBroadcast_entry v6 _ (by decide) p q,
    rowBroadcast_entry v4 _ (by decide) p q, rowBroadcast_entry _ _ (by decide) p q]
  rfl

/-- The two later normalising bodies are the same function. -/
theorem bn3_eq : @k3_pay1 Ideal _ = @k1_pay1 Ideal _ := rfl
theorem bn5_eq : @k5_pay1 Ideal _ = @k1_pay1 Ideal _ := rfl

end Cert.KernelIdeal.Pay

end
-- ==== Proof.R0.lean ====
/-
  The input projection kernel: what its result array holds.

  The kernel's grid has ten points; point `t` reads rows `10000·t … 10000·t + 9999` of the left matrix, the whole
  weight matrix and the one-row bias, and writes the same rows of the result.  An entry of a row block of a
  matrix product depends only on that row of the left matrix, so each block written is the block of the whole
  product plus bias, and the ten blocks tile the result: after the kernel the result array is the layer
  `proj` of the arrays the kernel found.
-/
import proofs.«168059_j26053271617569_1_alg».proof.Proof.Gen.KernelIdeal.Frame
import proofs.«168059_j26053271617569_1_alg».proof.Proof.Gen.ReferenceIdeal
import proofs.«168059_j26053271617569_1_alg».proof.Proof.SpecEntry
import proofs.«168059_j26053271617569_1_alg».proof.Proof.Pay
import Idealize.ShloMosaic.Lib.Pipeline.Value

set_option maxRecDepth 16384

noncomputable section

namespace Cert.KernelIdeal.R0

open Idealize.ShloMosaic Idealize.ShloMosaic.TcCoe Idealize.ShloMosaic.ValueIdx Idealize.SL.Sem
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block `t`, the others at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem lt_ten (t : Fin cfg0.N) : t.val < 10 := lt_of_lt_of_eq t.isLt N_0

/-- What point `t` writes back is block `t` of the layer of the arrays the kernel found. -/
theorem flushed_eq (c : Dev nD) (bv : Cert.Sage.Arr Cert.ReferenceIdeal.S64)
    (hb : V c main_v4 = shapeCast S1x64 bv shapeCasts_S64_S1x64) (t : Fin cfg0.N) :
    (dat0 V c).flushed 3 t
      = ((cfg0.win 3).blk t).view.read (Elt Ideal) (Cert.Sage.proj (V c main_arg0) (V c main_arg2) bv) := by
  show (cfg0.win 3).cut (grid0.coords t) ((dat0 V c).after 3 t) = _
  rw [after0_3]
  unfold out0_3
  rw [View.canon_unit_zero hz]
  simp only [View.ld_unit_zero (S := S10000x128) hz, View.ld_unit_zero (S := S128x64) hz, View.ld_unit_zero (S := S1x64) hz]
  obtain ⟨e0, e1, e2, e3, e4, e5, e6, e7⟩ := idx_facts t
  have ht := lt_ten t
  funext j
  obtain ⟨p, q, rfl⟩ : ∃ (p : Fin 10000) (q : Fin 64), j = ix2 p q := ⟨j 0, j 1, eq_ix2 j⟩
  have hrow : t.val * 10000 + p.val < 100000 := by have := p.isLt; omega
  show k0_pay1 (iblk0 V c 0 t) (iblk0 V c 1 t) (iblk0 V c 2 t) (ix2 p q)
    = Cert.Sage.proj (V c main_arg0) (V c main_arg2) bv (((cfg0.win 3).blk t).view.emb (ix2 p q))
  have hemb : ((cfg0.win 3).blk t).view.emb (ix2 p q) = ix2 (⟨t.val * 10000 + p.val, hrow⟩ : Fin 100000) q := by
    funext a; apply Fin.ext
    match a with
    | ⟨0, _⟩ => show win0_3.index t (0 : Fin 2) * 10000 + 1 * p.val = t.val * 10000 + p.val; omega
    | ⟨1, _⟩ => show win0_3.index t (1 : Fin 2) * 64 + 1 * q.val = q.val; omega
  have h0 : ∀ k : Fin 128, iblk0 V c 0 t (ix2 p k) = V c main_arg0 (ix2 (⟨t.val * 10000 + p.val, hrow⟩ : Fin 100000) k) := fun k => by
    show V c main_arg0 (((cfg0.win 0).blk t).view.emb (ix2 p k)) = _
    refine congrArg _ ?_
    funext a; apply Fin.ext
    match a with
    | ⟨0, _⟩ => show win0_0.index t (0 : Fin 2) * 10000 + 1 * p.val = t.val * 10000 + p.val; omega
    | ⟨1, _⟩ => show win0_0.index t (1 : Fin 2) * 128 + 1 * k.val = k.val; omega
  have h1 : ∀ k : Fin 128, iblk0 V c 1 t (ix2 k q) = V c main_arg2 (ix2 k q) := fun k => by
    show V c main_arg2 (((cfg0.win 1).blk t).view.emb (ix2 k q)) = _
    refine congrArg _ ?_
    funext a; apply Fin.ext
    match a with
    | ⟨0, _⟩ => show win0_1.index t (0 : Fin 2) * 128 + 1 * k.val = k.val; omega
    | ⟨1, _⟩ => show win0_1.index t (1 : Fin 2) * 64 + 1 * q.val = q.val; omega
  have h2 : iblk0 V c 2 t (ix2 0 q) = bv (ix1 q) := by
    show V c main_v4 (((cfg0.win 2).blk t).view.emb (ix2 0 q)) = _
    rw [hb]
    refine Eq.trans (congrArg _ ?_) (Cert.DualLinear.row_of_vector bv shapeCasts_S64_S1x64 q)
    funext a; apply Fin.ext
    match a with
    | ⟨0, _⟩ => show win0_2.index t (0 : Fin 2) * 1 + 1 * 0 = 0; omega
    | ⟨1, _⟩ => show win0_2.index t (1 : Fin 2) * 64 + 1 * q.val = q.val; omega
  rw [hemb, Cert.Sage.proj_entry, Pay.lin0, h2]
  exact congrArg (· + bv (ix1 q)) (Finset.sum_congr rfl fun k _ => by rw [h0 k, h1 k])

/-- An index of the result is in point `t`'s block iff each coordinate is in the block's range. -/
theorem mem_blk (t : Fin cfg0.N) (i : S100000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole main_v5).slice (win0_3.rect t)).set ↔ _
  rw [View.set_slice_whole, Rect.mem_set_unit]
  exact Iff.rfl

/-- Every row of the result lies in the block of the point `row / 10000`. -/
theorem cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : (i 0).val / 10000 < cfg0.N := lt_of_lt_of_eq (by omega : (i 0).val / 10000 < 10) N_0.symm
  obtain ⟨e0, e1, e2, e3, e4, e5, e6, e7⟩ := idx_facts ⟨(i 0).val / 10000, hN⟩
  refine ⟨⟨(i 0).val / 10000, hN⟩, flush0_3 _, ?_⟩
  rw [mem_blk]
  intro a
  match a with
  | ⟨0, _⟩ =>
    show win0_3.index ⟨(i 0).val / 10000, hN⟩ (0 : Fin 2) * 10000 ≤ (i 0).val
      ∧ (i 0).val < win0_3.index ⟨(i 0).val / 10000, hN⟩ (0 : Fin 2) * 10000 + 10000
    rw [e6]; show (i 0).val / 10000 * 10000 ≤ (i 0).val ∧ (i 0).val < (i 0).val / 10000 * 10000 + 10000; omega
  | ⟨1, _⟩ =>
    show win0_3.index ⟨(i 0).val / 10000, hN⟩ (1 : Fin 2) * 64 ≤ (i 1).val
      ∧ (i 1).val < win0_3.index ⟨(i 0).val / 10000, hN⟩ (1 : Fin 2) * 64 + 64
    rw [e7]; omega

/-- After the kernel its result array is the layer of the arrays it found. -/
theorem final (c : Dev nD) (bv : Cert.Sage.Arr Cert.ReferenceIdeal.S64)
    (hb : V c main_v4 = shapeCast S1x64 bv shapeCasts_S64_S1x64) :
    (dat0 V c).arrAt 3 cfg0.N = Cert.Sage.proj (V c main_arg0) (V c main_arg2) bv :=
  (dat0 V c).arrAt_eq_of_cover 3 _ (fun t _ => flushed_eq V c bv hb t) cover

end Cert.KernelIdeal.R0

end
-- ==== Proof.R1.lean ====
/-
  The first normalising kernel: what its result array holds.

  The kernel's grid has ten points; point `t` reads rows `10000·t … 10000·t + 9999` of the matrix to normalise and of
  the residual, and the four one-row operands (scale, shift, column means, column variances), and writes the same
  rows of the result.  The body is pointwise, so each block written is the block of
  relu (bn y) + residual  of the whole arrays, and the ten blocks tile the result.
-/
import proofs.«168059_j26053271617569_1_alg».proof.Proof.Gen.KernelIdeal.Frame
import proofs.«168059_j26053271617569_1_alg».proof.Proof.Gen.ReferenceIdeal
import proofs.«168059_j26053271617569_1_alg».proof.Proof.SpecEntry
import proofs.«168059_j26053271617569_1_alg».proof.Proof.Pay
import Idealize.ShloMosaic.Lib.Pipeline.Value

set_option maxRecDepth 16384

noncomputable section

namespace Cert.KernelIdeal.R1

open Idealize.ShloMosaic Idealize.ShloMosaic.TcCoe Idealize.ShloMosaic.ValueIdx Idealize.SL.Sem
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

theorem hz : (![0, 0] : Fin 2 → Nat) = fun _ => 0 := funext fun a => by fin_cases a <;> rfl

theorem lt_ten (t : Fin cfg1.N) : t.val < 10 := lt_of_lt_of_eq t.isLt N_1

/-- The printed index maps over the grid: the row-blocked windows sit at block `t`, the one-row ones at block 0. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem out_idx : ∀ t : Fin cfg1.N, win1_6.index t (0 : Fin 2) = t.val ∧ win1_6.index t (1 : Fin 2) = 0 :=
  (by decide +kernel : ∀ t : Fin grid1.N, _)

/-- What point `t` writes back is block `t` of the normalised matrix plus the residual. -/
theorem flushed_eq (c : Dev nD) (g b : Cert.Sage.Arr Cert.ReferenceIdeal.S64)
    (hg : V c main_v11 = shapeCast S1x64 g shapeCasts_S64_S1x64)
    (hb : V c main_v12 = shapeCast S1x64 b shapeCasts_S64_S1x64)
    (hm : V c main_v13 = shapeCast S1x64 (Cert.Sage.colMean (V c main_v5)) shapeCasts_S64_S1x64)
    (hv : V c main_v14 = shapeCast S1x64 (Cert.Sage.colVar (V c main_v5)) shapeCasts_S64_S1x64) (t : Fin cfg1.N) :
    (dat1 V c).flushed 6 t = ((cfg1.win 6).blk t).view.read (Elt Ideal)
      (addf (Cert.Sage.bnRelu (V c main_v5) g b) (V c main_v6)) := by
  show (cfg1.win 6).cut (grid1.coords t) ((dat1 V c).after 6 t) = _
  rw [after1_6]
  unfold out1_6
  rw [View.canon_unit_zero hz]
  simp only [View.ld_unit_zero (S := S10000x64) hz, View.ld_unit_zero (S := S1x64) hz]
  obtain ⟨e0, e1, e2, e3, e4, e5, e6, e7, e8, e9, e10, e11⟩ := idx_facts t
  obtain ⟨eo0, eo1⟩ := out_idx t
  have ht := lt_ten t
  funext j
  obtain ⟨p, q, rfl⟩ : ∃ (p : Fin 10000) (q : Fin 64), j = ix2 p q := ⟨j 0, j 1, eq_ix2 j⟩
  have hrow : t.val * 10000 + p.val < 100000 := by have := p.isLt; omega
  show k1_pay1 (iblk1 V c 0 t) (iblk1 V c 1 t) (iblk1 V c 2 t) (iblk1 V c 3 t) (iblk1 V c 4 t) (iblk1 V c 5 t) (ix2 p q)
    = addf (Cert.Sage.bnRelu (V c main_v5) g b) (V c main_v6) (((cfg1.win 6).blk t).view.emb (ix2 p q))
  have hemb : ((cfg1.win 6).blk t).view.emb (ix2 p q) = ix2 (⟨t.val * 10000 + p.val, hrow⟩ : Fin 100000) q := by
    funext a; apply Fin.ext
    match a with
    | ⟨0, _⟩ => show win1_6.index t (0 : Fin 2) * 10000 + 1 * p.val = t.val * 10000 + p.val; omega
    | ⟨1, _⟩ => show win1_6.index t (1 : Fin 2) * 64 + 1 * q.val = q.val; omega
  have h0 : iblk1 V c 0 t (ix2 p q) = V c main_v5 (ix2 (⟨t.val * 10000 + p.val, hrow⟩ : Fin 100000) q) := by
    show V c main_v5 (((cfg1.win 0).blk t).view.emb (ix2 p q)) = _
    refine congrArg _ ?_
    funext a; apply Fin.ext
    match a with
    | ⟨0, _⟩ => show win1_0.index t (0 : Fin 2) * 10000 + 1 * p.val = t.val * 10000 + p.val; omega
    | ⟨1, _⟩ => show win1_0.index t (1 : Fin 2) * 64 + 1 * q.val = q.val; omega
  have h1 : iblk1 V c 1 t (ix2 0 q) = g (ix1 q) := by
    show V c main_v11 (((cfg1.win 1).blk t).view.emb (ix2 0 q)) = _
    rw [hg]
    refine Eq.trans (congrArg _ ?_) (Cert.DualLinear.row_of_vector g shapeCasts_S64_S1x64 q)
    funext a; apply Fin.ext
    match a with
    | ⟨0, _⟩ => show win1_1.index t (0 : Fin 2) * 1 + 1 * 0 = 0; omega
    | ⟨1, _⟩ => show win1_1.index t (1 : Fin 2) * 64 + 1 * q.val = q.val; omega
  have h2 : iblk1 V c 2 t (ix2 0 q) = b (ix1 q) := by
    show V c main_v12 (((cfg1.win 2).blk t).view.emb (ix2 0 q)) = _
    rw [hb]
    refine Eq.trans (congrArg _ ?_) (Cert.DualLinear.row_of_vector b shapeCasts_S64_S1x64 q)
    funext a; apply Fin.ext
    match a with
    | ⟨0, _⟩ => show win1_2.index t (0 : Fin 2) * 1 + 1 * 0 = 0; omega
    | ⟨1, _⟩ => show win1_2.index t (1 : Fin 2) * 64 + 1 * q.val = q.val; omega
  have h3 : iblk1 V c 3 t (ix2 0 q) = Cert.Sage.colMean (V c main_v5) (ix1 q) := by
    show V c main_v13 (((cfg1.win 3).blk t).view.emb (ix2 0 q)) = _
    rw [hm]
    refine Eq.trans (congrArg _ ?_) (Cert.DualLinear.row_of_vector (Cert.Sage.colMean (V c main_v5)) shapeCasts_S64_S1x64 q)
    funext a; apply Fin.ext
    match a with
    | ⟨0, _⟩ => show win1_3.index t (0 : Fin 2) * 1 + 1 * 0 = 0; omega
    | ⟨1, _⟩ => show win1_3.index t (1 : Fin 2) * 64 + 1 * q.val = q.val; omega
  have h4 : iblk1 V c 4 t (ix2 0 q) = Cert.Sage.colVar (V c main_v5) (ix1 q) := by
    show V c main_v14 (((cfg1.win 4).blk t).view.emb (ix2 0 q)) = _
    rw [hv]
    refine Eq.trans (congrArg _ ?_) (Cert.DualLinear.row_of_vector (Cert.Sage.colVar (V c main_v5)) shapeCasts_S64_S1x64 q)
    funext a; apply Fin.ext
    match a with
    | ⟨0, _⟩ => show win1_4.index t (0 : Fin 2) * 1 + 1 * 0 = 0; omega
    | ⟨1, _⟩ => show win1_4.index t (1 : Fin 2) * 64 + 1 * q.val = q.val; omega
  have h5 : iblk1 V c 5 t (ix2 p q) = V c main_v6 (ix2 (⟨t.val * 10000 + p.val, hrow⟩ : Fin 100000) q) := by
    show V c main_v6 (((cfg1.win 5).blk t).view.emb (ix2 p q)) = _
    refine congrArg _ ?_
    funext a; apply Fin.ext
    match a with
    | ⟨0, _⟩ => show win1_5.index t (0 : Fin 2) * 10000 + 1 * p.val = t.val * 10000 + p.val; omega
    | ⟨1, _⟩ => show win1_5.index t (1 : Fin 2) * 64 + 1 * q.val = q.val; omega
  rw [hemb, addf_apply, Cert.Sage.bnRelu_entry, Pay.bn, h0, h1, h2, h3, h4, h5]
  rfl

/-- An index of the result is in point `t`'s block iff each coordinate is in the block's range. -/
theorem mem_blk (t : Fin cfg1.N) (i : S100000x64.Idx) :
    i ∈ ((cfg1.win 6).blk t).view.set ↔ ∀ a : Fin 2, win1_6.index t a * S10000x64.size a ≤ (i a).val
      ∧ (i a).val < win1_6.index t a * S10000x64.size a + S10000x64.size a := by
  show i ∈ ((View.whole main_v15).slice (win1_6.rect t)).set ↔ _
  rw [View.set_slice_whole, Rect.mem_set_unit]
  exact Iff.rfl

/-- Every row of the result lies in the block of the point `row / 10000`. -/
theorem cover (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  have hN : (i 0).val / 10000 < cfg1.N := lt_of_lt_of_eq (by omega : (i 0).val / 10000 < 10) N_1.symm
  obtain ⟨eo0, eo1⟩ := out_idx ⟨(i 0).val / 10000, hN⟩
  refine ⟨⟨(i 0).val / 10000, hN⟩, flush1_6 _, ?_⟩
  rw [mem_blk]
  intro a
  match a with
  | ⟨0, _⟩ =>
    show win1_6.index ⟨(i 0).val / 10000, hN⟩ (0 : Fin 2) * 10000 ≤ (i 0).val
      ∧ (i 0).val < win1_6.index ⟨(i 0).val / 10000, hN⟩ (0 : Fin 2) * 10000 + 10000
    rw [eo0]; show (i 0).val / 10000 * 10000 ≤ (i 0).val ∧ (i 0).val < (i 0).val / 10000 * 10000 + 10000; omega
  | ⟨1, _⟩ =>
    show win1_6.index ⟨(i 0).val / 10000, hN⟩ (1 : Fin 2) * 64 ≤ (i 1).val
      ∧ (i 1).val < win1_6.index ⟨(i 0).val / 10000, hN⟩ (1 : Fin 2) * 64 + 64
    rw [eo1]; omega

/-- After the kernel its result array is the normalised matrix plus the residual. -/
theorem final (c : Dev nD) (g b : Cert.Sage.Arr Cert.ReferenceIdeal.S64)
    (hg : V c main_v11 = shapeCast S1x64 g shapeCasts_S64_S1x64)
    (hb : V c main_v12 = shapeCast S1x64 b shapeCasts_S64_S1x64)
    (hm : V c main_v13 = shapeCast S1x64 (Cert.Sage.colMean (V c main_v5)) shapeCasts_S64_S1x64)
    (hv : V c main_v14 = shapeCast S1x64 (Cert.Sage.colVar (V c main_v5)) shapeCasts_S64_S1x64) :
    (dat1 V c).arrAt 6 cfg1.N = addf (Cert.Sage.bnRelu (V c main_v5) g b) (V c main_v6) :=
  (dat1 V c).arrAt_eq_of_cover 6 _ (fun t _ => flushed_eq V c g b hg hb hm hv t) cover

end Cert.KernelIdeal.R1

end
-- ==== Proof.R2.lean ====
/-
  The first layer's double linear kernel: what its result array holds.

  The kernel's grid has ten points; point `t` reads rows `10000·t … 10000·t + 9999` of the aggregated rows and of the
  hidden state, both weight matrices whole and the one-row bias, and writes the same rows of the result.  An
  entry of a row block of a matrix product depends only on that row of the left matrix, so each block written is
  the block of  a · Wl + bl + h · Wr  (addition on the extended reals is commutative and associative, so the
  kernel's grouping  (a · Wl + h · Wr) + bl  is the same number), and the ten blocks tile the result.
-/
import proofs.«168059_j26053271617569_1_alg».proof.Proof.Gen.KernelIdeal.Frame
import proofs.«168059_j26053271617569_1_alg».proof.Proof.Gen.ReferenceIdeal
import proofs.«168059_j26053271617569_1_alg».proof.Proof.SpecEntry
import proofs.«168059_j26053271617569_1_alg».proof.Proof.Pay
import Idealize.ShloMosaic.Lib.Pipeline.Value

set_option maxRecDepth 16384

noncomputable section

namespace Cert.KernelIdeal.R2

open Idealize.ShloMosaic Idealize.ShloMosaic.TcCoe Idealize.ShloMosaic.ValueIdx Idealize.SL.Sem
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

theorem hz : (![0, 0] : Fin 2 → Nat) = fun _ => 0 := funext fun a => by fin_cases a <;> rfl

theorem lt_ten (t : Fin cfg2.N) : t.val < 10 := lt_of_lt_of_eq t.isLt N_2

/-- The printed index maps over the grid: the row-blocked windows sit at block `t`, the others at block 0. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

theorem out_idx : ∀ t : Fin cfg2.N, win2_5.index t (0 : Fin 2) = t.val ∧ win2_5.index t (1 : Fin 2) = 0 :=
  (by decide +kernel : ∀ t : Fin grid2.N, _)

/-- What point `t` writes back is block `t` of the layer of the arrays the kernel found. -/
theorem flushed_eq (c : Dev nD) (bl : Cert.Sage.Arr Cert.ReferenceIdeal.S64)
    (hb : V c main_v37 = shapeCast S1x64 bl shapeCasts_S64_S1x64) (t : Fin cfg2.N) :
    (dat2 V c).flushed 5 t = ((cfg2.win 5).blk t).view.read (Elt Ideal)
      (Cert.Sage.sageOf (V c main_v36) (V c main_v15) (V c main_arg6) bl (V c main_arg8)) := by
  show (cfg2.win 5).cut (grid2.coords t) ((dat2 V c).after 5 t) = _
  rw [after2_5]
  unfold out2_5
  rw [View.canon_unit_zero hz]
  simp only [View.ld_unit_zero (S := S10000x64) hz, View.ld_unit_zero (S := S64x64) hz, View.ld_unit_zero (S := S1x64) hz]
  obtain ⟨e0, e1, e2, e3, e4, e5, e6, e7, e8, e9⟩ := idx_facts t
  obtain ⟨eo0, eo1⟩ := out_idx t
  have ht := lt_ten t
  funext j
  obtain ⟨p, q, rfl⟩ : ∃ (p : Fin 10000) (q : Fin 64), j = ix2 p q := ⟨j 0, j 1, eq_ix2 j⟩
  have hrow : t.val * 10000 + p.val < 100000 := by have := p.isLt; omega
  show k2_pay1 (iblk2 V c 0 t) (iblk2 V c 1 t) (iblk2 V c 2 t) (iblk2 V c 3 t) (iblk2 V c 4 t) (ix2 p q)
    = Cert.Sage.sageOf (V c main_v36) (V c main_v15) (V c main_arg6) bl (V c main_arg8) (((cfg2.win 5).blk t).view.emb (ix2 p q))
  have hemb : ((cfg2.win 5).blk t).view.emb (ix2 p q) = ix2 (⟨t.val * 10000 + p.val, hrow⟩ : Fin 100000) q := by
    funext a; apply Fin.ext
    match a with
    | ⟨0, _⟩ => show win2_5.index t (0 : Fin 2) * 10000 + 1 * p.val = t.val * 10000 + p.val; omega
    | ⟨1, _⟩ => show win2_5.index t (1 : Fin 2) * 64 + 1 * q.val = q.val; omega
  have h0 : ∀ k : Fin 64, iblk2 V c 0 t (ix2 p k) = V c main_v36 (ix2 (⟨t.val * 10000 + p.val, hrow⟩ : Fin 100000) k) := fun k => by
    show V c main_v36 (((cfg2.win 0).blk t).view.emb (ix2 p k)) = _
    refine congrArg _ ?_
    funext a; apply Fin.ext
    match a with
    | ⟨0, _⟩ => show win2_0.index t (0 : Fin 2) * 10000 + 1 * p.val = t.val * 10000 + p.val; omega
    | ⟨1, _⟩ => show win2_0.index t (1 : Fin 2) * 64 + 1 * k.val = k.val; omega
  have h1 : ∀ k : Fin 64, iblk2 V c 1 t (ix2 k q) = V c main_arg6 (ix2 k q) := fun k => by
    show V c main_arg6 (((cfg2.win 1).blk t).view.emb (ix2 k q)) = _
    refine congrArg _ ?_
    funext a; apply Fin.ext
    match a with
    | ⟨0, _⟩ => show win2_1.index t (0 : Fin 2) * 64 + 1 * k.val = k.val; omega
    | ⟨1, _⟩ => show win2_1.index t (1 : Fin 2) * 64 + 1 * q.val = q.val; omega
  have h2 : ∀ k : Fin 64, iblk2 V c 2 t (ix2 p k) = V c main_v15 (ix2 (⟨t.val * 10000 + p.val, hrow⟩ : Fin 100000) k) := fun k => by
    show V c main_v15 (((cfg2.win 2).blk t).view.emb (ix2 p k)) = _
    refine congrArg _ ?_
    funext a; apply Fin.ext
    match a with
    | ⟨0, _⟩ => show win2_2.index t (0 : Fin 2) * 10000 + 1 * p.val = t.val * 10000 + p.val; omega
    | ⟨1, _⟩ => show win2_2.index t (1 : Fin 2) * 64 + 1 * k.val = k.val; omega
  have h3 : ∀ k : Fin 64, iblk2 V c 3 t (ix2 k q) = V c main_arg8 (ix2 k q) := fun k => by
    show V c main_arg8 (((cfg2.win 3).blk t).view.emb (ix2 k q)) = _
    refine congrArg _ ?_
    funext a; apply Fin.ext
    match a with
    | ⟨0, _⟩ => show win2_3.index t (0 : Fin 2) * 64 + 1 * k.val = k.val; omega
    | ⟨1, _⟩ => show win2_3.index t (1 : Fin 2) * 64 + 1 * q.val = q.val; omega
  have h4 : iblk2 V c 4 t (ix2 0 q) = bl (ix1 q) := by
    show V c main_v37 (((cfg2.win 4).blk t).view.emb (ix2 0 q)) = _
    rw [hb]
    refine Eq.trans (congrArg _ ?_) (Cert.DualLinear.row_of_vector bl shapeCasts_S64_S1x64 q)
    funext a; apply Fin.ext
    match a with
    | ⟨0, _⟩ => show win2_4.index t (0 : Fin 2) * 1 + 1 * 0 = 0; omega
    | ⟨1, _⟩ => show win2_4.index t (1 : Fin 2) * 64 + 1 * q.val = q.val; omega
  rw [hemb, Cert.Sage.sageOf_entry, Pay.dual, h4, add_right_comm]
  exact congrArg₂ (fun a b : EReal => a + bl (ix1 q) + b)
    (Finset.sum_congr rfl fun k _ => by rw [h0 k, h1 k]) (Finset.sum_congr rfl fun k _ => by rw [h2 k, h3 k])

/-- An index of the result is in point `t`'s block iff each coordinate is in the block's range. -/
theorem mem_blk (t : Fin cfg2.N) (i : S100000x64.Idx) :
    i ∈ ((cfg2.win 5).blk t).view.set ↔ ∀ a : Fin 2, win2_5.index t a * S10000x64.size a ≤ (i a).val
      ∧ (i a).val < win2_5.index t a * S10000x64.size a + S10000x64.size a := by
  show i ∈ ((View.whole main_v38).slice (win2_5.rect t)).set ↔ _
  rw [View.set_slice_whole, Rect.mem_set_unit]
  exact Iff.rfl

/-- Every row of the result lies in the block of the point `row / 10000`. -/
theorem cover (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  have hN : (i 0).val / 10000 < cfg2.N := lt_of_lt_of_eq (by omega : (i 0).val / 10000 < 10) N_2.symm
  obtain ⟨eo0, eo1⟩ := out_idx ⟨(i 0).val / 10000, hN⟩
  refine ⟨⟨(i 0).val / 10000, hN⟩, flush2_5 _, ?_⟩
  rw [mem_blk]
  intro a
  match a with
  | ⟨0, _⟩ =>
    show win2_5.index ⟨(i 0).val / 10000, hN⟩ (0 : Fin 2) * 10000 ≤ (i 0).val
      ∧ (i 0).val < win2_5.index ⟨(i 0).val / 10000, hN⟩ (0 : Fin 2) * 10000 + 10000
    rw [eo0]; show (i 0).val / 10000 * 10000 ≤ (i 0).val ∧ (i 0).val < (i 0).val / 10000 * 10000 + 10000; omega
  | ⟨1, _⟩ =>
    show win2_5.index ⟨(i 0).val / 10000, hN⟩ (1 : Fin 2) * 64 ≤ (i 1).val
      ∧ (i 1).val < win2_5.index ⟨(i 0).val / 10000, hN⟩ (1 : Fin 2) * 64 + 64
    rw [eo1]; omega

/-- After the kernel its result array is the layer of the arrays it found. -/
theorem final (c : Dev nD) (bl : Cert.Sage.Arr Cert.ReferenceIdeal.S64)
    (hb : V c main_v37 = shapeCast S1x64 bl shapeCasts_S64_S1x64) :
    (dat2 V c).arrAt 5 cfg2.N = Cert.Sage.sageOf (V c main_v36) (V c main_v15) (V c main_arg6) bl (V c main_arg8) :=
  (dat2 V c).arrAt_eq_of_cover 5 _ (fun t _ => flushed_eq V c bl hb t) cover

end Cert.KernelIdeal.R2

end
-- ==== Proof.R3.lean ====
/-
  The second normalising kernel: what its result array holds.

  The kernel's grid has ten points; point `t` reads rows `10000·t … 10000·t + 9999` of the matrix to normalise and of
  the residual, and the four one-row operands (scale, shift, column means, column variances), and writes the same
  rows of the result.  The body is pointwise, so each block written is the block of
  relu (bn y) + residual  of the whole arrays, and the ten blocks tile the result.
-/
import proofs.«168059_j26053271617569_1_alg».proof.Proof.Gen.KernelIdeal.Frame
import proofs.«168059_j26053271617569_1_alg».proof.Proof.Gen.ReferenceIdeal
import proofs.«168059_j26053271617569_1_alg».proof.Proof.SpecEntry
import proofs.«168059_j26053271617569_1_alg».proof.Proof.Pay
import Idealize.ShloMosaic.Lib.Pipeline.Value

set_option maxRecDepth 16384

noncomputable section

namespace Cert.KernelIdeal.R3

open Idealize.ShloMosaic Idealize.ShloMosaic.TcCoe Idealize.ShloMosaic.ValueIdx Idealize.SL.Sem
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

theorem hz : (![0, 0] : Fin 2 → Nat) = fun _ => 0 := funext fun a => by fin_cases a <;> rfl

theorem lt_ten (t : Fin cfg3.N) : t.val < 10 := lt_of_lt_of_eq t.isLt N_3

/-- The printed index maps over the grid: the row-blocked windows sit at block `t`, the one-row ones at block 0. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

theorem out_idx : ∀ t : Fin cfg3.N, win3_6.index t (0 : Fin 2) = t.val ∧ win3_6.index t (1 : Fin 2) = 0 :=
  (by decide +kernel : ∀ t : Fin grid3.N, _)

/-- What point `t` writes back is block `t` of the normalised matrix plus the residual. -/
theorem flushed_eq (c : Dev nD) (g b : Cert.Sage.Arr Cert.ReferenceIdeal.S64)
    (hg : V c main_v43 = shapeCast S1x64 g shapeCasts_S64_S1x64)
    (hb : V c main_v44 = shapeCast S1x64 b shapeCasts_S64_S1x64)
    (hm : V c main_v45 = shapeCast S1x64 (Cert.Sage.colMean (V c main_v38)) shapeCasts_S64_S1x64)
    (hv : V c main_v46 = shapeCast S1x64 (Cert.Sage.colVar (V c main_v38)) shapeCasts_S64_S1x64) (t : Fin cfg3.N) :
    (dat3 V c).flushed 6 t = ((cfg3.win 6).blk t).view.read (Elt Ideal)
      (addf (Cert.Sage.bnRelu (V c main_v38) g b) (V c main_v6)) := by
  show (cfg3.win 6).cut (grid3.coords t) ((dat3 V c).after 6 t) = _
  rw [after3_6]
  unfold out3_6
  rw [View.canon_unit_zero hz]
  simp only [View.ld_unit_zero (S := S10000x64) hz, View.ld_unit_zero (S := S1x64) hz]
  obtain ⟨e0, e1, e2, e3, e4, e5, e6, e7, e8, e9, e10, e11⟩ := idx_facts t
  obtain ⟨eo0, eo1⟩ := out_idx t
  have ht := lt_ten t
  funext j
  obtain ⟨p, q, rfl⟩ : ∃ (p : Fin 10000) (q : Fin 64), j = ix2 p q := ⟨j 0, j 1, eq_ix2 j⟩
  have hrow : t.val * 10000 + p.val < 100000 := by have := p.isLt; omega
  show k1_pay1 (iblk3 V c 0 t) (iblk3 V c 1 t) (iblk3 V c 2 t) (iblk3 V c 3 t) (iblk3 V c 4 t) (iblk3 V c 5 t) (ix2 p q)
    = addf (Cert.Sage.bnRelu (V c main_v38) g b) (V c main_v6) (((cfg3.win 6).blk t).view.emb (ix2 p q))
  have hemb : ((cfg3.win 6).blk t).view.emb (ix2 p q) = ix2 (⟨t.val * 10000 + p.val, hrow⟩ : Fin 100000) q := by
    funext a; apply Fin.ext
    match a with
    | ⟨0, _⟩ => show win3_6.index t (0 : Fin 2) * 10000 + 1 * p.val = t.val * 10000 + p.val; omega
    | ⟨1, _⟩ => show win3_6.index t (1 : Fin 2) * 64 + 1 * q.val = q.val; omega
  have h0 : iblk3 V c 0 t (ix2 p q) = V c main_v38 (ix2 (⟨t.val * 10000 + p.val, hrow⟩ : Fin 100000) q) := by
    show V c main_v38 (((cfg3.win 0).blk t).view.emb (ix2 p q)) = _
    refine congrArg _ ?_
    funext a; apply Fin.ext
    match a with
    | ⟨0, _⟩ => show win3_0.index t (0 : Fin 2) * 10000 + 1 * p.val = t.val * 10000 + p.val; omega
    | ⟨1, _⟩ => show win3_0.index t (1 : Fin 2) * 64 + 1 * q.val = q.val; omega
  have h1 : iblk3 V c 1 t (ix2 0 q) = g (ix1 q) := by
    show V c main_v43 (((cfg3.win 1).blk t).view.emb (ix2 0 q)) = _
    rw [hg]
    refine Eq.trans (congrArg _ ?_) (Cert.DualLinear.row_of_vector g shapeCasts_S64_S1x64 q)
    funext a; apply Fin.ext
    match a with
    | ⟨0, _⟩ => show win3_1.index t (0 : Fin 2) * 1 + 1 * 0 = 0; omega
    | ⟨1, _⟩ => show win3_1.index t (1 : Fin 2) * 64 + 1 * q.val = q.val; omega
  have h2 : iblk3 V c 2 t (ix2 0 q) = b (ix1 q) := by
    show V c main_v44 (((cfg3.win 2).blk t).view.emb (ix2 0 q)) = _
    rw [hb]
    refine Eq.trans (congrArg _ ?_) (Cert.DualLinear.row_of_vector b shapeCasts_S64_S1x64 q)
    funext a; apply Fin.ext
    match a with
    | ⟨0, _⟩ => show win3_2.index t (0 : Fin 2) * 1 + 1 * 0 = 0; omega
    | ⟨1, _⟩ => show win3_2.index t (1 : Fin 2) * 64 + 1 * q.val = q.val; omega
  have h3 : iblk3 V c 3 t (ix2 0 q) = Cert.Sage.colMean (V c main_v38) (ix1 q) := by
    show V c main_v45 (((cfg3.win 3).blk t).view.emb (ix2 0 q)) = _
    rw [hm]
    refine Eq.trans (congrArg _ ?_) (Cert.DualLinear.row_of_vector (Cert.Sage.colMean (V c main_v38)) shapeCasts_S64_S1x64 q)
    funext a; apply Fin.ext
    match a with
    | ⟨0, _⟩ => show win3_3.index t (0 : Fin 2) * 1 + 1 * 0 = 0; omega
    | ⟨1, _⟩ => show win3_3.index t (1 : Fin 2) * 64 + 1 * q.val = q.val; omega
  have h4 : iblk3 V c 4 t (ix2 0 q) = Cert.Sage.colVar (V c main_v38) (ix1 q) := by
    show V c main_v46 (((cfg3.win 4).blk t).view.emb (ix2 0 q)) = _
    rw [hv]
    refine Eq.trans (congrArg _ ?_) (Cert.DualLinear.row_of_vector (Cert.Sage.colVar (V c main_v38)) shapeCasts_S64_S1x64 q)
    funext a; apply Fin.ext
    match a with
    | ⟨0, _⟩ => show win3_4.index t (0 : Fin 2) * 1 + 1 * 0 = 0; omega
    | ⟨1, _⟩ => show win3_4.index t (1 : Fin 2) * 64 + 1 * q.val = q.val; omega
  have h5 : iblk3 V c 5 t (ix2 p q) = V c main_v6 (ix2 (⟨t.val * 10000 + p.val, hrow⟩ : Fin 100000) q) := by
    show V c main_v6 (((cfg3.win 5).blk t).view.emb (ix2 p q)) = _
    refine congrArg _ ?_
    funext a; apply Fin.ext
    match a with
    | ⟨0, _⟩ => show win3_5.index t (0 : Fin 2) * 10000 + 1 * p.val = t.val * 10000 + p.val; omega
    | ⟨1, _⟩ => show win3_5.index t (1 : Fin 2) * 64 + 1 * q.val = q.val; omega
  rw [hemb, addf_apply, Cert.Sage.bnRelu_entry, Pay.bn, h0, h1, h2, h3, h4, h5]
  rfl

/-- An index of the result is in point `t`'s block iff each coordinate is in the block's range. -/
theorem mem_blk (t : Fin cfg3.N) (i : S100000x64.Idx) :
    i ∈ ((cfg3.win 6).blk t).view.set ↔ ∀ a : Fin 2, win3_6.index t a * S10000x64.size a ≤ (i a).val
      ∧ (i a).val < win3_6.index t a * S10000x64.size a + S10000x64.size a := by
  show i ∈ ((View.whole main_v47).slice (win3_6.rect t)).set ↔ _
  rw [View.set_slice_whole, Rect.mem_set_unit]
  exact Iff.rfl

/-- Every row of the result lies in the block of the point `row / 10000`. -/
theorem cover (i : S100000x64.Idx) :
    ∃ t : Fin cfg3.N, (cfg3.win 6).flush t = true ∧ i ∈ ((cfg3.win 6).blk t).view.set := by
  have hi0 : (i 0).val < 100000 := (i 0).isLt
  have hi1 : (i 1).val < 64 := (i 1).isLt
  have hN : (i 0).val / 10000 < cfg3.N := lt_of_lt_of_eq (by omega : (i 0).val / 10000 < 10) N_3.symm
  obtain ⟨eo0, eo1⟩ := out_idx ⟨(i 0).val / 10000, hN⟩
  refine ⟨⟨(i 0).val / 10000, hN⟩, flush3_6 _, ?_⟩
  rw [mem_blk]
  intro a
  match a with
  | ⟨0, _⟩ =>
    show win3_6.index ⟨(i 0).val / 10000, hN⟩ (0 : Fin 2) * 10000 ≤ (i 0).val
      ∧ (i 0).val < win3_6.index ⟨(i 0).val / 10000, hN⟩ (0 : Fin 2) * 10000 + 10000
    rw [eo0]; show (i 0).val / 10000 * 10000 ≤ (i 0).val ∧ (i 0).val < (i 0).val / 10000 * 10000 + 10000; omega
  | ⟨1, _⟩ =>
    show win3_6.index ⟨(i 0).val / 10000, hN⟩ (1 : Fin 2) * 64 ≤ (i 1).val
      ∧ (i 1).val < win3_6.index ⟨(i 0).val / 10000, hN⟩ (1 : Fin 2) * 64 + 64
    rw [eo1]; omega

/-- After the kernel its result array is the normalised matrix plus the residual. -/
theorem final (c : Dev nD) (g b : Cert.Sage.Arr Cert.ReferenceIdeal.S64)
    (hg : V c main_v43 = shapeCast S1x64 g shapeCasts_S64_S1x64)
    (hb : V c main_v44 = shapeCast S1x64 b shapeCasts_S64_S1x64)
    (hm : V c main_v45 = shapeCast S1x64 (Cert.Sage.colMean (V c main_v38)) shapeCasts_S64_S1x64)
    (hv : V c main_v46 = shapeCast S1x64 (Cert.Sage.colVar (V c main_v38)) shapeCasts_S64_S1x64) :
    (dat3 V c).arrAt 6 cfg3.N = addf (Cert.Sage.bnRelu (V c main_v38) g b) (V c main_v6) :=
  (dat3 V c).arrAt_eq_of_cover 6 _ (fun t _ => flushed_eq V c g b hg hb hm hv t) cover

end Cert.KernelIdeal.R3

end
-- ==== Proof.R4.lean ====
/-
  The second layer's double linear kernel: what its result array holds.

  The kernel's grid has ten points; point `t` reads rows `10000·t … 10000·t + 9999` of the aggregated rows and of the
  hidden state, both weight matrices whole and the one-row bias, and writes the same rows of the result.  An
  entry of a row block of a matrix product depends only on that row of the left matrix, so each block written is
  the block of  a · Wl + bl + h · Wr  (addition on the extended reals is commutative and associative, so the
  kernel's grouping  (a · Wl + h · Wr) + bl  is the same number), and the ten blocks tile the result.
-/
import proofs.«168059_j26053271617569_1_alg».proof.Proof.Gen.KernelIdeal.Frame
import proofs.«168059_j26053271617569_1_alg».proof.Proof.Gen.ReferenceIdeal
import proofs.«168059_j26053271617569_1_alg».proof.Proof.SpecEntry
import proofs.«168059_j26053271617569_1_alg».proof.Proof.Pay
import Idealize.ShloMosaic.Lib.Pipeline.Value

set_option maxRecDepth 16384

noncomputable section

namespace Cert.KernelIdeal.R4

open Idealize.ShloMosaic Idealize.ShloMosaic.TcCoe Idealize.ShloMosaic.ValueIdx Idealize.SL.Sem
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

theorem hz : (![0, 0] : Fin 2 → Nat) = fun _ => 0 := funext fun a => by fin_cases a <;> rfl

theorem lt_ten (t : Fin cfg4.N) : t.val < 10 := lt_of_lt_of_eq t.isLt N_4

/-- The printed index maps over the grid: the row-blocked windows sit at block `t`, the others at block 0. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

theorem out_idx : ∀ t : Fin cfg4.N, win4_5.index t (0 : Fin 2) = t.val ∧ win4_5.index t (1 : Fin 2) = 0 :=
  (by decide +kernel : ∀ t : Fin grid4.N, _)

/-- What point `t` writes back is block `t` of the layer of the arrays the kernel found. -/
theorem flushed_eq (c : Dev nD) (bl : Cert.Sage.Arr Cert.ReferenceIdeal.S64)
    (hb : V c main_v61 = shapeCast S1x64 bl shapeCasts_S64_S1x64) (t : Fin cfg4.N) :
    (dat4 V c).flushed 5 t = ((cfg4.win 5).blk t).view.read (Elt Ideal)
      (Cert.Sage.sageOf (V c main_v60) (V c main_v47) (V c main_arg11) bl (V c main_arg13)) := by
  show (cfg4.win 5).cut (grid4.coords t) ((dat4 V c).after 5 t) = _
  rw [after4_5]
  unfold out4_5
  rw [View.canon_unit_zero hz]
  simp only [View.ld_unit_zero (S := S10000x64) hz, View.ld_unit_zero (S := S64x64) hz, View.ld_unit_zero (S := S1x64) hz]
  obtain ⟨e0, e1, e2, e3, e4, e5, e6, e7, e8, e9⟩ := idx_facts t
  obtain ⟨eo0, eo1⟩ := out_idx t
  have ht := lt_ten t
  funext j
  obtain ⟨p, q, rfl⟩ : ∃ (p : Fin 10000) (q : Fin 64), j = ix2 p q := ⟨j 0, j 1, eq_ix2 j⟩
  have hrow : t.val * 10000 + p.val < 100000 := by have := p.isLt; omega
  show k2_pay1 (iblk4 V c 0 t) (iblk4 V c 1 t) (iblk4 V c 2 t) (iblk4 V c 3 t) (iblk4 V c 4 t) (ix2 p q)
    = Cert.Sage.sageOf (V c main_v60) (V c main_v47) (V c main_arg11) bl (V c main_arg13) (((cfg4.win 5).blk t).view.emb (ix2 p q))
  have hemb : ((cfg4.win 5).blk t).view.emb (ix2 p q) = ix2 (⟨t.val * 10000 + p.val, hrow⟩ : Fin 100000) q := by
    funext a; apply Fin.ext
    match a with
    | ⟨0, _⟩ => show win4_5.index t (0 : Fin 2) * 10000 + 1 * p.val = t.val * 10000 + p.val; omega
    | ⟨1, _⟩ => show win4_5.index t (1 : Fin 2) * 64 + 1 * q.val = q.val; omega
  have h0 : ∀ k : Fin 64, iblk4 V c 0 t (ix2 p k) = V c main_v60 (ix2 (⟨t.val * 10000 + p.val, hrow⟩ : Fin 100000) k) := fun k => by
    show V c main_v60 (((cfg4.win 0).blk t).view.emb (ix2 p k)) = _
    refine congrArg _ ?_
    funext a; apply Fin.ext
    match a with
    | ⟨0, _⟩ => show win4_0.index t (0 : Fin 2) * 10000 + 1 * p.val = t.val * 10000 + p.val; omega
    | ⟨1, _⟩ => show win4_0.index t (1 : Fin 2) * 64 + 1 * k.val = k.val; omega
  have h1 : ∀ k : Fin 64, iblk4 V c 1 t (ix2 k q) = V c main_arg11 (ix2 k q) := fun k => by
    show V c main_arg11 (((cfg4.win 1).blk t).view.emb (ix2 k q)) = _
    refine congrArg _ ?_
    funext a; apply Fin.ext
    match a with
    | ⟨0, _⟩ => show win4_1.index t (0 : Fin 2) * 64 + 1 * k.val = k.val; omega
    | ⟨1, _⟩ => show win4_1.index t (1 : Fin 2) * 64 + 1 * q.val = q.val; omega
  have h2 : ∀ k : Fin 64, iblk4 V c 2 t (ix2 p k) = V c main_v47 (ix2 (⟨t.val * 10000 + p.val, hrow⟩ : Fin 100000) k) := fun k => by
    show V c main_v47 (((cfg4.win 2).blk t).view.emb (ix2 p k)) = _
    refine congrArg _ ?_
    funext a; apply Fin.ext
    match a with
    | ⟨0, _⟩ => show win4_2.index t (0 : Fin 2) * 10000 + 1 * p.val = t.val * 10000 + p.val; omega
    | ⟨1, _⟩ => show win4_2.index t (1 : Fin 2) * 64 + 1 * k.val = k.val; omega
  have h3 : ∀ k : Fin 64, iblk4 V c 3 t (ix2 k q) = V c main_arg13 (ix2 k q) := fun k => by
    show V c main_arg13 (((cfg4.win 3).blk t).view.emb (ix2 k q)) = _
    refine congrArg _ ?_
    funext a; apply Fin.ext
    match a with
    | ⟨0, _⟩ => show win4_3.index t (0 : Fin 2) * 64 + 1 * k.val = k.val; omega
    | ⟨1, _⟩ => show win4_3.index t (1 : Fin 2) * 64 + 1 * q.val = q.val; omega
  have h4 : iblk4 V c 4 t (ix2 0 q) = bl (ix1 q) := by
    show V c main_v61 (((cfg4.win 4).blk t).view.emb (ix2 0 q)) = _
    rw [hb]
    refine Eq.trans (congrArg _ ?_) (Cert.DualLinear.row_of_vector bl shapeCasts_S64_S1x64 q)
    funext a; apply Fin.ext
    match a with
    | ⟨0, _⟩ => show win4_4.index t (0 : Fin 2) * 1 + 1 * 0 = 0; omega
    | ⟨1, _⟩ => show win4_4.index t (1 : Fin 2) * 64 + 1 * q.val = q.val; omega
  rw [hemb, Cert.Sage.sageOf_entry, Pay.dual, h4, add_right_comm]
  exact congrArg₂ (fun a b : EReal => a + bl (ix1 q) + b)
    (Finset.sum_congr rfl fun k _ => by rw [h0 k, h1 k]) (Finset.sum_congr rfl fun k _ => by rw [h2 k, h3 k])

/-- An index of the result is in point `t`'s block iff each coordinate is in the block's range. -/
theorem mem_blk (t : Fin cfg4.N) (i : S100000x64.Idx) :
    i ∈ ((cfg4.win 5).blk t).view.set ↔ ∀ a : Fin 2, win4_5.index t a * S10000x64.size a ≤ (i a).val
      ∧ (i a).val < win4_5.index t a * S10000x64.size a + S10000x64.size a := by
  show i ∈ ((View.whole main_v62).slice (win4_5.rect t)).set ↔ _
  rw [View.set_slice_whole, Rect.mem_set_unit]
  exact Iff.rfl

/-- Every row of the result lies in the block of the point `row / 10000`. -/
theorem cover (i : S100000x64.Idx) :
    ∃ t : Fin cfg4.N, (cfg4.win 5).flush t = true ∧ i ∈ ((cfg4.win 5).blk t).view.set := by
  have hi0 : (i 0).val < 100000 := (i 0).isLt
  have hi1 : (i 1).val < 64 := (i 1).isLt
  have hN : (i 0).val / 10000 < cfg4.N := lt_of_lt_of_eq (by omega : (i 0).val / 10000 < 10) N_4.symm
  obtain ⟨eo0, eo1⟩ := out_idx ⟨(i 0).val / 10000, hN⟩
  refine ⟨⟨(i 0).val / 10000, hN⟩, flush4_5 _, ?_⟩
  rw [mem_blk]
  intro a
  match a with
  | ⟨0, _⟩ =>
    show win4_5.index ⟨(i 0).val / 10000, hN⟩ (0 : Fin 2) * 10000 ≤ (i 0).val
      ∧ (i 0).val < win4_5.index ⟨(i 0).val / 10000, hN⟩ (0 : Fin 2) * 10000 + 10000
    rw [eo0]; show (i 0).val / 10000 * 10000 ≤ (i 0).val ∧ (i 0).val < (i 0).val / 10000 * 10000 + 10000; omega
  | ⟨1, _⟩ =>
    show win4_5.index ⟨(i 0).val / 10000, hN⟩ (1 : Fin 2) * 64 ≤ (i 1).val
      ∧ (i 1).val < win4_5.index ⟨(i 0).val / 10000, hN⟩ (1 : Fin 2) * 64 + 64
    rw [eo1]; omega

/-- After the kernel its result array is the layer of the arrays it found. -/
theorem final (c : Dev nD) (bl : Cert.Sage.Arr Cert.ReferenceIdeal.S64)
    (hb : V c main_v61 = shapeCast S1x64 bl shapeCasts_S64_S1x64) :
    (dat4 V c).arrAt 5 cfg4.N = Cert.Sage.sageOf (V c main_v60) (V c main_v47) (V c main_arg11) bl (V c main_arg13) :=
  (dat4 V c).arrAt_eq_of_cover 5 _ (fun t _ => flushed_eq V c bl hb t) cover

end Cert.KernelIdeal.R4

end
-- ==== Proof.R5.lean ====
/-
  The third normalising kernel: what its result array holds.

  The kernel's grid has ten points; point `t` reads rows `10000·t … 10000·t + 9999` of the matrix to normalise and of
  the residual, and the four one-row operands (scale, shift, column means, column variances), and writes the same
  rows of the result.  The body is pointwise, so each block written is the block of
  relu (bn y) + residual  of the whole arrays, and the ten blocks tile the result.
-/
import proofs.«168059_j26053271617569_1_alg».proof.Proof.Gen.KernelIdeal.Frame
import proofs.«168059_j26053271617569_1_alg».proof.Proof.Gen.ReferenceIdeal
import proofs.«168059_j26053271617569_1_alg».proof.Proof.SpecEntry
import proofs.«168059_j26053271617569_1_alg».proof.Proof.Pay
import Idealize.ShloMosaic.Lib.Pipeline.Value

set_option maxRecDepth 16384

noncomputable section

namespace Cert.KernelIdeal.R5

open Idealize.ShloMosaic Idealize.ShloMosaic.TcCoe Idealize.ShloMosaic.ValueIdx Idealize.SL.Sem
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

theorem hz : (![0, 0] : Fin 2 → Nat) = fun _ => 0 := funext fun a => by fin_cases a <;> rfl

theorem lt_ten (t : Fin cfg5.N) : t.val < 10 := lt_of_lt_of_eq t.isLt N_5

/-- The printed index maps over the grid: the row-blocked windows sit at block `t`, the one-row ones at block 0. -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

theorem out_idx : ∀ t : Fin cfg5.N, win5_6.index t (0 : Fin 2) = t.val ∧ win5_6.index t (1 : Fin 2) = 0 :=
  (by decide +kernel : ∀ t : Fin grid5.N, _)

/-- What point `t` writes back is block `t` of the normalised matrix plus the residual. -/
theorem flushed_eq (c : Dev nD) (g b : Cert.Sage.Arr Cert.ReferenceIdeal.S64)
    (hg : V c main_v67 = shapeCast S1x64 g shapeCasts_S64_S1x64)
    (hb : V c main_v68 = shapeCast S1x64 b shapeCasts_S64_S1x64)
    (hm : V c main_v69 = shapeCast S1x64 (Cert.Sage.colMean (V c main_v62)) shapeCasts_S64_S1x64)
    (hv : V c main_v70 = shapeCast S1x64 (Cert.Sage.colVar (V c main_v62)) shapeCasts_S64_S1x64) (t : Fin cfg5.N) :
    (dat5 V c).flushed 6 t = ((cfg5.win 6).blk t).view.read (Elt Ideal)
      (addf (Cert.Sage.bnRelu (V c main_v62) g b) (V c main_v15)) := by
  show (cfg5.win 6).cut (grid5.coords t) ((dat5 V c).after 6 t) = _
  rw [after5_6]
  unfold out5_6
  rw [View.canon_unit_zero hz]
  simp only [View.ld_unit_zero (S := S10000x64) hz, View.ld_unit_zero (S := S1x64) hz]
  obtain ⟨e0, e1, e2, e3, e4, e5, e6, e7, e8, e9, e10, e11⟩ := idx_facts t
  obtain ⟨eo0, eo1⟩ := out_idx t
  have ht := lt_ten t
  funext j
  obtain ⟨p, q, rfl⟩ : ∃ (p : Fin 10000) (q : Fin 64), j = ix2 p q := ⟨j 0, j 1, eq_ix2 j⟩
  have hrow : t.val * 10000 + p.val < 100000 := by have := p.isLt; omega
  show k1_pay1 (iblk5 V c 0 t) (iblk5 V c 1 t) (iblk5 V c 2 t) (iblk5 V c 3 t) (iblk5 V c 4 t) (iblk5 V c 5 t) (ix2 p q)
    = addf (Cert.Sage.bnRelu (V c main_v62) g b) (V c main_v15) (((cfg5.win 6).blk t).view.emb (ix2 p q))
  have hemb : ((cfg5.win 6).blk t).view.emb (ix2 p q) = ix2 (⟨t.val * 10000 + p.val, hrow⟩ : Fin 100000) q := by
    funext a; apply Fin.ext
    match a with
    | ⟨0, _⟩ => show win5_6.index t (0 : Fin 2) * 10000 + 1 * p.val = t.val * 10000 + p.val; omega
    | ⟨1, _⟩ => show win5_6.index t (1 : Fin 2) * 64 + 1 * q.val = q.val; omega
  have h0 : iblk5 V c 0 t (ix2 p q) = V c main_v62 (ix2 (⟨t.val * 10000 + p.val, hrow⟩ : Fin 100000) q) := by
    show V c main_v62 (((cfg5.win 0).blk t).view.emb (ix2 p q)) = _
    refine congrArg _ ?_
    funext a; apply Fin.ext
    match a with
    | ⟨0, _⟩ => show win5_0.index t (0 : Fin 2) * 10000 + 1 * p.val = t.val * 10000 + p.val; omega
    | ⟨1, _⟩ => show win5_0.index t (1 : Fin 2) * 64 + 1 * q.val = q.val; omega
  have h1 : iblk5 V c 1 t (ix2 0 q) = g (ix1 q) := by
    show V c main_v67 (((cfg5.win 1).blk t).view.emb (ix2 0 q)) = _
    rw [hg]
    refine Eq.trans (congrArg _ ?_) (Cert.DualLinear.row_of_vector g shapeCasts_S64_S1x64 q)
    funext a; apply Fin.ext
    match a with
    | ⟨0, _⟩ => show win5_1.index t (0 : Fin 2) * 1 + 1 * 0 = 0; omega
    | ⟨1, _⟩ => show win5_1.index t (1 : Fin 2) * 64 + 1 * q.val = q.val; omega
  have h2 : iblk5 V c 2 t (ix2 0 q) = b (ix1 q) := by
    show V c main_v68 (((cfg5.win 2).blk t).view.emb (ix2 0 q)) = _
    rw [hb]
    refine Eq.trans (congrArg _ ?_) (Cert.DualLinear.row_of_vector b shapeCasts_S64_S1x64 q)
    funext a; apply Fin.ext
    match a with
    | ⟨0, _⟩ => show win5_2.index t (0 : Fin 2) * 1 + 1 * 0 = 0; omega
    | ⟨1, _⟩ => show win5_2.index t (1 : Fin 2) * 64 + 1 * q.val = q.val; omega
  have h3 : iblk5 V c 3 t (ix2 0 q) = Cert.Sage.colMean (V c main_v62) (ix1 q) := by
    show V c main_v69 (((cfg5.win 3).blk t).view.emb (ix2 0 q)) = _
    rw [hm]
    refine Eq.trans (congrArg _ ?_) (Cert.DualLinear.row_of_vector (Cert.Sage.colMean (V c main_v62)) shapeCasts_S64_S1x64 q)
    funext a; apply Fin.ext
    match a with
    | ⟨0, _⟩ => show win5_3.index t (0 : Fin 2) * 1 + 1 * 0 = 0; omega
    | ⟨1, _⟩ => show win5_3.index t (1 : Fin 2) * 64 + 1 * q.val = q.val; omega
  have h4 : iblk5 V c 4 t (ix2 0 q) = Cert.Sage.colVar (V c main_v62) (ix1 q) := by
    show V c main_v70 (((cfg5.win 4).blk t).view.emb (ix2 0 q)) = _
    rw [hv]
    refine Eq.trans (congrArg _ ?_) (Cert.DualLinear.row_of_vector (Cert.Sage.colVar (V c main_v62)) shapeCasts_S64_S1x64 q)
    funext a; apply Fin.ext
    match a with
    | ⟨0, _⟩ => show win5_4.index t (0 : Fin 2) * 1 + 1 * 0 = 0; omega
    | ⟨1, _⟩ => show win5_4.index t (1 : Fin 2) * 64 + 1 * q.val = q.val; omega
  have h5 : iblk5 V c 5 t (ix2 p q) = V c main_v15 (ix2 (⟨t.val * 10000 + p.val, hrow⟩ : Fin 100000) q) := by
    show V c main_v15 (((cfg5.win 5).blk t).view.emb (ix2 p q)) = _
    refine congrArg _ ?_
    funext a; apply Fin.ext
    match a with
    | ⟨0, _⟩ => show win5_5.index t (0 : Fin 2) * 10000 + 1 * p.val = t.val * 10000 + p.val; omega
    | ⟨1, _⟩ => show win5_5.index t (1 : Fin 2) * 64 + 1 * q.val = q.val; omega
  rw [hemb, addf_apply, Cert.Sage.bnRelu_entry, Pay.bn, h0, h1, h2, h3, h4, h5]
  rfl

/-- An index of the result is in point `t`'s block iff each coordinate is in the block's range. -/
theorem mem_blk (t : Fin cfg5.N) (i : S100000x64.Idx) :
    i ∈ ((cfg5.win 6).blk t).view.set ↔ ∀ a : Fin 2, win5_6.index t a * S10000x64.size a ≤ (i a).val
      ∧ (i a).val < win5_6.index t a * S10000x64.size a + S10000x64.size a := by
  show i ∈ ((View.whole main_v71).slice (win5_6.rect t)).set ↔ _
  rw [View.set_slice_whole, Rect.mem_set_unit]
  exact Iff.rfl

/-- Every row of the result lies in the block of the point `row / 10000`. -/
theorem cover (i : S100000x64.Idx) :
    ∃ t : Fin cfg5.N, (cfg5.win 6).flush t = true ∧ i ∈ ((cfg5.win 6).blk t).view.set := by
  have hi0 : (i 0).val < 100000 := (i 0).isLt
  have hi1 : (i 1).val < 64 := (i 1).isLt
  have hN : (i 0).val / 10000 < cfg5.N := lt_of_lt_of_eq (by omega : (i 0).val / 10000 < 10) N_5.symm
  obtain ⟨eo0, eo1⟩ := out_idx ⟨(i 0).val / 10000, hN⟩
  refine ⟨⟨(i 0).val / 10000, hN⟩, flush5_6 _, ?_⟩
  rw [mem_blk]
  intro a
  match a with
  | ⟨0, _⟩ =>
    show win5_6.index ⟨(i 0).val / 10000, hN⟩ (0 : Fin 2) * 10000 ≤ (i 0).val
      ∧ (i 0).val < win5_6.index ⟨(i 0).val / 10000, hN⟩ (0 : Fin 2) * 10000 + 10000
    rw [eo0]; show (i 0).val / 10000 * 10000 ≤ (i 0).val ∧ (i 0).val < (i 0).val / 10000 * 10000 + 10000; omega
  | ⟨1, _⟩ =>
    show win5_6.index ⟨(i 0).val / 10000, hN⟩ (1 : Fin 2) * 64 ≤ (i 1).val
      ∧ (i 1).val < win5_6.index ⟨(i 0).val / 10000, hN⟩ (1 : Fin 2) * 64 + 64
    rw [eo1]; omega

/-- After the kernel its result array is the normalised matrix plus the residual. -/
theorem final (c : Dev nD) (g b : Cert.Sage.Arr Cert.ReferenceIdeal.S64)
    (hg : V c main_v67 = shapeCast S1x64 g shapeCasts_S64_S1x64)
    (hb : V c main_v68 = shapeCast S1x64 b shapeCasts_S64_S1x64)
    (hm : V c main_v69 = shapeCast S1x64 (Cert.Sage.colMean (V c main_v62)) shapeCasts_S64_S1x64)
    (hv : V c main_v70 = shapeCast S1x64 (Cert.Sage.colVar (V c main_v62)) shapeCasts_S64_S1x64) :
    (dat5 V c).arrAt 6 cfg5.N = addf (Cert.Sage.bnRelu (V c main_v62) g b) (V c main_v15) :=
  (dat5 V c).arrAt_eq_of_cover 6 _ (fun t _ => flushed_eq V c g b hg hb hm hv t) cover

end Cert.KernelIdeal.R5

end
-- ==== Proof.R6.lean ====
/-
  The output head kernel: what its result array holds.

  The kernel's grid has ten points; point `t` reads rows `10000·t … 10000·t + 9999` of the left matrix, the whole
  weight matrix and the one-row bias, and writes the same rows of the result.  An entry of a row block of a
  matrix product depends only on that row of the left matrix, so each block written is the block of the whole
  product plus bias, and the ten blocks tile the result: after the kernel the result array is the layer
  `head` of the arrays the kernel found.
-/
import proofs.«168059_j26053271617569_1_alg».proof.Proof.Gen.KernelIdeal.Frame
import proofs.«168059_j26053271617569_1_alg».proof.Proof.Gen.ReferenceIdeal
import proofs.«168059_j26053271617569_1_alg».proof.Proof.SpecEntry
import proofs.«168059_j26053271617569_1_alg».proof.Proof.Pay
import Idealize.ShloMosaic.Lib.Pipeline.Value

set_option maxRecDepth 16384

noncomputable section

namespace Cert.KernelIdeal.R6

open Idealize.ShloMosaic Idealize.ShloMosaic.TcCoe Idealize.ShloMosaic.ValueIdx Idealize.SL.Sem
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block `t`, the others at block 0. -/
theorem idx_facts : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

theorem lt_ten (t : Fin cfg6.N) : t.val < 10 := lt_of_lt_of_eq t.isLt N_6

/-- What point `t` writes back is block `t` of the layer of the arrays the kernel found. -/
theorem flushed_eq (c : Dev nD) (bv : Cert.Sage.Arr Cert.ReferenceIdeal.S2)
    (hb : V c main_v72 = shapeCast S1x2 bv shapeCasts_S2_S1x2) (t : Fin cfg6.N) :
    (dat6 V c).flushed 3 t
      = ((cfg6.win 3).blk t).view.read (Elt Ideal) (Cert.Sage.head (V c main_v71) (V c main_arg16) bv) := by
  show (cfg6.win 3).cut (grid6.coords t) ((dat6 V c).after 3 t) = _
  rw [after6_3]
  unfold out6_3
  rw [View.canon_unit_zero hz]
  simp only [View.ld_unit_zero (S := S10000x64) hz, View.ld_unit_zero (S := S64x2) hz, View.ld_unit_zero (S := S1x2) hz]
  obtain ⟨e0, e1, e2, e3, e4, e5, e6, e7⟩ := idx_facts t
  have ht := lt_ten t
  funext j
  obtain ⟨p, q, rfl⟩ : ∃ (p : Fin 10000) (q : Fin 2), j = ix2 p q := ⟨j 0, j 1, eq_ix2 j⟩
  have hrow : t.val * 10000 + p.val < 100000 := by have := p.isLt; omega
  show k6_pay1 (iblk6 V c 0 t) (iblk6 V c 1 t) (iblk6 V c 2 t) (ix2 p q)
    = Cert.Sage.head (V c main_v71) (V c main_arg16) bv (((cfg6.win 3).blk t).view.emb (ix2 p q))
  have hemb : ((cfg6.win 3).blk t).view.emb (ix2 p q) = ix2 (⟨t.val * 10000 + p.val, hrow⟩ : Fin 100000) q := by
    funext a; apply Fin.ext
    match a with
    | ⟨0, _⟩ => show win6_3.index t (0 : Fin 2) * 10000 + 1 * p.val = t.val * 10000 + p.val; omega
    | ⟨1, _⟩ => show win6_3.index t (1 : Fin 2) * 2 + 1 * q.val = q.val; omega
  have h0 : ∀ k : Fin 64, iblk6 V c 0 t (ix2 p k) = V c main_v71 (ix2 (⟨t.val * 10000 + p.val, hrow⟩ : Fin 100000) k) := fun k => by
    show V c main_v71 (((cfg6.win 0).blk t).view.emb (ix2 p k)) = _
    refine congrArg _ ?_
    funext a; apply Fin.ext
    match a with
    | ⟨0, _⟩ => show win6_0.index t (0 : Fin 2) * 10000 + 1 * p.val = t.val * 10000 + p.val; omega
    | ⟨1, _⟩ => show win6_0.index t (1 : Fin 2) * 64 + 1 * k.val = k.val; omega
  have h1 : ∀ k : Fin 64, iblk6 V c 1 t (ix2 k q) = V c main_arg16 (ix2 k q) := fun k => by
    show V c main_arg16 (((cfg6.win 1).blk t).view.emb (ix2 k q)) = _
    refine congrArg _ ?_
    funext a; apply Fin.ext
    match a with
    | ⟨0, _⟩ => show win6_1.index t (0 : Fin 2) * 64 + 1 * k.val = k.val; omega
    | ⟨1, _⟩ => show win6_1.index t (1 : Fin 2) * 2 + 1 * q.val = q.val; omega
  have h2 : iblk6 V c 2 t (ix2 0 q) = bv (ix1 q) := by
    show V c main_v72 (((cfg6.win 2).blk t).view.emb (ix2 0 q)) = _
    rw [hb]
    refine Eq.trans (congrArg _ ?_) (Cert.DualLinear.row_of_vector bv shapeCasts_S2_S1x2 q)
    funext a; apply Fin.ext
    match a with
    | ⟨0, _⟩ => show win6_2.index t (0 : Fin 2) * 1 + 1 * 0 = 0; omega
    | ⟨1, _⟩ => show win6_2.index t (1 : Fin 2) * 2 + 1 * q.val = q.val; omega
  rw [hemb, Cert.Sage.head_entry, Pay.lin6, h2]
  exact congrArg (· + bv (ix1 q)) (Finset.sum_congr rfl fun k _ => by rw [h0 k, h1 k])

/-- An index of the result is in point `t`'s block iff each coordinate is in the block's range. -/
theorem mem_blk (t : Fin cfg6.N) (i : S100000x2.Idx) :
    i ∈ ((cfg6.win 3).blk t).view.set ↔ ∀ a : Fin 2, win6_3.index t a * S10000x2.size a ≤ (i a).val
      ∧ (i a).val < win6_3.index t a * S10000x2.size a + S10000x2.size a := by
  show i ∈ ((View.whole main_v73).slice (win6_3.rect t)).set ↔ _
  rw [View.set_slice_whole, Rect.mem_set_unit]
  exact Iff.rfl

/-- Every row of the result lies in the block of the point `row / 10000`. -/
theorem cover (i : S100000x2.Idx) :
    ∃ t : Fin cfg6.N, (cfg6.win 3).flush t = true ∧ i ∈ ((cfg6.win 3).blk t).view.set := by
  have hi0 : (i 0).val < 100000 := (i 0).isLt
  have hi1 : (i 1).val < 2 := (i 1).isLt
  have hN : (i 0).val / 10000 < cfg6.N := lt_of_lt_of_eq (by omega : (i 0).val / 10000 < 10) N_6.symm
  obtain ⟨e0, e1, e2, e3, e4, e5, e6, e7⟩ := idx_facts ⟨(i 0).val / 10000, hN⟩
  refine ⟨⟨(i 0).val / 10000, hN⟩, flush6_3 _, ?_⟩
  rw [mem_blk]
  intro a
  match a with
  | ⟨0, _⟩ =>
    show win6_3.index ⟨(i 0).val / 10000, hN⟩ (0 : Fin 2) * 10000 ≤ (i 0).val
      ∧ (i 0).val < win6_3.index ⟨(i 0).val / 10000, hN⟩ (0 : Fin 2) * 10000 + 10000
    rw [e6]; show (i 0).val / 10000 * 10000 ≤ (i 0).val ∧ (i 0).val < (i 0).val / 10000 * 10000 + 10000; omega
  | ⟨1, _⟩ =>
    show win6_3.index ⟨(i 0).val / 10000, hN⟩ (1 : Fin 2) * 2 ≤ (i 1).val
      ∧ (i 1).val < win6_3.index ⟨(i 0).val / 10000, hN⟩ (1 : Fin 2) * 2 + 2
    rw [e7]; omega

/-- After the kernel its result array is the layer of the arrays it found. -/
theorem final (c : Dev nD) (bv : Cert.Sage.Arr Cert.ReferenceIdeal.S2)
    (hb : V c main_v72 = shapeCast S1x2 bv shapeCasts_S2_S1x2) :
    (dat6 V c).arrAt 3 cfg6.N = Cert.Sage.head (V c main_v71) (V c main_arg16) bv :=
  (dat6 V c).arrAt_eq_of_cover 3 _ (fun t _ => flushed_eq V c bv hb t) cover

end Cert.KernelIdeal.R6

end
-- ==== Proof.KValue.lean ====
/-
  The idealized kernel program's result, as the network of its arguments.

  The program's buffers are followed from the launch to the return through its twenty segments.  A host stretch
  leaves in each buffer it writes the stated operation of the buffers it reads and keeps every other buffer; a
  kernel leaves in its result array the layer of the arrays it found (the seven kernel modules) and keeps every
  buffer that is not its result.  Reading the chain from the end: the result is the output head of
  h₂ = relu (bn (sage h₁)) + h₀, with h₁ = relu (bn (sage h₀)) and h₀ = relu (bn (x · Wp + bp)); in each layer the
  aggregate is the edge sum times the reciprocal degree, which is the mean over the incoming edges, and the two
  first normalising kernels add an all-zero residual, which changes nothing.
-/
import proofs.«168059_j26053271617569_1_alg».proof.Proof.Glue
import proofs.«168059_j26053271617569_1_alg».proof.Proof.R0
import proofs.«168059_j26053271617569_1_alg».proof.Proof.R1
import proofs.«168059_j26053271617569_1_alg».proof.Proof.R2
import proofs.«168059_j26053271617569_1_alg».proof.Proof.R3
import proofs.«168059_j26053271617569_1_alg».proof.Proof.R4
import proofs.«168059_j26053271617569_1_alg».proof.Proof.R5
import proofs.«168059_j26053271617569_1_alg».proof.Proof.R6

set_option maxRecDepth 16384

noncomputable section

namespace Cert.KernelIdeal.KValue

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-! ## The launched arguments and the network's intermediate arrays -/

abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)
abbrev a3 (c : Dev nD) := m ((c.tc : Thread nD τ).loc main_arg3)
abbrev a4 (c : Dev nD) := m ((c.tc : Thread nD τ).loc main_arg4)
abbrev a5 (c : Dev nD) := m ((c.tc : Thread nD τ).loc main_arg5)
abbrev a6 (c : Dev nD) := m ((c.tc : Thread nD τ).loc main_arg6)
abbrev a7 (c : Dev nD) := m ((c.tc : Thread nD τ).loc main_arg7)
abbrev a8 (c : Dev nD) := m ((c.tc : Thread nD τ).loc main_arg8)
abbrev a9 (c : Dev nD) := m ((c.tc : Thread nD τ).loc main_arg9)
abbrev a10 (c : Dev nD) := m ((c.tc : Thread nD τ).loc main_arg10)
abbrev a11 (c : Dev nD) := m ((c.tc : Thread nD τ).loc main_arg11)
abbrev a12 (c : Dev nD) := m ((c.tc : Thread nD τ).loc main_arg12)
abbrev a13 (c : Dev nD) := m ((c.tc : Thread nD τ).loc main_arg13)
abbrev a14 (c : Dev nD) := m ((c.tc : Thread nD τ).loc main_arg14)
abbrev a15 (c : Dev nD) := m ((c.tc : Thread nD τ).loc main_arg15)
abbrev a16 (c : Dev nD) := m ((c.tc : Thread nD τ).loc main_arg16)
abbrev a17 (c : Dev nD) := m ((c.tc : Thread nD τ).loc main_arg17)

/-- The input projection. -/
abbrev vY0 (c : Dev nD) := Cert.Sage.proj (a0 m c) (a2 m c) (a3 m c)
/-- The first hidden state. -/
abbrev vH0 (c : Dev nD) := Cert.Sage.hidden0 (a0 m c) (a2 m c) (a3 m c) (a4 m c) (a5 m c)
/-- The reciprocal of every node's degree. -/
abbrev vD (c : Dev nD) := Host.divf Glue.ones (Cert.Sage.degree (a1 m c))
/-- The first layer before normalisation. -/
abbrev vZ0 (c : Dev nD) := Cert.Sage.sage (vH0 m c) (a1 m c) (a6 m c) (a7 m c) (a8 m c)
/-- The second hidden state. -/
abbrev vH1 (c : Dev nD) := Cert.Sage.hiddenNext (vH0 m c) (a1 m c) (a6 m c) (a7 m c) (a8 m c) (a9 m c) (a10 m c)
/-- The second layer before normalisation. -/
abbrev vZ1 (c : Dev nD) := Cert.Sage.sage (vH1 m c) (a1 m c) (a11 m c) (a12 m c) (a13 m c)
/-- The third hidden state, with the residual. -/
abbrev vH2 (c : Dev nD) := addf (Cert.Sage.hiddenNext (vH1 m c) (a1 m c) (a11 m c) (a12 m c) (a13 m c) (a14 m c) (a15 m c)) (vH0 m c)

/-! ## The buffers at each boundary -/

theorem B1_arg0 (c : Dev nD) : W1 m ρ c (Proc.devRef .tc main_arg0) = (a0 m c) :=
  Glue.keep_hostOps0 (W0 m ρ c) main_arg0 (by decide)

theorem B1_arg2 (c : Dev nD) : W1 m ρ c (Proc.devRef .tc main_arg2) = (a2 m c) :=
  Glue.keep_hostOps0 (W0 m ρ c) main_arg2 (by decide)

theorem B1_arg4 (c : Dev nD) : W1 m ρ c (Proc.devRef .tc main_arg4) = (a4 m c) :=
  Glue.keep_hostOps0 (W0 m ρ c) main_arg4 (by decide)

theorem B1_arg5 (c : Dev nD) : W1 m ρ c (Proc.devRef .tc main_arg5) = (a5 m c) :=
  Glue.keep_hostOps0 (W0 m ρ c) main_arg5 (by decide)

theorem B1_arg6 (c : Dev nD) : W1 m ρ c (Proc.devRef .tc main_arg6) = (a6 m c) :=
  Glue.keep_hostOps0 (W0 m ρ c) main_arg6 (by decide)

theorem B1_arg7 (c : Dev nD) : W1 m ρ c (Proc.devRef .tc main_arg7) = (a7 m c) :=
  Glue.keep_hostOps0 (W0 m ρ c) main_arg7 (by decide)

theorem B1_arg8 (c : Dev nD) : W1 m ρ c (Proc.devRef .tc main_arg8) = (a8 m c) :=
  Glue.keep_hostOps0 (W0 m ρ c) main_arg8 (by decide)

theorem B1_arg9 (c : Dev nD) : W1 m ρ c (Proc.devRef .tc main_arg9) = (a9 m c) :=
  Glue.keep_hostOps0 (W0 m ρ c) main_arg9 (by decide)

theorem B1_arg10 (c : Dev nD) : W1 m ρ c (Proc.devRef .tc main_arg10) = (a10 m c) :=
  Glue.keep_hostOps0 (W0 m ρ c) main_arg10 (by decide)

theorem B1_arg11 (c : Dev nD) : W1 m ρ c (Proc.devRef .tc main_arg11) = (a11 m c) :=
  Glue.keep_hostOps0 (W0 m ρ c) main_arg11 (by decide)

theorem B1_arg12 (c : Dev nD) : W1 m ρ c (Proc.devRef .tc main_arg12) = (a12 m c) :=
  Glue.keep_hostOps0 (W0 m ρ c) main_arg12 (by decide)

theorem B1_arg13 (c : Dev nD) : W1 m ρ c (Proc.devRef .tc main_arg13) = (a13 m c) :=
  Glue.keep_hostOps0 (W0 m ρ c) main_arg13 (by decide)

theorem B1_arg14 (c : Dev nD) : W1 m ρ c (Proc.devRef .tc main_arg14) = (a14 m c) :=
  Glue.keep_hostOps0 (W0 m ρ c) main_arg14 (by decide)

theorem B1_arg15 (c : Dev nD) : W1 m ρ c (Proc.devRef .tc main_arg15) = (a15 m c) :=
  Glue.keep_hostOps0 (W0 m ρ c) main_arg15 (by decide)

theorem B1_arg16 (c : Dev nD) : W1 m ρ c (Proc.devRef .tc main_arg16) = (a16 m c) :=
  Glue.keep_hostOps0 (W0 m ρ c) main_arg16 (by decide)

theorem B1_arg17 (c : Dev nD) : W1 m ρ c (Proc.devRef .tc main_arg17) = (a17 m c) :=
  Glue.keep_hostOps0 (W0 m ρ c) main_arg17 (by decide)

theorem B1_v1 (c : Dev nD) : W1 m ρ c (Proc.devRef .tc main_v1) = Cert.Sage.srcOf (a1 m c) :=
  Glue.G0_src (W0 m ρ c)

theorem B1_v3 (c : Dev nD) : W1 m ρ c (Proc.devRef .tc main_v3) = Cert.Sage.dstOf (a1 m c) :=
  Glue.G0_dst (W0 m ρ c)

theorem B1_v4 (c : Dev nD) : W1 m ρ c (Proc.devRef .tc main_v4) = Glue.row64 (a3 m c) :=
  Glue.G0_bias (W0 m ρ c)

/-- After the projection kernel its result array holds the projection of the launched arguments. -/
theorem B2_v5 (c : Dev nD) : W2 m ρ c (Proc.devRef .tc main_v5) = vY0 m c := by
  refine (W2_arr m ρ c 3).trans ((R0.final (V1 m ρ) c (a3 m c) (B1_v4 m ρ c)).trans ?_)
  rw [show V1 m ρ c main_arg0 = (a0 m c) from B1_arg0 m ρ c, show V1 m ρ c main_arg2 = (a2 m c) from B1_arg2 m ρ c]

theorem B2_v1 (c : Dev nD) : W2 m ρ c (Proc.devRef .tc main_v1) = Cert.Sage.srcOf (a1 m c) :=
  (W2_of_ne m ρ c main_v1 (by decide)).trans (B1_v1 m ρ c)

theorem B2_v3 (c : Dev nD) : W2 m ρ c (Proc.devRef .tc main_v3) = Cert.Sage.dstOf (a1 m c) :=
  (W2_of_ne m ρ c main_v3 (by decide)).trans (B1_v3 m ρ c)

theorem B2_arg4 (c : Dev nD) : W2 m ρ c (Proc.devRef .tc main_arg4) = (a4 m c) :=
  (W2_of_ne m ρ c main_arg4 (by decide)).trans (B1_arg4 m ρ c)

theorem B2_arg5 (c : Dev nD) : W2 m ρ c (Proc.devRef .tc main_arg5) = (a5 m c) :=
  (W2_of_ne m ρ c main_arg5 (by decide)).trans (B1_arg5 m ρ c)

theorem B2_arg6 (c : Dev nD) : W2 m ρ c (Proc.devRef .tc main_arg6) = (a6 m c) :=
  (W2_of_ne m ρ c main_arg6 (by decide)).trans (B1_arg6 m ρ c)

theorem B2_arg7 (c : Dev nD) : W2 m ρ c (Proc.devRef .tc main_arg7) = (a7 m c) :=
  (W2_of_ne m ρ c main_arg7 (by decide)).trans (B1_arg7 m ρ c)

theorem B2_arg8 (c : Dev nD) : W2 m ρ c (Proc.devRef .tc main_arg8) = (a8 m c) :=
  (W2_of_ne m ρ c main_arg8 (by decide)).trans (B1_arg8 m ρ c)

theorem B2_arg9 (c : Dev nD) : W2 m ρ c (Proc.devRef .tc main_arg9) = (a9 m c) :=
  (W2_of_ne m ρ c main_arg9 (by decide)).trans (B1_arg9 m ρ c)

theorem B2_arg10 (c : Dev nD) : W2 m ρ c (Proc.devRef .tc main_arg10) = (a10 m c) :=
  (W2_of_ne m ρ c main_arg10 (by decide)).trans (B1_arg10 m ρ c)

theorem B2_arg11 (c : Dev nD) : W2 m ρ c (Proc.devRef .tc main_arg11) = (a11 m c) :=
  (W2_of_ne m ρ c main_arg11 (by decide)).trans (B1_arg11 m ρ c)

theorem B2_arg12 (c : Dev nD) : W2 m ρ c (Proc.devRef .tc main_arg12) = (a12 m c) :=
  (W2_of_ne m ρ c main_arg12 (by decide)).trans (B1_arg12 m ρ c)

theorem B2_arg13 (c : Dev nD) : W2 m ρ c (Proc.devRef .tc main_arg13) = (a13 m c) :=
  (W2_of_ne m ρ c main_arg13 (by decide)).trans (B1_arg13 m ρ c)

theorem B2_arg14 (c : Dev nD) : W2 m ρ c (Proc.devRef .tc main_arg14) = (a14 m c) :=
  (W2_of_ne m ρ c main_arg14 (by decide)).trans (B1_arg14 m ρ c)

theorem B2_arg15 (c : Dev nD) : W2 m ρ c (Proc.devRef .tc main_arg15) = (a15 m c) :=
  (W2_of_ne m ρ c main_arg15 (by decide)).trans (B1_arg15 m ρ c)

theorem B2_arg16 (c : Dev nD) : W2 m ρ c (Proc.devRef .tc main_arg16) = (a16 m c) :=
  (W2_of_ne m ρ c main_arg16 (by decide)).trans (B1_arg16 m ρ c)

theorem B2_arg17 (c : Dev nD) : W2 m ρ c (Proc.devRef .tc main_arg17) = (a17 m c) :=
  (W2_of_ne m ρ c main_arg17 (by decide)).trans (B1_arg17 m ρ c)

theorem B5_v6 (c : Dev nD) : W5 m ρ c (Proc.devRef .tc main_v6) = Glue.zeros :=
  Glue.G1_zeros (W2 m ρ c)

theorem B5_v11 (c : Dev nD) : W5 m ρ c (Proc.devRef .tc main_v11) = Glue.row64 (a4 m c) :=
  (Glue.G1_scale (W2 m ρ c)).trans (congrArg Glue.row64 (B2_arg4 m ρ c))

theorem B5_v12 (c : Dev nD) : W5 m ρ c (Proc.devRef .tc main_v12) = Glue.row64 (a5 m c) :=
  (Glue.G1_shift (W2 m ρ c)).trans (congrArg Glue.row64 (B2_arg5 m ρ c))

theorem B5_v13 (c : Dev nD) : W5 m ρ c (Proc.devRef .tc main_v13) = Glue.row64 (Cert.Sage.colMean (vY0 m c)) :=
  (Glue.G1_mean (W2 m ρ c)).trans (congrArg (fun y => Glue.row64 (Cert.Sage.colMean y)) (B2_v5 m ρ c))

theorem B5_v14 (c : Dev nD) : W5 m ρ c (Proc.devRef .tc main_v14) = Glue.row64 (Cert.Sage.colVar (vY0 m c)) :=
  (Glue.G1_var (W2 m ρ c)).trans (congrArg (fun y => Glue.row64 (Cert.Sage.colVar y)) (B2_v5 m ρ c))

theorem B5_v5 (c : Dev nD) : W5 m ρ c (Proc.devRef .tc main_v5) = vY0 m c :=
  (Glue.keep_G1 (W2 m ρ c) main_v5 (by decide)).trans (B2_v5 m ρ c)

theorem B5_v1 (c : Dev nD) : W5 m ρ c (Proc.devRef .tc main_v1) = Cert.Sage.srcOf (a1 m c) :=
  (Glue.keep_G1 (W2 m ρ c) main_v1 (by decide)).trans (B2_v1 m ρ c)

theorem B5_v3 (c : Dev nD) : W5 m ρ c (Proc.devRef .tc main_v3) = Cert.Sage.dstOf (a1 m c) :=
  (Glue.keep_G1 (W2 m ρ c) main_v3 (by decide)).trans (B2_v3 m ρ c)

theorem B5_arg6 (c : Dev nD) : W5 m ρ c (Proc.devRef .tc main_arg6) = (a6 m c) :=
  (Glue.keep_G1 (W2 m ρ c) main_arg6 (by decide)).trans (B2_arg6 m ρ c)

theorem B5_arg7 (c : Dev nD) : W5 m ρ c (Proc.devRef .tc main_arg7) = (a7 m c) :=
  (Glue.keep_G1 (W2 m ρ c) main_arg7 (by decide)).trans (B2_arg7 m ρ c)

theorem B5_arg8 (c : Dev nD) : W5 m ρ c (Proc.devRef .tc main_arg8) = (a8 m c) :=
  (Glue.keep_G1 (W2 m ρ c) main_arg8 (by decide)).trans (B2_arg8 m ρ c)

theorem B5_arg9 (c : Dev nD) : W5 m ρ c (Proc.devRef .tc main_arg9) = (a9 m c) :=
  (Glue.keep_G1 (W2 m ρ c) main_arg9 (by decide)).trans (B2_arg9 m ρ c)

theorem B5_arg10 (c : Dev nD) : W5 m ρ c (Proc.devRef .tc main_arg10) = (a10 m c) :=
  (Glue.keep_G1 (W2 m ρ c) main_arg10 (by decide)).trans (B2_arg10 m ρ c)

theorem B5_arg11 (c : Dev nD) : W5 m ρ c (Proc.devRef .tc main_arg11) = (a11 m c) :=
  (Glue.keep_G1 (W2 m ρ c) main_arg11 (by decide)).trans (B2_arg11 m ρ c)

theorem B5_arg12 (c : Dev nD) : W5 m ρ c (Proc.devRef .tc main_arg12) = (a12 m c) :=
  (Glue.keep_G1 (W2 m ρ c) main_arg12 (by decide)).trans (B2_arg12 m ρ c)

theorem B5_arg13 (c : Dev nD) : W5 m ρ c (Proc.devRef .tc main_arg13) = (a13 m c) :=
  (Glue.keep_G1 (W2 m ρ c) main_arg13 (by decide)).trans (B2_arg13 m ρ c)

theorem B5_arg14 (c : Dev nD) : W5 m ρ c (Proc.devRef .tc main_arg14) = (a14 m c) :=
  (Glue.keep_G1 (W2 m ρ c) main_arg14 (by decide)).trans (B2_arg14 m ρ c)

theorem B5_arg15 (c : Dev nD) : W5 m ρ c (Proc.devRef .tc main_arg15) = (a15 m c) :=
  (Glue.keep_G1 (W2 m ρ c) main_arg15 (by decide)).trans (B2_arg15 m ρ c)

theorem B5_arg16 (c : Dev nD) : W5 m ρ c (Proc.devRef .tc main_arg16) = (a16 m c) :=
  (Glue.keep_G1 (W2 m ρ c) main_arg16 (by decide)).trans (B2_arg16 m ρ c)

theorem B5_arg17 (c : Dev nD) : W5 m ρ c (Proc.devRef .tc main_arg17) = (a17 m c) :=
  (Glue.keep_G1 (W2 m ρ c) main_arg17 (by decide)).trans (B2_arg17 m ρ c)

/-- After this normalising kernel its result array holds the normalised, rectified matrix. -/
theorem B6_v15 (c : Dev nD) : W6 m ρ c (Proc.devRef .tc main_v15) = vH0 m c := by
  refine (W6_arr m ρ c 6).trans ((R1.final (V5 m ρ) c (a4 m c) (a5 m c) (B5_v11 m ρ c) (B5_v12 m ρ c)
    ((B5_v13 m ρ c).trans (congrArg (fun y => Glue.row64 (Cert.Sage.colMean y)) (B5_v5 m ρ c)).symm)
    ((B5_v14 m ρ c).trans (congrArg (fun y => Glue.row64 (Cert.Sage.colVar y)) (B5_v5 m ρ c)).symm)).trans ?_)
  rw [show V5 m ρ c main_v5 = vY0 m c from B5_v5 m ρ c, show V5 m ρ c main_v6 = Glue.zeros from B5_v6 m ρ c]
  exact Cert.Sage.addf_zeros _

theorem B6_v1 (c : Dev nD) : W6 m ρ c (Proc.devRef .tc main_v1) = Cert.Sage.srcOf (a1 m c) :=
  (W6_of_ne m ρ c main_v1 (by decide)).trans (B5_v1 m ρ c)

theorem B6_v3 (c : Dev nD) : W6 m ρ c (Proc.devRef .tc main_v3) = Cert.Sage.dstOf (a1 m c) :=
  (W6_of_ne m ρ c main_v3 (by decide)).trans (B5_v3 m ρ c)

theorem B6_arg6 (c : Dev nD) : W6 m ρ c (Proc.devRef .tc main_arg6) = (a6 m c) :=
  (W6_of_ne m ρ c main_arg6 (by decide)).trans (B5_arg6 m ρ c)

theorem B6_arg7 (c : Dev nD) : W6 m ρ c (Proc.devRef .tc main_arg7) = (a7 m c) :=
  (W6_of_ne m ρ c main_arg7 (by decide)).trans (B5_arg7 m ρ c)

theorem B6_arg8 (c : Dev nD) : W6 m ρ c (Proc.devRef .tc main_arg8) = (a8 m c) :=
  (W6_of_ne m ρ c main_arg8 (by decide)).trans (B5_arg8 m ρ c)

theorem B6_arg9 (c : Dev nD) : W6 m ρ c (Proc.devRef .tc main_arg9) = (a9 m c) :=
  (W6_of_ne m ρ c main_arg9 (by decide)).trans (B5_arg9 m ρ c)

theorem B6_arg10 (c : Dev nD) : W6 m ρ c (Proc.devRef .tc main_arg10) = (a10 m c) :=
  (W6_of_ne m ρ c main_arg10 (by decide)).trans (B5_arg10 m ρ c)

theorem B6_arg11 (c : Dev nD) : W6 m ρ c (Proc.devRef .tc main_arg11) = (a11 m c) :=
  (W6_of_ne m ρ c main_arg11 (by decide)).trans (B5_arg11 m ρ c)

theorem B6_arg12 (c : Dev nD) : W6 m ρ c (Proc.devRef .tc main_arg12) = (a12 m c) :=
  (W6_of_ne m ρ c main_arg12 (by decide)).trans (B5_arg12 m ρ c)

theorem B6_arg13 (c : Dev nD) : W6 m ρ c (Proc.devRef .tc main_arg13) = (a13 m c) :=
  (W6_of_ne m ρ c main_arg13 (by decide)).trans (B5_arg13 m ρ c)

theorem B6_arg14 (c : Dev nD) : W6 m ρ c (Proc.devRef .tc main_arg14) = (a14 m c) :=
  (W6_of_ne m ρ c main_arg14 (by decide)).trans (B5_arg14 m ρ c)

theorem B6_arg15 (c : Dev nD) : W6 m ρ c (Proc.devRef .tc main_arg15) = (a15 m c) :=
  (W6_of_ne m ρ c main_arg15 (by decide)).trans (B5_arg15 m ρ c)

theorem B6_arg16 (c : Dev nD) : W6 m ρ c (Proc.devRef .tc main_arg16) = (a16 m c) :=
  (W6_of_ne m ρ c main_arg16 (by decide)).trans (B5_arg16 m ρ c)

theorem B6_arg17 (c : Dev nD) : W6 m ρ c (Proc.devRef .tc main_arg17) = (a17 m c) :=
  (W6_of_ne m ρ c main_arg17 (by decide)).trans (B5_arg17 m ρ c)

theorem B6_v6 (c : Dev nD) : W6 m ρ c (Proc.devRef .tc main_v6) = Glue.zeros :=
  ((W6_arr m ρ c 5).trans (((dat1 (V5 m ρ) c).arrAt_in 5 rfl _).trans (A_eq1 (V5 m ρ) c 5))).trans (B5_v6 m ρ c)

theorem B7_v23 (c : Dev nD) : W7 m ρ c (Proc.devRef .tc main_v23) = vD m c :=
  Glue.G2_recip (W6 m ρ c) (a1 m c) (B6_v1 m ρ c) (B6_v3 m ρ c)

theorem B7_v36 (c : Dev nD) : W7 m ρ c (Proc.devRef .tc main_v36) = mulf (Cert.Sage.edgeSum (vH0 m c) (a1 m c)) (Cert.Sage.alongRows (vD m c)) :=
  (Glue.G2_agg (W6 m ρ c) (a1 m c) (B6_v1 m ρ c) (B6_v3 m ρ c)).trans
    (congrArg (fun h => mulf (Cert.Sage.edgeSum h (a1 m c)) (Cert.Sage.alongRows (vD m c))) (B6_v15 m ρ c))

theorem B7_v37 (c : Dev nD) : W7 m ρ c (Proc.devRef .tc main_v37) = Glue.row64 (a7 m c) :=
  (Glue.G2_bias (W6 m ρ c)).trans (congrArg Glue.row64 (B6_arg7 m ρ c))

theorem B7_v15 (c : Dev nD) : W7 m ρ c (Proc.devRef .tc main_v15) = vH0 m c :=
  (Glue.keep_hostOps2 (W6 m ρ c) main_v15 (by decide)).trans (B6_v15 m ρ c)

theorem B7_v6 (c : Dev nD) : W7 m ρ c (Proc.devRef .tc main_v6) = Glue.zeros :=
  (Glue.keep_hostOps2 (W6 m ρ c) main_v6 (by decide)).trans (B6_v6 m ρ c)

theorem B7_v1 (c : Dev nD) : W7 m ρ c (Proc.devRef .tc main_v1) = Cert.Sage.srcOf (a1 m c) :=
  (Glue.keep_hostOps2 (W6 m ρ c) main_v1 (by decide)).trans (B6_v1 m ρ c)

theorem B7_v3 (c : Dev nD) : W7 m ρ c (Proc.devRef .tc main_v3) = Cert.Sage.dstOf (a1 m c) :=
  (Glue.keep_hostOps2 (W6 m ρ c) main_v3 (by decide)).trans (B6_v3 m ρ c)

theorem B7_arg6 (c : Dev nD) : W7 m ρ c (Proc.devRef .tc main_arg6) = (a6 m c) :=
  (Glue.keep_hostOps2 (W6 m ρ c) main_arg6 (by decide)).trans (B6_arg6 m ρ c)

theorem B7_arg8 (c : Dev nD) : W7 m ρ c (Proc.devRef .tc main_arg8) = (a8 m c) :=
  (Glue.keep_hostOps2 (W6 m ρ c) main_arg8 (by decide)).trans (B6_arg8 m ρ c)

theorem B7_arg9 (c : Dev nD) : W7 m ρ c (Proc.devRef .tc main_arg9) = (a9 m c) :=
  (Glue.keep_hostOps2 (W6 m ρ c) main_arg9 (by decide)).trans (B6_arg9 m ρ c)

theorem B7_arg10 (c : Dev nD) : W7 m ρ c (Proc.devRef .tc main_arg10) = (a10 m c) :=
  (Glue.keep_hostOps2 (W6 m ρ c) main_arg10 (by decide)).trans (B6_arg10 m ρ c)

theorem B7_arg11 (c : Dev nD) : W7 m ρ c (Proc.devRef .tc main_arg11) = (a11 m c) :=
  (Glue.keep_hostOps2 (W6 m ρ c) main_arg11 (by decide)).trans (B6_arg11 m ρ c)

theorem B7_arg12 (c : Dev nD) : W7 m ρ c (Proc.devRef .tc main_arg12) = (a12 m c) :=
  (Glue.keep_hostOps2 (W6 m ρ c) main_arg12 (by decide)).trans (B6_arg12 m ρ c)

theorem B7_arg13 (c : Dev nD) : W7 m ρ c (Proc.devRef .tc main_arg13) = (a13 m c) :=
  (Glue.keep_hostOps2 (W6 m ρ c) main_arg13 (by decide)).trans (B6_arg13 m ρ c)

theorem B7_arg14 (c : Dev nD) : W7 m ρ c (Proc.devRef .tc main_arg14) = (a14 m c) :=
  (Glue.keep_hostOps2 (W6 m ρ c) main_arg14 (by decide)).trans (B6_arg14 m ρ c)

theorem B7_arg15 (c : Dev nD) : W7 m ρ c (Proc.devRef .tc main_arg15) = (a15 m c) :=
  (Glue.keep_hostOps2 (W6 m ρ c) main_arg15 (by decide)).trans (B6_arg15 m ρ c)

theorem B7_arg16 (c : Dev nD) : W7 m ρ c (Proc.devRef .tc main_arg16) = (a16 m c) :=
  (Glue.keep_hostOps2 (W6 m ρ c) main_arg16 (by decide)).trans (B6_arg16 m ρ c)

theorem B7_arg17 (c : Dev nD) : W7 m ρ c (Proc.devRef .tc main_arg17) = (a17 m c) :=
  (Glue.keep_hostOps2 (W6 m ρ c) main_arg17 (by decide)).trans (B6_arg17 m ρ c)

/-- After this double linear kernel its result array holds the layer `mean-aggregate · Wl + bl + h · Wr`: the
    aggregate the host prepared is the edge sum times the reciprocal degree, which is the mean over the edges. -/
theorem B8_v38 (c : Dev nD) : W8 m ρ c (Proc.devRef .tc main_v38) = vZ0 m c := by
  refine (W8_arr m ρ c 5).trans ((R2.final (V7 m ρ) c (a7 m c) (B7_v37 m ρ c)).trans ?_)
  rw [show V7 m ρ c main_v36 = mulf (Cert.Sage.edgeSum (vH0 m c) (a1 m c)) (Cert.Sage.alongRows (vD m c)) from B7_v36 m ρ c,
    show V7 m ρ c main_v15 = vH0 m c from B7_v15 m ρ c,
    show V7 m ρ c main_arg6 = (a6 m c) from B7_arg6 m ρ c,
    show V7 m ρ c main_arg8 = (a8 m c) from B7_arg8 m ρ c]
  show _ = Cert.Sage.sage (vH0 m c) (a1 m c) (a6 m c) (a7 m c) (a8 m c)
  rw [Cert.Sage.sage_eq, Cert.Sage.edgeMean_eq_mul]
  rfl

theorem B8_v23 (c : Dev nD) : W8 m ρ c (Proc.devRef .tc main_v23) = vD m c :=
  (W8_of_ne m ρ c main_v23 (by decide)).trans (B7_v23 m ρ c)

theorem B8_v6 (c : Dev nD) : W8 m ρ c (Proc.devRef .tc main_v6) = Glue.zeros :=
  (W8_of_ne m ρ c main_v6 (by decide)).trans (B7_v6 m ρ c)

theorem B8_v1 (c : Dev nD) : W8 m ρ c (Proc.devRef .tc main_v1) = Cert.Sage.srcOf (a1 m c) :=
  (W8_of_ne m ρ c main_v1 (by decide)).trans (B7_v1 m ρ c)

theorem B8_v3 (c : Dev nD) : W8 m ρ c (Proc.devRef .tc main_v3) = Cert.Sage.dstOf (a1 m c) :=
  (W8_of_ne m ρ c main_v3 (by decide)).trans (B7_v3 m ρ c)

theorem B8_arg9 (c : Dev nD) : W8 m ρ c (Proc.devRef .tc main_arg9) = (a9 m c) :=
  (W8_of_ne m ρ c main_arg9 (by decide)).trans (B7_arg9 m ρ c)

theorem B8_arg10 (c : Dev nD) : W8 m ρ c (Proc.devRef .tc main_arg10) = (a10 m c) :=
  (W8_of_ne m ρ c main_arg10 (by decide)).trans (B7_arg10 m ρ c)

theorem B8_arg11 (c : Dev nD) : W8 m ρ c (Proc.devRef .tc main_arg11) = (a11 m c) :=
  (W8_of_ne m ρ c main_arg11 (by decide)).trans (B7_arg11 m ρ c)

theorem B8_arg12 (c : Dev nD) : W8 m ρ c (Proc.devRef .tc main_arg12) = (a12 m c) :=
  (W8_of_ne m ρ c main_arg12 (by decide)).trans (B7_arg12 m ρ c)

theorem B8_arg13 (c : Dev nD) : W8 m ρ c (Proc.devRef .tc main_arg13) = (a13 m c) :=
  (W8_of_ne m ρ c main_arg13 (by decide)).trans (B7_arg13 m ρ c)

theorem B8_arg14 (c : Dev nD) : W8 m ρ c (Proc.devRef .tc main_arg14) = (a14 m c) :=
  (W8_of_ne m ρ c main_arg14 (by decide)).trans (B7_arg14 m ρ c)

theorem B8_arg15 (c : Dev nD) : W8 m ρ c (Proc.devRef .tc main_arg15) = (a15 m c) :=
  (W8_of_ne m ρ c main_arg15 (by decide)).trans (B7_arg15 m ρ c)

theorem B8_arg16 (c : Dev nD) : W8 m ρ c (Proc.devRef .tc main_arg16) = (a16 m c) :=
  (W8_of_ne m ρ c main_arg16 (by decide)).trans (B7_arg16 m ρ c)

theorem B8_arg17 (c : Dev nD) : W8 m ρ c (Proc.devRef .tc main_arg17) = (a17 m c) :=
  (W8_of_ne m ρ c main_arg17 (by decide)).trans (B7_arg17 m ρ c)

theorem B8_v15 (c : Dev nD) : W8 m ρ c (Proc.devRef .tc main_v15) = vH0 m c :=
  ((W8_arr m ρ c 2).trans (((dat2 (V7 m ρ) c).arrAt_in 2 rfl _).trans (A_eq2 (V7 m ρ) c 2))).trans (B7_v15 m ρ c)

theorem B11_v43 (c : Dev nD) : W11 m ρ c (Proc.devRef .tc main_v43) = Glue.row64 (a9 m c) :=
  (Glue.G3_scale (W8 m ρ c)).trans (congrArg Glue.row64 (B8_arg9 m ρ c))

theorem B11_v44 (c : Dev nD) : W11 m ρ c (Proc.devRef .tc main_v44) = Glue.row64 (a10 m c) :=
  (Glue.G3_shift (W8 m ρ c)).trans (congrArg Glue.row64 (B8_arg10 m ρ c))

theorem B11_v45 (c : Dev nD) : W11 m ρ c (Proc.devRef .tc main_v45) = Glue.row64 (Cert.Sage.colMean (vZ0 m c)) :=
  (Glue.G3_mean (W8 m ρ c)).trans (congrArg (fun y => Glue.row64 (Cert.Sage.colMean y)) (B8_v38 m ρ c))

theorem B11_v46 (c : Dev nD) : W11 m ρ c (Proc.devRef .tc main_v46) = Glue.row64 (Cert.Sage.colVar (vZ0 m c)) :=
  (Glue.G3_var (W8 m ρ c)).trans (congrArg (fun y => Glue.row64 (Cert.Sage.colVar y)) (B8_v38 m ρ c))

theorem B11_v38 (c : Dev nD) : W11 m ρ c (Proc.devRef .tc main_v38) = vZ0 m c :=
  (Glue.keep_G3 (W8 m ρ c) main_v38 (by decide)).trans (B8_v38 m ρ c)

theorem B11_v6 (c : Dev nD) : W11 m ρ c (Proc.devRef .tc main_v6) = Glue.zeros :=
  (Glue.keep_G3 (W8 m ρ c) main_v6 (by decide)).trans (B8_v6 m ρ c)

theorem B11_v15 (c : Dev nD) : W11 m ρ c (Proc.devRef .tc main_v15) = vH0 m c :=
  (Glue.keep_G3 (W8 m ρ c) main_v15 (by decide)).trans (B8_v15 m ρ c)

theorem B11_v23 (c : Dev nD) : W11 m ρ c (Proc.devRef .tc main_v23) = vD m c :=
  (Glue.keep_G3 (W8 m ρ c) main_v23 (by decide)).trans (B8_v23 m ρ c)

theorem B11_v1 (c : Dev nD) : W11 m ρ c (Proc.devRef .tc main_v1) = Cert.Sage.srcOf (a1 m c) :=
  (Glue.keep_G3 (W8 m ρ c) main_v1 (by decide)).trans (B8_v1 m ρ c)

theorem B11_v3 (c : Dev nD) : W11 m ρ c (Proc.devRef .tc main_v3) = Cert.Sage.dstOf (a1 m c) :=
  (Glue.keep_G3 (W8 m ρ c) main_v3 (by decide)).trans (B8_v3 m ρ c)

theorem B11_arg11 (c : Dev nD) : W11 m ρ c (Proc.devRef .tc main_arg11) = (a11 m c) :=
  (Glue.keep_G3 (W8 m ρ c) main_arg11 (by decide)).trans (B8_arg11 m ρ c)

theorem B11_arg12 (c : Dev nD) : W11 m ρ c (Proc.devRef .tc main_arg12) = (a12 m c) :=
  (Glue.keep_G3 (W8 m ρ c) main_arg12 (by decide)).trans (B8_arg12 m ρ c)

theorem B11_arg13 (c : Dev nD) : W11 m ρ c (Proc.devRef .tc main_arg13) = (a13 m c) :=
  (Glue.keep_G3 (W8 m ρ c) main_arg13 (by decide)).trans (B8_arg13 m ρ c)

theorem B11_arg14 (c : Dev nD) : W11 m ρ c (Proc.devRef .tc main_arg14) = (a14 m c) :=
  (Glue.keep_G3 (W8 m ρ c) main_arg14 (by decide)).trans (B8_arg14 m ρ c)

theorem B11_arg15 (c : Dev nD) : W11 m ρ c (Proc.devRef .tc main_arg15) = (a15 m c) :=
  (Glue.keep_G3 (W8 m ρ c) main_arg15 (by decide)).trans (B8_arg15 m ρ c)

theorem B11_arg16 (c : Dev nD) : W11 m ρ c (Proc.devRef .tc main_arg16) = (a16 m c) :=
  (Glue.keep_G3 (W8 m ρ c) main_arg16 (by decide)).trans (B8_arg16 m ρ c)

theorem B11_arg17 (c : Dev nD) : W11 m ρ c (Proc.devRef .tc main_arg17) = (a17 m c) :=
  (Glue.keep_G3 (W8 m ρ c) main_arg17 (by decide)).trans (B8_arg17 m ρ c)

/-- After this normalising kernel its result array holds the normalised, rectified matrix. -/
theorem B12_v47 (c : Dev nD) : W12 m ρ c (Proc.devRef .tc main_v47) = vH1 m c := by
  refine (W12_arr m ρ c 6).trans ((R3.final (V11 m ρ) c (a9 m c) (a10 m c) (B11_v43 m ρ c) (B11_v44 m ρ c)
    ((B11_v45 m ρ c).trans (congrArg (fun y => Glue.row64 (Cert.Sage.colMean y)) (B11_v38 m ρ c)).symm)
    ((B11_v46 m ρ c).trans (congrArg (fun y => Glue.row64 (Cert.Sage.colVar y)) (B11_v38 m ρ c)).symm)).trans ?_)
  rw [show V11 m ρ c main_v38 = vZ0 m c from B11_v38 m ρ c, show V11 m ρ c main_v6 = Glue.zeros from B11_v6 m ρ c]
  exact Cert.Sage.addf_zeros _

theorem B12_v15 (c : Dev nD) : W12 m ρ c (Proc.devRef .tc main_v15) = vH0 m c :=
  (W12_of_ne m ρ c main_v15 (by decide)).trans (B11_v15 m ρ c)

theorem B12_v23 (c : Dev nD) : W12 m ρ c (Proc.devRef .tc main_v23) = vD m c :=
  (W12_of_ne m ρ c main_v23 (by decide)).trans (B11_v23 m ρ c)

theorem B12_v1 (c : Dev nD) : W12 m ρ c (Proc.devRef .tc main_v1) = Cert.Sage.srcOf (a1 m c) :=
  (W12_of_ne m ρ c main_v1 (by decide)).trans (B11_v1 m ρ c)

theorem B12_v3 (c : Dev nD) : W12 m ρ c (Proc.devRef .tc main_v3) = Cert.Sage.dstOf (a1 m c) :=
  (W12_of_ne m ρ c main_v3 (by decide)).trans (B11_v3 m ρ c)

theorem B12_arg11 (c : Dev nD) : W12 m ρ c (Proc.devRef .tc main_arg11) = (a11 m c) :=
  (W12_of_ne m ρ c main_arg11 (by decide)).trans (B11_arg11 m ρ c)

theorem B12_arg12 (c : Dev nD) : W12 m ρ c (Proc.devRef .tc main_arg12) = (a12 m c) :=
  (W12_of_ne m ρ c main_arg12 (by decide)).trans (B11_arg12 m ρ c)

theorem B12_arg13 (c : Dev nD) : W12 m ρ c (Proc.devRef .tc main_arg13) = (a13 m c) :=
  (W12_of_ne m ρ c main_arg13 (by decide)).trans (B11_arg13 m ρ c)

theorem B12_arg14 (c : Dev nD) : W12 m ρ c (Proc.devRef .tc main_arg14) = (a14 m c) :=
  (W12_of_ne m ρ c main_arg14 (by decide)).trans (B11_arg14 m ρ c)

theorem B12_arg15 (c : Dev nD) : W12 m ρ c (Proc.devRef .tc main_arg15) = (a15 m c) :=
  (W12_of_ne m ρ c main_arg15 (by decide)).trans (B11_arg15 m ρ c)

theorem B12_arg16 (c : Dev nD) : W12 m ρ c (Proc.devRef .tc main_arg16) = (a16 m c) :=
  (W12_of_ne m ρ c main_arg16 (by decide)).trans (B11_arg16 m ρ c)

theorem B12_arg17 (c : Dev nD) : W12 m ρ c (Proc.devRef .tc main_arg17) = (a17 m c) :=
  (W12_of_ne m ρ c main_arg17 (by decide)).trans (B11_arg17 m ρ c)

theorem B13_v60 (c : Dev nD) : W13 m ρ c (Proc.devRef .tc main_v60) = mulf (Cert.Sage.edgeSum (vH1 m c) (a1 m c)) (Cert.Sage.alongRows (vD m c)) :=
  (Glue.G4_agg (W12 m ρ c) (a1 m c) (vD m c) (B12_v1 m ρ c) (B12_v3 m ρ c) (B12_v23 m ρ c)).trans
    (congrArg (fun h => mulf (Cert.Sage.edgeSum h (a1 m c)) (Cert.Sage.alongRows (vD m c))) (B12_v47 m ρ c))

theorem B13_v61 (c : Dev nD) : W13 m ρ c (Proc.devRef .tc main_v61) = Glue.row64 (a12 m c) :=
  (Glue.G4_bias (W12 m ρ c)).trans (congrArg Glue.row64 (B12_arg12 m ρ c))

theorem B13_v47 (c : Dev nD) : W13 m ρ c (Proc.devRef .tc main_v47) = vH1 m c :=
  (Glue.keep_hostOps4 (W12 m ρ c) main_v47 (by decide)).trans (B12_v47 m ρ c)

theorem B13_v15 (c : Dev nD) : W13 m ρ c (Proc.devRef .tc main_v15) = vH0 m c :=
  (Glue.keep_hostOps4 (W12 m ρ c) main_v15 (by decide)).trans (B12_v15 m ρ c)

theorem B13_arg11 (c : Dev nD) : W13 m ρ c (Proc.devRef .tc main_arg11) = (a11 m c) :=
  (Glue.keep_hostOps4 (W12 m ρ c) main_arg11 (by decide)).trans (B12_arg11 m ρ c)

theorem B13_arg13 (c : Dev nD) : W13 m ρ c (Proc.devRef .tc main_arg13) = (a13 m c) :=
  (Glue.keep_hostOps4 (W12 m ρ c) main_arg13 (by decide)).trans (B12_arg13 m ρ c)

theorem B13_arg14 (c : Dev nD) : W13 m ρ c (Proc.devRef .tc main_arg14) = (a14 m c) :=
  (Glue.keep_hostOps4 (W12 m ρ c) main_arg14 (by decide)).trans (B12_arg14 m ρ c)

theorem B13_arg15 (c : Dev nD) : W13 m ρ c (Proc.devRef .tc main_arg15) = (a15 m c) :=
  (Glue.keep_hostOps4 (W12 m ρ c) main_arg15 (by decide)).trans (B12_arg15 m ρ c)

theorem B13_arg16 (c : Dev nD) : W13 m ρ c (Proc.devRef .tc main_arg16) = (a16 m c) :=
  (Glue.keep_hostOps4 (W12 m ρ c) main_arg16 (by decide)).trans (B12_arg16 m ρ c)

theorem B13_arg17 (c : Dev nD) : W13 m ρ c (Proc.devRef .tc main_arg17) = (a17 m c) :=
  (Glue.keep_hostOps4 (W12 m ρ c) main_arg17 (by decide)).trans (B12_arg17 m ρ c)

/-- After this double linear kernel its result array holds the layer `mean-aggregate · Wl + bl + h · Wr`: the
    aggregate the host prepared is the edge sum times the reciprocal degree, which is the mean over the edges. -/
theorem B14_v62 (c : Dev nD) : W14 m ρ c (Proc.devRef .tc main_v62) = vZ1 m c := by
  refine (W14_arr m ρ c 5).trans ((R4.final (V13 m ρ) c (a12 m c) (B13_v61 m ρ c)).trans ?_)
  rw [show V13 m ρ c main_v60 = mulf (Cert.Sage.edgeSum (vH1 m c) (a1 m c)) (Cert.Sage.alongRows (vD m c)) from B13_v60 m ρ c,
    show V13 m ρ c main_v47 = vH1 m c from B13_v47 m ρ c,
    show V13 m ρ c main_arg11 = (a11 m c) from B13_arg11 m ρ c,
    show V13 m ρ c main_arg13 = (a13 m c) from B13_arg13 m ρ c]
  show _ = Cert.Sage.sage (vH1 m c) (a1 m c) (a11 m c) (a12 m c) (a13 m c)
  rw [Cert.Sage.sage_eq, Cert.Sage.edgeMean_eq_mul]
  rfl

theorem B14_v15 (c : Dev nD) : W14 m ρ c (Proc.devRef .tc main_v15) = vH0 m c :=
  (W14_of_ne m ρ c main_v15 (by decide)).trans (B13_v15 m ρ c)

theorem B14_arg14 (c : Dev nD) : W14 m ρ c (Proc.devRef .tc main_arg14) = (a14 m c) :=
  (W14_of_ne m ρ c main_arg14 (by decide)).trans (B13_arg14 m ρ c)

theorem B14_arg15 (c : Dev nD) : W14 m ρ c (Proc.devRef .tc main_arg15) = (a15 m c) :=
  (W14_of_ne m ρ c main_arg15 (by decide)).trans (B13_arg15 m ρ c)

theorem B14_arg16 (c : Dev nD) : W14 m ρ c (Proc.devRef .tc main_arg16) = (a16 m c) :=
  (W14_of_ne m ρ c main_arg16 (by decide)).trans (B13_arg16 m ρ c)

theorem B14_arg17 (c : Dev nD) : W14 m ρ c (Proc.devRef .tc main_arg17) = (a17 m c) :=
  (W14_of_ne m ρ c main_arg17 (by decide)).trans (B13_arg17 m ρ c)

theorem B17_v67 (c : Dev nD) : W17 m ρ c (Proc.devRef .tc main_v67) = Glue.row64 (a14 m c) :=
  (Glue.G5_scale (W14 m ρ c)).trans (congrArg Glue.row64 (B14_arg14 m ρ c))

theorem B17_v68 (c : Dev nD) : W17 m ρ c (Proc.devRef .tc main_v68) = Glue.row64 (a15 m c) :=
  (Glue.G5_shift (W14 m ρ c)).trans (congrArg Glue.row64 (B14_arg15 m ρ c))

theorem B17_v69 (c : Dev nD) : W17 m ρ c (Proc.devRef .tc main_v69) = Glue.row64 (Cert.Sage.colMean (vZ1 m c)) :=
  (Glue.G5_mean (W14 m ρ c)).trans (congrArg (fun y => Glue.row64 (Cert.Sage.colMean y)) (B14_v62 m ρ c))

theorem B17_v70 (c : Dev nD) : W17 m ρ c (Proc.devRef .tc main_v70) = Glue.row64 (Cert.Sage.colVar (vZ1 m c)) :=
  (Glue.G5_var (W14 m ρ c)).trans (congrArg (fun y => Glue.row64 (Cert.Sage.colVar y)) (B14_v62 m ρ c))

theorem B17_v62 (c : Dev nD) : W17 m ρ c (Proc.devRef .tc main_v62) = vZ1 m c :=
  (Glue.keep_G5 (W14 m ρ c) main_v62 (by decide)).trans (B14_v62 m ρ c)

theorem B17_v15 (c : Dev nD) : W17 m ρ c (Proc.devRef .tc main_v15) = vH0 m c :=
  (Glue.keep_G5 (W14 m ρ c) main_v15 (by decide)).trans (B14_v15 m ρ c)

theorem B17_arg16 (c : Dev nD) : W17 m ρ c (Proc.devRef .tc main_arg16) = (a16 m c) :=
  (Glue.keep_G5 (W14 m ρ c) main_arg16 (by decide)).trans (B14_arg16 m ρ c)

theorem B17_arg17 (c : Dev nD) : W17 m ρ c (Proc.devRef .tc main_arg17) = (a17 m c) :=
  (Glue.keep_G5 (W14 m ρ c) main_arg17 (by decide)).trans (B14_arg17 m ρ c)

/-- After this normalising kernel its result array holds the normalised, rectified matrix plus the first hidden state. -/
theorem B18_v71 (c : Dev nD) : W18 m ρ c (Proc.devRef .tc main_v71) = vH2 m c := by
  refine (W18_arr m ρ c 6).trans ((R5.final (V17 m ρ) c (a14 m c) (a15 m c) (B17_v67 m ρ c) (B17_v68 m ρ c)
    ((B17_v69 m ρ c).trans (congrArg (fun y => Glue.row64 (Cert.Sage.colMean y)) (B17_v62 m ρ c)).symm)
    ((B17_v70 m ρ c).trans (congrArg (fun y => Glue.row64 (Cert.Sage.colVar y)) (B17_v62 m ρ c)).symm)).trans ?_)
  rw [show V17 m ρ c main_v62 = vZ1 m c from B17_v62 m ρ c, show V17 m ρ c main_v15 = vH0 m c from B17_v15 m ρ c]
  rfl

theorem B18_arg16 (c : Dev nD) : W18 m ρ c (Proc.devRef .tc main_arg16) = (a16 m c) :=
  (W18_of_ne m ρ c main_arg16 (by decide)).trans (B17_arg16 m ρ c)

theorem B18_arg17 (c : Dev nD) : W18 m ρ c (Proc.devRef .tc main_arg17) = (a17 m c) :=
  (W18_of_ne m ρ c main_arg17 (by decide)).trans (B17_arg17 m ρ c)

theorem B19_v72 (c : Dev nD) : W19 m ρ c (Proc.devRef .tc main_v72) = Glue.row2 (a17 m c) :=
  (Glue.G6_bias (W18 m ρ c)).trans (congrArg Glue.row2 (B18_arg17 m ρ c))

theorem B19_v71 (c : Dev nD) : W19 m ρ c (Proc.devRef .tc main_v71) = vH2 m c :=
  (Glue.keep_hostOps6 (W18 m ρ c) main_v71 (by decide)).trans (B18_v71 m ρ c)

theorem B19_arg16 (c : Dev nD) : W19 m ρ c (Proc.devRef .tc main_arg16) = (a16 m c) :=
  (Glue.keep_hostOps6 (W18 m ρ c) main_arg16 (by decide)).trans (B18_arg16 m ρ c)

/-- After the last kernel the program's result array holds the whole network of the launched arguments. -/
theorem value (c : Dev nD) : W20 m ρ c (Proc.devRef .tc main_v73)
    = Cert.Sage.forward (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) := by
  refine (W20_arr m ρ c 3).trans ((R6.final (V19 m ρ) c (a17 m c) (B19_v72 m ρ c)).trans ?_)
  rw [show V19 m ρ c main_v71 = vH2 m c from B19_v71 m ρ c, show V19 m ρ c main_arg16 = (a16 m c) from B19_arg16 m ρ c]
  rfl

end Cert.KernelIdeal.KValue

end
-- ==== Proof.lean ====
/-
  A two-layer mean-aggregating graph network (input projection, three batch normalisations with rectification, two
  neighbourhood-mean layers with a residual, an output head), computed by seven grid kernels among host operations,
  against the same network computed by host operations alone: on the extended reals the two programs return the
  same array.

  • Both programs run (terminate, fault nowhere) and leave their arguments as launched: the kernel program by its
    twenty segments in order, the host program as a straight line of 216 operations.
  • The kernel program is its own idealisation: nothing was rewritten.
  • The results agree.  The host program's result is, by unfolding, the network `Cert.Sage.forward` of its
    arguments (Proof/Spec.lean, Proof/RefRun.lean).  The kernel program's result is the same function
    (Proof/KValue.lean): each linear kernel writes, row block by row block, the product of its row block with the
    whole weight matrix plus the bias, and an entry of a product depends only on its own row (Proof/R0, R2, R4, R6);
    each normalising kernel is pointwise given the column statistics, which the host computes with the very
    operations of the other program (Proof/R1, R3, R5); narrowing to a shorter float format is the identity; sums
    on the extended reals may be regrouped and reordered freely; the kernel multiplies the edge sums by the
    reciprocal of max(degree, 1) where the other program divides by it, and a quotient by a number that is not zero
    is the product with its reciprocal for every extended real numerator; adding an all-zero residual changes
    nothing.  No finiteness of the inputs is used.
-/
import proofs.«168059_j26053271617569_1_alg».proof.Defs
import proofs.«168059_j26053271617569_1_alg».proof.Proof.Claims
import proofs.«168059_j26053271617569_1_alg».proof.Proof.KValue
import Idealize.ShloMosaic.Adequacy
import Idealize.ShloMosaic.Init

noncomputable section

namespace Cert.Proof

theorem claim : Cert.Claim :=
  Cert.Proof.Claims.claim_of fun m ρ c => Cert.KernelIdeal.KValue.value m ρ c

end Cert.Proof

end
